-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100000 : Shape := ⟨2, ![256, 100000]⟩
abbrev S128x100000 : Shape := ⟨2, ![128, 100000]⟩
abbrev S100000 : Shape := ⟨1, ![100000]⟩
abbrev S1 : Shape := ⟨1, ![1]⟩
abbrev S_ : Shape := ⟨0, ![]⟩

class Facts : Prop where
  bcast_S_S256x100000 : S_.BroadcastsInDim S256x100000 (![] : Fin 0 → Fin S256x100000.rank)
  reducesTo_S256x100000_S_d0_1 : S256x100000.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S100000 .f32) (main_arg5 : FVec F S1 .f32) (main_arg6 : FVec F S1 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x100000 .f32) (main_arg1 : FVec F S128x100000 .f32) (main_arg2 : FVec F S128x100000 .f32) (main_arg3 : FVec F S100000 .f32) (main_arg4 : FVec F S100000 .f32) (main_arg5 : FVec F S1 .f32) (main_arg6 : FVec F S1 .f32) (main_arg7 : IVec S1 32) : IVec S_ 1 :=
  let main_v0 : FVec F S256x100000 .f32 := Host.absf main_arg0
  let main_cst : FVec F S_ .f32 := constant S_ .f32 0x7F800000#32
  let main_v1 : FVec F S256x100000 .f32 := broadcastInDim S256x100000 ![] bcast_S_S256x100000 main_cst
  let main_v2 : IVec S256x100000 1 := cmpf .olt main_v0 main_v1
  let main_c : IVec S_ 1 := constantI S_ 1 1#1
  let main_v3 : IVec S_ 1 := (fun x v => Host.reduce IntOp.andi x v reducesTo_S256x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_v9 : FVec F S128x100000 .f32 := Host.absf main_arg2
  let main_cst_2 : FVec F S_ .f32 := constant S_ .f32 0x7F800000#32
  let main_v10 : FVec F S128x100000 .f32 := broadcastInDim S128x100000 ![] bcast_S_S128x100000 main_cst_2
  let main_v11 : IVec S128x100000 1 := cmpf .olt main_v9 main_v10
  let main_c_3 : IVec S_ 1 := constantI S_ 1 1#1
  let main_v12 : IVec S_ 1 := (fun x v => Host.reduce IntOp.andi x v reducesTo_S128x100000_S_d0_1 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_v13 main_v16
-- ==== Kernel.lean ====
abbrev S256x100000 : Shape := ⟨2, ![256, 100000]⟩
abbrev S128x100000 : Shape := ⟨2, ![128, 100000]⟩
abbrev S100000 : Shape := ⟨1, ![100000]⟩
abbrev S1 : Shape := ⟨1, ![1]⟩
abbrev S_ : Shape := ⟨0, ![]⟩
abbrev S256x100352 : Shape := ⟨2, ![256, 100352]⟩
abbrev S128x100352 : Shape := ⟨2, ![128, 100352]⟩
abbrev S100352 : Shape := ⟨1, ![100352]⟩
abbrev S1x100352 : Shape := ⟨2, ![1, 100352]⟩
abbrev S256x128 : Shape := ⟨2, ![256, 128]⟩
abbrev S256x2048 : Shape := ⟨2, ![256, 2048]⟩
abbrev S128x2048 : Shape := ⟨2, ![128, 2048]⟩
abbrev S256 : Shape := ⟨1, ![256]⟩
abbrev S256x1 : Shape := ⟨2, ![256, 1]⟩
abbrev S1x2048 : Shape := ⟨2, ![1, 2048]⟩
abbrev S2048 : Shape := ⟨1, ![2048]⟩

abbrev nBuf : Space → Nat
  | .hbm => 82
  | .vmem => 25
  | .smem => 0
  | _ => 0

abbrev bufTy : (tb : Table) → Fin (tcTables nBuf tb) → BufTy
  | .hbm, ⟨0, _⟩ => ⟨S256x100000, .f32⟩
  | .hbm, ⟨1, _⟩ => ⟨S128x100000, .f32⟩
  | .hbm, ⟨2, _⟩ => ⟨S128x100000, .f32⟩
  | .hbm, ⟨3, _⟩ => ⟨S100000, .f32⟩
  | .hbm, ⟨4, _⟩ => ⟨S100000, .f32⟩
  | .hbm, ⟨5, _⟩ => ⟨S1, .f32⟩
  | .hbm, ⟨6, _⟩ => ⟨S1, .f32⟩
  | .hbm, ⟨7, _⟩ => ⟨S1, .i32⟩
  | .hbm, ⟨8, _⟩ => ⟨S_, .i32⟩
  | .hbm, ⟨9, _⟩ => ⟨S_, .f32⟩
  | .hbm, ⟨10, _⟩ => ⟨S256x100352, .f32⟩
  | .hbm, ⟨11, _⟩ => ⟨S_, .i32⟩
  | .hbm, ⟨12, _⟩ => ⟨S_, .f32⟩
  | .hbm, ⟨13, _⟩ => ⟨S128x100352, .f32⟩
  | .hbm, ⟨14, _⟩ => ⟨S_, .i32⟩
  | .hbm, ⟨15, _⟩ => ⟨S_, .f32⟩
  | .hbm, ⟨16, _⟩ => ⟨S128x100352, .f32⟩
  | .hbm, ⟨17, _⟩ => ⟨S_, .i32⟩
  | .hbm, ⟨18, _⟩ => ⟨S_, .f32⟩
  | .hbm, ⟨19, _⟩ => ⟨S100352, .f32⟩
  | .hbm, ⟨20, _⟩ => ⟨S1x100352, .f32⟩
  | .hbm, ⟨21, _⟩ => ⟨S_, .i32⟩
  | .hbm, ⟨22, _⟩ => ⟨S_, .f32⟩
  | .hbm, ⟨23, _⟩ => ⟨S100352, .f32⟩
  | .hbm, ⟨24, _⟩ => ⟨S1x100352, .f32⟩
  | .hbm, ⟨25, _⟩ => ⟨S_, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256x1, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x128, .f32⟩
  | .hbm, ⟨43, _⟩ => ⟨S256x128, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S_, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256x1, .f32⟩
  | .hbm, ⟨54, _⟩ => ⟨S256x128, .f32⟩
  | .hbm, ⟨55, _⟩ => ⟨S256x128, .f32⟩
  | .hbm, ⟨56, _⟩ => ⟨S256x128, .f32⟩
  | .hbm, ⟨57, _⟩ => ⟨S_, .f32⟩
  | .hbm, ⟨58, _⟩ => ⟨S256, .f32⟩
  | .hbm, ⟨59, _⟩ => ⟨S256x1, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S256x128, .f32⟩
  | .hbm, ⟨64, _⟩ => ⟨S256x128, .f32⟩
  | .hbm, ⟨65, _⟩ => ⟨S256x128, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256x1, .f32⟩
  | .hbm, ⟨72, _⟩ => ⟨S256x128, .f32⟩
  | .hbm, ⟨73, _⟩ => ⟨S256x128, .f32⟩
  | .hbm, ⟨74, _⟩ => ⟨S256x128, .f32⟩
  | .hbm, ⟨75, _⟩ => ⟨S_, .f32⟩
  | .hbm, ⟨76, _⟩ => ⟨S256, .f32⟩
  | .hbm, ⟨77, _⟩ => ⟨S256x1, .f32⟩
  | .hbm, ⟨78, _⟩ => ⟨S256x128, .f32⟩
  | .hbm, ⟨79, _⟩ => ⟨S256x128, .f32⟩
  | .hbm, ⟨80, _⟩ => ⟨S256x100352, .f32⟩
  | .hbm, ⟨81, _⟩ => ⟨S256x100000, .f32⟩
  | .local _ .vmem, ⟨0, _⟩ => ⟨S256x2048, .f32⟩
  | .local _ .vmem, ⟨1, _⟩ => ⟨S256x2048, .f32⟩
  | .local _ .vmem, ⟨2, _⟩ => ⟨S128x2048, .f32⟩
  | .local _ .vmem, ⟨3, _⟩ => ⟨S128x2048, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x2048, .f32⟩
  | .local _ .vmem, ⟨8, _⟩ => ⟨S128x2048, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S128x2048, .f32⟩
  | .local _ .vmem, ⟨13, _⟩ => ⟨S128x2048, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S128x2048, .f32⟩
  | .local _ .vmem, ⟨18, _⟩ => ⟨S128x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_call4_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  pads_S256x100000_S256x100352_000_03520 : S256x100000.Pads (![0, 0] : Fin 2 → Nat) ![0, 352] ![0, 0] S256x100352
  h_S_ : 0 < S_.numel
  pads_S128x100000_S128x100352_000_03520 : S128x100000.Pads (![0, 0] : Fin 2 → Nat) ![0, 352] ![0, 0] S128x100352
  pads_S100000_S100352_03520 : S100000.Pads (![0] : Fin 1 → Nat) ![352] ![0] S100352
  shapeCasts_S100352_S1x100352 : S100352.ShapeCasts S1x100352
  shapeCasts_S1_S_ : S1.ShapeCasts S_
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bcast_S_S256x128 : S_.BroadcastsInDim S256x128 (![] : Fin 0 → Fin S256x128.rank)
  reducesTo_S256x128_S256_d1 : S256x128.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reduces_S256x2048_S2048 : S256x2048.Reduces [0] S2048
  shapeCasts_S2048_S1x2048 : S2048.ShapeCasts S1x2048
  broadcasts_S1x2048_S256x2048 : S1x2048.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S256x100352_S256x100000_0_0 : S256x100352.Slices ![0, 0] S256x100000
  dot_S256x2048_S128x2048_S256x128_1_1_0_0_n_n_wf : DotDims.WF S256x2048 S128x2048 S256x128 [1] [1] [0] [0] [] []
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x100352.size a
  hwx0_0 : ∀ i : grid0.Coords, EltTy.bits .f32 = 32 ∨ (Rect.block (s := S256x100352) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x100352.size a
  hwx0_1 : ∀ i : grid0.Coords, EltTy.bits .f32 = 32 ∨ (Rect.block (s := S128x100352) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x128.size a
  hwx1_0 : ∀ i : grid1.Coords, EltTy.bits .f32 = 32 ∨ (Rect.block (s := S256x128) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x100352.size a
  hwx1_1 : ∀ i : grid1.Coords, EltTy.bits .f32 = 32 ∨ (Rect.block (s := S128x100352) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x100352.size a
  hwx2_1 : ∀ i : grid2.Coords, EltTy.bits .f32 = 32 ∨ (Rect.block (s := S128x100352) S128x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x2048.size a ≤ S128x100352.size a
  hwx3_1 : ∀ i : grid3.Coords, EltTy.bits .f32 = 32 ∨ (Rect.block (s := S128x100352) S128x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x100352.size a
  hwx3_2 : ∀ i : grid3.Coords, EltTy.bits .f32 = 32 ∨ (Rect.block (s := S1x100352) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x100352.size a
  hwx3_3 : ∀ i : grid3.Coords, EltTy.bits .f32 = 32 ∨ (Rect.block (s := S1x100352) S1x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S256x100352.size a
  hwx3_4 : ∀ i : grid3.Coords, EltTy.bits .f32 = 32 ∨ (Rect.block (s := S256x100352) S256x2048.size (cc3_transform_4 i) (hinb3_4 i)).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S256x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v2) S128x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v53) S256x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S256x100000 : Shape := ⟨2, ![256, 100000]⟩
abbrev S128x100000 : Shape := ⟨2, ![128, 100000]⟩
abbrev S100000 : Shape := ⟨1, ![100000]⟩
abbrev S1 : Shape := ⟨1, ![1]⟩
abbrev S100000x128 : Shape := ⟨2, ![100000, 128]⟩
abbrev S256x128 : Shape := ⟨2, ![256, 128]⟩
abbrev S1x1 : Shape := ⟨2, ![1, 1]⟩
abbrev S_ : Shape := ⟨0, ![]⟩
abbrev S256 : Shape := ⟨1, ![256]⟩
abbrev S256x1 : Shape := ⟨2, ![256, 1]⟩
abbrev S1x100000 : Shape := ⟨2, ![1, 100000]⟩

abbrev nBuf : Space → Nat
  | .hbm => 116
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S128x100000, .f32⟩
  | .hbm, ⟨2, _⟩ => ⟨S128x100000, .f32⟩
  | .hbm, ⟨3, _⟩ => ⟨S100000, .f32⟩
  | .hbm, ⟨4, _⟩ => ⟨S100000, .f32⟩
  | .hbm, ⟨5, _⟩ => ⟨S1, .f32⟩
  | .hbm, ⟨6, _⟩ => ⟨S1, .f32⟩
  | .hbm, ⟨7, _⟩ => ⟨S1, .i32⟩
  | .hbm, ⟨8, _⟩ => ⟨S100000x128, .f32⟩
  | .hbm, ⟨9, _⟩ => ⟨S256x128, .f32⟩
  | .hbm, ⟨10, _⟩ => ⟨S1x1, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x100000, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256x1, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S256x128, .f32⟩
  | .hbm, ⟨28, _⟩ => ⟨S256x128, .f32⟩
  | .hbm, ⟨29, _⟩ => ⟨S256x100000, .f32⟩
  | .hbm, ⟨30, _⟩ => ⟨S100000x128, .f32⟩
  | .hbm, ⟨31, _⟩ => ⟨S256x128, .f32⟩
  | .hbm, ⟨32, _⟩ => ⟨S1x1, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256x1, .f32⟩
  | .hbm, ⟨42, _⟩ => ⟨S256x128, .f32⟩
  | .hbm, ⟨43, _⟩ => ⟨S256x128, .f32⟩
  | .hbm, ⟨44, _⟩ => ⟨S256x128, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S256x128, .f32⟩
  | .hbm, ⟨49, _⟩ => ⟨S256x128, .f32⟩
  | .hbm, ⟨50, _⟩ => ⟨S256x100000, .f32⟩
  | .hbm, ⟨51, _⟩ => ⟨S100000x128, .f32⟩
  | .hbm, ⟨52, _⟩ => ⟨S256x128, .f32⟩
  | .hbm, ⟨53, _⟩ => ⟨S1x1, .f32⟩
  | .hbm, ⟨54, _⟩ => ⟨S256x128, .f32⟩
  | .hbm, ⟨55, _⟩ => ⟨S256x128, .f32⟩
  | .hbm, ⟨56, _⟩ => ⟨S256x128, .f32⟩
  | .hbm, ⟨57, _⟩ => ⟨S_, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256x1, .f32⟩
  | .hbm, ⟨63, _⟩ => ⟨S256x128, .f32⟩
  | .hbm, ⟨64, _⟩ => ⟨S256x128, .f32⟩
  | .hbm, ⟨65, _⟩ => ⟨S256x128, .f32⟩
  | .hbm, ⟨66, _⟩ => ⟨S_, .f32⟩
  | .hbm, ⟨67, _⟩ => ⟨S256, .f32⟩
  | .hbm, ⟨68, _⟩ => ⟨S256x1, .f32⟩
  | .hbm, ⟨69, _⟩ => ⟨S256x128, .f32⟩
  | .hbm, ⟨70, _⟩ => ⟨S256x128, .f32⟩
  | .hbm, ⟨71, _⟩ => ⟨S256x100000, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S_, .f32⟩
  | .hbm, ⟨79, _⟩ => ⟨S100000, .f32⟩
  | .hbm, ⟨80, _⟩ => ⟨S1x100000, .f32⟩
  | .hbm, ⟨81, _⟩ => ⟨S_, .f32⟩
  | .hbm, ⟨82, _⟩ => ⟨S1x100000, .f32⟩
  | .hbm, ⟨83, _⟩ => ⟨S1x100000, .f32⟩
  | .hbm, ⟨84, _⟩ => ⟨S256x100000, .f32⟩
  | .hbm, ⟨85, _⟩ => ⟨S256x100000, .f32⟩
  | .hbm, ⟨86, _⟩ => ⟨S256x100000, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S1x100000, .f32⟩
  | .hbm, ⟨101, _⟩ => ⟨S256x100000, .f32⟩
  | .hbm, ⟨102, _⟩ => ⟨S256x100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000, .f32⟩
  | .hbm, ⟨107, _⟩ => ⟨S1x100000, .f32⟩
  | .hbm, ⟨108, _⟩ => ⟨S256x100000, .f32⟩
  | .hbm, ⟨109, _⟩ => ⟨S256x100000, .f32⟩
  | .hbm, ⟨110, _⟩ => ⟨S1x100000, .f32⟩
  | .hbm, ⟨111, _⟩ => ⟨S256x100000, .f32⟩
  | .hbm, ⟨112, _⟩ => ⟨S256x100000, .f32⟩
  | .hbm, ⟨113, _⟩ => ⟨S1x100000, .f32⟩
  | .hbm, ⟨114, _⟩ => ⟨S256x100000, .f32⟩
  | .hbm, ⟨115, _⟩ => ⟨S256x100000, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_c : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_11 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]

class Facts₀ : Prop where
  transposes_S128x100000_S100000x128_1_0 : S128x100000.Transposes [1, 0] S100000x128
  bcast_S1_S1x1_1 : S1.BroadcastsInDim S1x1 (![1] : Fin 1 → Fin S1x1.rank)
  bcast_S1x1_S256x128_0_1 : S1x1.BroadcastsInDim S256x128 (![0, 1] : Fin 2 → Fin S256x128.rank)
  bcast_S_S256x100000 : S_.BroadcastsInDim S256x100000 (![] : Fin 0 → Fin S256x100000.rank)
  reducesTo_S256x128_S256_d1 : S256x128.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S256x100000_S100000_d0 : S256x100000.ReducesTo [0] S100000
  bcast_S_S100000 : S_.BroadcastsInDim S100000 (![] : Fin 0 → Fin S100000.rank)
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S256x100000_0_1 : S1x100000.BroadcastsInDim S256x100000 (![0, 1] : Fin 2 → Fin S256x100000.rank)
  dot_S256x100000_S100000x128_S256x128_1_0_0_1_n_n_wf : DotDims.WF S256x100000 S100000x128 S256x128 [1] [0] [0] [1] [] []
  dot_S256x128_S128x100000_S256x100000_1_0_0_1_n_n_wf : DotDims.WF S256x128 S128x100000 S256x100000 [1] [0] [0] [1] [] []

variable [Facts₀]

def dot_S256x100000_S100000x128_S256x128_1_0_0_1_n_n : DotDims S256x100000 S100000x128 S256x128 where
  lhsContracting := [1]
  rhsContracting := [0]
  lhsNonContracting := [0]
  rhsNonContracting := [1]
  lhsBatch := []
  rhsBatch := []
  wf := dot_S256x100000_S100000x128_S256x128_1_0_0_1_n_n_wf
def dot_S256x128_S128x100000_S256x100000_1_0_0_1_n_n : DotDims S256x128 S128x100000 S256x100000 where
  lhsContracting := [1]
  rhsContracting := [0]
  lhsNonContracting := [0]
  rhsNonContracting := [1]
  lhsBatch := []
  rhsBatch := []
  wf := dot_S256x128_S128x100000_S256x100000_1_0_0_1_n_n_wf

class Facts : Prop extends Facts₀ where

variable [Facts]
-- ==== Proof.KB_Sh0.lean ====
/- Region 0 of the kernel program as printed: the definitions its body runs share. -/
import proofs.«165993_j28200755266000_1_alg».proof.Proof.Gen.Kernel.Launch
import proofs.«165993_j28200755266000_1_alg».proof.Proof.Gen.Kernel.Skeleton
import proofs.«165993_j28200755266000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the accumulating kernel `cc0__part1_kernel` — what its runs are stated over

The body resets its accumulator (a scratch buffer the kernel keeps across grid points) at the first grid point,
adds this point's product into it, and copies it to the output block. -/

/-- The reset's condition: the grid coordinate is zero. -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val % 49 = 0 :=
  (by decide +kernel : ∀ t : Fin grid0.N, cond0 (grid0.coords t) ↔ t.val % 49 = 0)

/-- No window of the region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Each window's current staging memref at point `t`, as the pipeline passes it, and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S256x128 .f32 := Memref.whole cc0_scratch0
/-- The views through which the output block's and the accumulator's contents are stated. -/
abbrev VO0 : View sig .tc .vmem S256x128 .f32 := (Memref.whole cc0_stg2_0 : Memref sig .tc .vmem S256x128 .f32).view
abbrev VS0 : View sig .tc .vmem S256x128 .f32 := (scM0).view

/-- The scoped buffers of the core other than this region's staging buffers and accumulator (the other regions'
    staging buffers and accumulators), each at some contents: carried through the region unopened. -/
abbrev Rest0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents, beside the other scoped buffers. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  simp only [scM0, owns_whole, bigSepL]
  rfl

end Cert.Kernel.Hand

end
-- ==== Proof.KB_Run0.lean ====
/- Region 0 of the kernel program as printed: the whole-body runs of its kernel, one per control case. -/
import proofs.«165993_j28200755266000_1_alg».proof.Proof.KB_Sh0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__part1_kernel i arg1 harg1 arg2 harg2 arg3 harg3 arg4 harg4) K } := by
  refine ⟨?_, ?_, fun E K => ?run⟩
  case run =>
    simp only [cc0__part1_kernel_eq_skeleton]; unfold cc0__part1_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__part1_kernel i arg1 harg1 arg2 harg2 arg3 harg3 arg4 harg4) K } := by
  refine ⟨?_, ?_, fun E K => ?run⟩
  case run =>
    simp only [cc0__part1_kernel_eq_skeleton]; unfold cc0__part1_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.Kernel.Hand

end
-- ==== Proof.KB_Reg0.lean ====
/- Region 0 of the kernel program as printed at a parameter for the buffers' entry contents: the blocks, what each control case leaves, the accumulation over the grid, the proof data and the body obligation. -/
import proofs.«165993_j28200755266000_1_alg».proof.Proof.KB_Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the accumulator: its pieces read back -/

theorem cover0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) (y : S256x128.Idx) :
    ∃ pc ∈ (kernelRun0_A c i arg1 harg1 arg2 harg2 arg3 harg3 arg4 harg4 hc0 x1 x2).1, y ∈ pc.1.set :=
  View.cover_of_tiledL (kernelRun0_A c i arg1 harg1 arg2 harg2 arg3 harg3 arg4 harg4 hc0 x1 x2).1 S256x128.size (by sl_kernel_rfl) y
def out0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) : Vec F S256x128 .f32 :=
  VO0.read (Elt F) (VO0.writes (Elt F) VO0.junk (kernelRun0_A c i arg1 harg1 arg2 harg2 arg3 harg3 arg4 harg4 hc0 x1 x2).1)
theorem scover0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) (y : S256x128.Idx) :
    ∃ pc ∈ (kernelRun0_A c i arg1 harg1 arg2 harg2 arg3 harg3 arg4 harg4 hc0 x1 x2).2.1, y ∈ pc.1.set :=
  View.cover_of_tiledL (kernelRun0_A c i arg1 harg1 arg2 harg2 arg3 harg3 arg4 harg4 hc0 x1 x2).2.1 S256x128.size (by sl_kernel_rfl) y
def sout0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) : Vec F S256x128 .f32 :=
  VS0.read (Elt F) (VS0.writes (Elt F) VS0.junk (kernelRun0_A c i arg1 harg1 arg2 harg2 arg3 harg3 arg4 harg4 hc0 x1 x2).2.1)
theorem cover0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) (y : S256x128.Idx) :
    ∃ pc ∈ (kernelRun0_B c i arg1 harg1 arg2 harg2 arg3 harg3 arg4 harg4 hc0 x1 x2 xs).1, y ∈ pc.1.set :=
  View.cover_of_tiledL (kernelRun0_B c i arg1 harg1 arg2 harg2 arg3 harg3 arg4 harg4 hc0 x1 x2 xs).1 S256x128.size (by sl_kernel_rfl) y
def out0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) : Vec F S256x128 .f32 :=
  VO0.read (Elt F) (VO0.writes (Elt F) VO0.junk (kernelRun0_B c i arg1 harg1 arg2 harg2 arg3 harg3 arg4 harg4 hc0 x1 x2 xs).1)
theorem scover0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) (y : S256x128.Idx) :
    ∃ pc ∈ (kernelRun0_B c i arg1 harg1 arg2 harg2 arg3 harg3 arg4 harg4 hc0 x1 x2 xs).2.1, y ∈ pc.1.set :=
  View.cover_of_tiledL (kernelRun0_B c i arg1 harg1 arg2 harg2 arg3 harg3 arg4 harg4 hc0 x1 x2 xs).2.1 S256x128.size (by sl_kernel_rfl) y
def sout0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) : Vec F S256x128 .f32 :=
  VS0.read (Elt F) (VS0.writes (Elt F) VS0.junk (kernelRun0_B c i arg1 harg1 arg2 harg2 arg3 harg3 arg4 harg4 hc0 x1 x2 xs).2.1)

/-! ## What the output block and the accumulator hold after each point -/

theorem not_first0 {n : ℕ} (hn : n + 1 < cfg0.N) : ¬ (n + 1) % 49 = 0 := by
  have hN : n + 1 < 49 := lt_of_lt_of_eq hn (show cfg0.N = 49 from N_0); omega

/-- THE ACCUMULATION: after the body at position `n`, the output block's staging buffer and the accumulator: the first
    point's case from the point's input blocks, a later point's from them and what the point before left in the accumulator. -/
def outsAt0 (c : Dev nD) : (n : ℕ) → n < cfg0.N → Vec F S256x128 .f32 × Vec F S256x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => not_first0 hn ((hcond0 ⟨n + 1, hn⟩).mp h)) (iblk0 V c 0 ⟨n + 1, hn⟩) (iblk0 V c 1 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => not_first0 hn ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 49 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact absurd h0 (not_first0 hn)

theorem outsAt0_B (c : Dev nD) (t : Fin cfg0.N) (h0 : ¬t.val % 49 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 49 := lt_of_lt_of_eq t.isLt (show cfg0.N = 49 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 49 = 0
  · have hz : t.val = 0 := by omega
    rw [outsAt0_A V c t h0]
    unfold out0_A sout0_A; (try dsimp only)
    rw [PhiS0_castSucc V c t, PhiS0_zero V c _ _ hz, PhiA0_eq]
    iintro ⟨⟨⟨HS, HR⟩, Hg⟩, Ho, ⟨%d0, H0⟩, ⟨%d1, H1⟩, ⟨%d2, H2⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _ _)
  · have hz : t.val ≠ 0 := fun h => h0 (by rw [h])
    rw [outsAt0_B V c t h0]
    unfold out0_B sout0_B; (try dsimp only)
    rw [PhiS0_castSucc V c t, PhiS0_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 49 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS, HR⟩, Hg⟩
  isplitl [HS HR]
  · isplitl [HS]
    · iexists _; iexact HS
    iexact HR
  iexact Hg

end Region0

end Cert.Kernel.Hand

end
-- ==== Proof.KB_Sh1.lean ====
/- Region 1 of the kernel program as printed: the definitions its body runs share. -/
import proofs.«165993_j28200755266000_1_alg».proof.Proof.Gen.Kernel.Launch
import proofs.«165993_j28200755266000_1_alg».proof.Proof.Gen.Kernel.Skeleton
import proofs.«165993_j28200755266000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the accumulating kernel `cc1__genreduce_kernel` — what its runs are stated over

The body resets its accumulator (a scratch buffer the kernel keeps across grid points) at the first grid point,
adds this point's product into it, and copies it to the output block. -/

/-- The reset's condition: the grid coordinate is zero. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val % 49 = 0 :=
  (by decide +kernel : ∀ t : Fin grid1.N, cond1 (grid1.coords t) ↔ t.val % 49 = 0)

/-- No window of the region is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Each window's current staging memref at point `t`, as the pipeline passes it, and its wholeness. -/
abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S256x128 .f32 := Memref.whole cc1_scratch0
/-- The views through which the output block's and the accumulator's contents are stated. -/
abbrev VO1 : View sig .tc .vmem S256x128 .f32 := (Memref.whole cc1_stg2_0 : Memref sig .tc .vmem S256x128 .f32).view
abbrev VS1 : View sig .tc .vmem S256x128 .f32 := (scM1).view

/-- The scoped buffers of the core other than this region's staging buffers and accumulator (the other regions'
    staging buffers and accumulators), each at some contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents, beside the other scoped buffers. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  simp only [scM1, owns_whole, bigSepL]
  rfl

end Cert.Kernel.Hand

end
-- ==== Proof.KB_Run1.lean ====
/- Region 1 of the kernel program as printed: the whole-body runs of its kernel, one per control case. -/
import proofs.«165993_j28200755266000_1_alg».proof.Proof.KB_Sh1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc1__genreduce_kernel i arg1 harg1 arg2 harg2 arg3 harg3 arg4 harg4) K } := by
  refine ⟨?_, ?_, fun E K => ?run⟩
  case run =>
    simp only [cc1__genreduce_kernel_eq_skeleton]; unfold cc1__genreduce_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc1__genreduce_kernel i arg1 harg1 arg2 harg2 arg3 harg3 arg4 harg4) K } := by
  refine ⟨?_, ?_, fun E K => ?run⟩
  case run =>
    simp only [cc1__genreduce_kernel_eq_skeleton]; unfold cc1__genreduce_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.Kernel.Hand

end
-- ==== Proof.KB_Reg1.lean ====
/- Region 1 of the kernel program as printed at a parameter for the buffers' entry contents: the blocks, what each control case leaves, the accumulation over the grid, the proof data and the body obligation. -/
import proofs.«165993_j28200755266000_1_alg».proof.Proof.KB_Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator: its pieces read back -/

theorem cover1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) (y : S256x128.Idx) :
    ∃ pc ∈ (kernelRun1_A c i arg1 harg1 arg2 harg2 arg3 harg3 arg4 harg4 hc0 x1 x2).1, y ∈ pc.1.set :=
  View.cover_of_tiledL (kernelRun1_A c i arg1 harg1 arg2 harg2 arg3 harg3 arg4 harg4 hc0 x1 x2).1 S256x128.size (by sl_kernel_rfl) y
def out1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) : Vec F S256x128 .f32 :=
  VO1.read (Elt F) (VO1.writes (Elt F) VO1.junk (kernelRun1_A c i arg1 harg1 arg2 harg2 arg3 harg3 arg4 harg4 hc0 x1 x2).1)
theorem scover1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) (y : S256x128.Idx) :
    ∃ pc ∈ (kernelRun1_A c i arg1 harg1 arg2 harg2 arg3 harg3 arg4 harg4 hc0 x1 x2).2.1, y ∈ pc.1.set :=
  View.cover_of_tiledL (kernelRun1_A c i arg1 harg1 arg2 harg2 arg3 harg3 arg4 harg4 hc0 x1 x2).2.1 S256x128.size (by sl_kernel_rfl) y
def sout1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) : Vec F S256x128 .f32 :=
  VS1.read (Elt F) (VS1.writes (Elt F) VS1.junk (kernelRun1_A c i arg1 harg1 arg2 harg2 arg3 harg3 arg4 harg4 hc0 x1 x2).2.1)
theorem cover1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) (y : S256x128.Idx) :
    ∃ pc ∈ (kernelRun1_B c i arg1 harg1 arg2 harg2 arg3 harg3 arg4 harg4 hc0 x1 x2 xs).1, y ∈ pc.1.set :=
  View.cover_of_tiledL (kernelRun1_B c i arg1 harg1 arg2 harg2 arg3 harg3 arg4 harg4 hc0 x1 x2 xs).1 S256x128.size (by sl_kernel_rfl) y
def out1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) : Vec F S256x128 .f32 :=
  VO1.read (Elt F) (VO1.writes (Elt F) VO1.junk (kernelRun1_B c i arg1 harg1 arg2 harg2 arg3 harg3 arg4 harg4 hc0 x1 x2 xs).1)
theorem scover1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) (y : S256x128.Idx) :
    ∃ pc ∈ (kernelRun1_B c i arg1 harg1 arg2 harg2 arg3 harg3 arg4 harg4 hc0 x1 x2 xs).2.1, y ∈ pc.1.set :=
  View.cover_of_tiledL (kernelRun1_B c i arg1 harg1 arg2 harg2 arg3 harg3 arg4 harg4 hc0 x1 x2 xs).2.1 S256x128.size (by sl_kernel_rfl) y
def sout1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) : Vec F S256x128 .f32 :=
  VS1.read (Elt F) (VS1.writes (Elt F) VS1.junk (kernelRun1_B c i arg1 harg1 arg2 harg2 arg3 harg3 arg4 harg4 hc0 x1 x2 xs).2.1)

/-! ## What the output block and the accumulator hold after each point -/

theorem not_first1 {n : ℕ} (hn : n + 1 < cfg1.N) : ¬ (n + 1) % 49 = 0 := by
  have hN : n + 1 < 49 := lt_of_lt_of_eq hn (show cfg1.N = 49 from N_1); omega

/-- THE ACCUMULATION: after the body at position `n`, the output block's staging buffer and the accumulator: the first
    point's case from the point's input blocks, a later point's from them and what the point before left in the accumulator. -/
def outsAt1 (c : Dev nD) : (n : ℕ) → n < cfg1.N → Vec F S256x128 .f32 × Vec F S256x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => not_first1 hn ((hcond1 ⟨n + 1, hn⟩).mp h)) (iblk1 V c 0 ⟨n + 1, hn⟩) (iblk1 V c 1 ⟨n + 1, hn⟩) (outsAt1 c n (Nat.lt_of_succ_lt hn)).2,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => not_first1 hn ((hcond1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 49 = 0) :
    outsAt1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact absurd h0 (not_first1 hn)

theorem outsAt1_B (c : Dev nD) (t : Fin cfg1.N) (h0 : ¬t.val % 49 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 49 := lt_of_lt_of_eq t.isLt (show cfg1.N = 49 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 49 = 0
  · have hz : t.val = 0 := by omega
    rw [outsAt1_A V c t h0]
    unfold out1_A sout1_A; (try dsimp only)
    rw [PhiS1_castSucc V c t, PhiS1_zero V c _ _ hz, PhiA1_eq]
    iintro ⟨⟨⟨HS, HR⟩, Hg⟩, Ho, ⟨%d0, H0⟩, ⟨%d1, H1⟩, ⟨%d2, H2⟩⟩
    iapply ((kernelRun1_A c (grid1.coords t) _ _ _ _ _ _ _ _ ((hcond1 t).mpr h0) (iblk1 V c 0 t) (iblk1 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _ _ _)
  · have hz : t.val ≠ 0 := fun h => h0 (by rw [h])
    rw [outsAt1_B V c t h0]
    unfold out1_B sout1_B; (try dsimp only)
    rw [PhiS1_castSucc V c t, PhiS1_pos V c _ _ hz]
    iintro ⟨⟨⟨HS, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 49 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS, HR⟩, Hg⟩
  isplitl [HS HR]
  · isplitl [HS]
    · iexists _; iexact HS
    iexact HR
  iexact Hg

end Region1

end Cert.Kernel.Hand

end
-- ==== Proof.KB_Sh2.lean ====
/- Region 2 of the kernel program as printed: the definitions its body runs share. -/
import proofs.«165993_j28200755266000_1_alg».proof.Proof.Gen.Kernel.Launch
import proofs.«165993_j28200755266000_1_alg».proof.Proof.Gen.Kernel.Skeleton
import proofs.«165993_j28200755266000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the accumulating kernel `cc2__genreduce_kernel` — what its runs are stated over

The body resets its accumulator (a scratch buffer the kernel keeps across grid points) at the first grid point,
adds this point's product into it, and copies it to the output block. -/

/-- The reset's condition: the grid coordinate is zero. -/
abbrev cond2 (i : grid2.Coords) : Prop := (Scalar.cmpi .ne (Scalar.extui (Scalar.cmpi .eq (BitVec.ofNat 32 (i 0).val) 0#32)) 0#32) = 1#1
/-- It holds at the first point only — decided over the grid. -/
theorem hcond2 : ∀ t : Fin cfg2.N, cond2 (grid2.coords t) ↔ t.val % 49 = 0 :=
  (by decide +kernel : ∀ t : Fin grid2.N, cond2 (grid2.coords t) ↔ t.val % 49 = 0)

/-- No window of the region is ever idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-- Each window's current staging memref at point `t`, as the pipeline passes it, and its wholeness. -/
abbrev ms2_0 (t : Fin cfg2.N) : Memref sig .tc .vmem S256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S256x128 .f32 := Memref.whole cc2_scratch0
/-- The views through which the output block's and the accumulator's contents are stated. -/
abbrev VO2 : View sig .tc .vmem S256x128 .f32 := (Memref.whole cc2_stg2_0 : Memref sig .tc .vmem S256x128 .f32).view
abbrev VS2 : View sig .tc .vmem S256x128 .f32 := (scM2).view

/-- The scoped buffers of the core other than this region's staging buffers and accumulator (the other regions'
    staging buffers and accumulators), each at some contents: carried through the region unopened. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents, beside the other scoped buffers. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  simp only [scM2, owns_whole, bigSepL]
  rfl

end Cert.Kernel.Hand

end
-- ==== Proof.KB_Run2.lean ====
/- Region 2 of the kernel program as printed: the whole-body runs of its kernel, one per control case. -/
import proofs.«165993_j28200755266000_1_alg».proof.Proof.KB_Sh2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc2__genreduce_kernel i arg1 harg1 arg2 harg2 arg3 harg3 arg4 harg4) K } := by
  refine ⟨?_, ?_, fun E K => ?run⟩
  case run =>
    simp only [cc2__genreduce_kernel_eq_skeleton]; unfold cc2__genreduce_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc2__genreduce_kernel i arg1 harg1 arg2 harg2 arg3 harg3 arg4 harg4) K } := by
  refine ⟨?_, ?_, fun E K => ?run⟩
  case run =>
    simp only [cc2__genreduce_kernel_eq_skeleton]; unfold cc2__genreduce_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.Kernel.Hand

end
-- ==== Proof.KB_Reg2.lean ====
/- Region 2 of the kernel program as printed at a parameter for the buffers' entry contents: the blocks, what each control case leaves, the accumulation over the grid, the proof data and the body obligation. -/
import proofs.«165993_j28200755266000_1_alg».proof.Proof.KB_Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output block and in the accumulator: its pieces read back -/

theorem cover2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) (y : S256x128.Idx) :
    ∃ pc ∈ (kernelRun2_A c i arg1 harg1 arg2 harg2 arg3 harg3 arg4 harg4 hc0 x1 x2).1, y ∈ pc.1.set :=
  View.cover_of_tiledL (kernelRun2_A c i arg1 harg1 arg2 harg2 arg3 harg3 arg4 harg4 hc0 x1 x2).1 S256x128.size (by sl_kernel_rfl) y
def out2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) : Vec F S256x128 .f32 :=
  VO2.read (Elt F) (VO2.writes (Elt F) VO2.junk (kernelRun2_A c i arg1 harg1 arg2 harg2 arg3 harg3 arg4 harg4 hc0 x1 x2).1)
theorem scover2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) (y : S256x128.Idx) :
    ∃ pc ∈ (kernelRun2_A c i arg1 harg1 arg2 harg2 arg3 harg3 arg4 harg4 hc0 x1 x2).2.1, y ∈ pc.1.set :=
  View.cover_of_tiledL (kernelRun2_A c i arg1 harg1 arg2 harg2 arg3 harg3 arg4 harg4 hc0 x1 x2).2.1 S256x128.size (by sl_kernel_rfl) y
def sout2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) : Vec F S256x128 .f32 :=
  VS2.read (Elt F) (VS2.writes (Elt F) VS2.junk (kernelRun2_A c i arg1 harg1 arg2 harg2 arg3 harg3 arg4 harg4 hc0 x1 x2).2.1)
theorem cover2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) (y : S256x128.Idx) :
    ∃ pc ∈ (kernelRun2_B c i arg1 harg1 arg2 harg2 arg3 harg3 arg4 harg4 hc0 x1 x2 xs).1, y ∈ pc.1.set :=
  View.cover_of_tiledL (kernelRun2_B c i arg1 harg1 arg2 harg2 arg3 harg3 arg4 harg4 hc0 x1 x2 xs).1 S256x128.size (by sl_kernel_rfl) y
def out2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) : Vec F S256x128 .f32 :=
  VO2.read (Elt F) (VO2.writes (Elt F) VO2.junk (kernelRun2_B c i arg1 harg1 arg2 harg2 arg3 harg3 arg4 harg4 hc0 x1 x2 xs).1)
theorem scover2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) (y : S256x128.Idx) :
    ∃ pc ∈ (kernelRun2_B c i arg1 harg1 arg2 harg2 arg3 harg3 arg4 harg4 hc0 x1 x2 xs).2.1, y ∈ pc.1.set :=
  View.cover_of_tiledL (kernelRun2_B c i arg1 harg1 arg2 harg2 arg3 harg3 arg4 harg4 hc0 x1 x2 xs).2.1 S256x128.size (by sl_kernel_rfl) y
def sout2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) : Vec F S256x128 .f32 :=
  VS2.read (Elt F) (VS2.writes (Elt F) VS2.junk (kernelRun2_B c i arg1 harg1 arg2 harg2 arg3 harg3 arg4 harg4 hc0 x1 x2 xs).2.1)

/-! ## What the output block and the accumulator hold after each point -/

theorem not_first2 {n : ℕ} (hn : n + 1 < cfg2.N) : ¬ (n + 1) % 49 = 0 := by
  have hN : n + 1 < 49 := lt_of_lt_of_eq hn (show cfg2.N = 49 from N_2); omega

/-- THE ACCUMULATION: after the body at position `n`, the output block's staging buffer and the accumulator: the first
    point's case from the point's input blocks, a later point's from them and what the point before left in the accumulator. -/
def outsAt2 (c : Dev nD) : (n : ℕ) → n < cfg2.N → Vec F S256x128 .f32 × Vec F S256x128 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩))
  | n + 1, hn => (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => not_first2 hn ((hcond2 ⟨n + 1, hn⟩).mp h)) (iblk2 V c 0 ⟨n + 1, hn⟩) (iblk2 V c 1 ⟨n + 1, hn⟩) (outsAt2 c n (Nat.lt_of_succ_lt hn)).2,
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => not_first2 hn ((hcond2 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 49 = 0) :
    outsAt2 V c t.val t.isLt = (out2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)) := by
  obtain ⟨n, hn⟩ := t
  cases n with
  | zero => exact rfl
  | succ n => exact absurd h0 (not_first2 hn)

theorem outsAt2_B (c : Dev nD) (t : Fin cfg2.N) (h0 : ¬t.val % 49 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 49 := lt_of_lt_of_eq t.isLt (show cfg2.N = 49 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 49 = 0
  · have hz : t.val = 0 := by omega
    rw [outsAt2_A V c t h0]
    unfold out2_A sout2_A; (try dsimp only)
    rw [PhiS2_castSucc V c t, PhiS2_zero V c _ _ hz, PhiA2_eq]
    iintro ⟨⟨⟨HS, HR⟩, Hg⟩, Ho, ⟨%d0, H0⟩, ⟨%d1, H1⟩, ⟨%d2, H2⟩⟩
    iapply ((kernelRun2_A c (grid2.coords t) _ _ _ _ _ _ _ _ ((hcond2 t).mpr h0) (iblk2 V c 0 t) (iblk2 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover2_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _ _ _)
  · have hz : t.val ≠ 0 := fun h => h0 (by rw [h])
    rw [outsAt2_B V c t h0]
    unfold out2_B sout2_B; (try dsimp only)
    rw [PhiS2_castSucc V c t, PhiS2_pos V c _ _ hz]
    iintro ⟨⟨⟨HS, HR⟩, Hg⟩, Ho, ⟨%d0, H0⟩, ⟨%d1, H1⟩, ⟨%d2, H2⟩⟩
    iapply ((kernelRun2_B c (grid2.coords t) _ _ _ _ _ _ _ _ (fun h => h0 ((hcond2 t).mp h)) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 49 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS, HR⟩, Hg⟩
  isplitl [HS HR]
  · isplitl [HS]
    · iexists _; iexact HS
    iexact HR
  iexact Hg

end Region2

end Cert.Kernel.Hand

end
-- ==== Proof.KB_Sh3.lean ====
/- Region 3 of the kernel program as printed: the definitions its body run is stated over. -/
import proofs.«165993_j28200755266000_1_alg».proof.Proof.Gen.Kernel.Launch
import proofs.«165993_j28200755266000_1_alg».proof.Proof.Gen.Kernel.Skeleton
import proofs.«165993_j28200755266000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the kernel `cc3__gen_bn_kernel` — what its run is stated over

One tile of the last layer's product, normalised column by column over the batch axis, scaled and shifted. The body
keeps nothing between grid points. -/

/-- No window of the region is ever idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

abbrev ms3_0 (t : Fin cfg3.N) : Memref sig .tc .vmem S256x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x2048 .f32 := win3_4.stage (cfg3.slots t 4)
abbrev hs3_4 (t : Fin cfg3.N) : (ms3_4 t).IsWhole := hstage3_4 ((cfg3.slots t 4).cast nbuf3_4)
/-- The view through which the output block's contents are stated. -/
abbrev VO3 : View sig .tc .vmem S256x2048 .f32 := (Memref.whole cc3_stg4_0 : Memref sig .tc .vmem S256x2048 .f32).view

end Cert.Kernel.Hand

end
-- ==== Proof.KB_Run3.lean ====
/- Region 3 of the kernel program as printed: the whole-body run of its kernel. -/
import proofs.«165993_j28200755266000_1_alg».proof.Proof.KB_Sh3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any grid point: on whole staging memrefs, the inputs' at their contents and the output's at anything,
    it runs to the continuation holding the inputs' as they were and the output's with the pieces its store wrote. -/
noncomputable def kernelRun3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) :
    { L5 : List (View.Piece (Elt F) S256x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)) -∗ K ⟨⟩))
          ⊢ wp frame (wpE (defs₀ (F := F)) Variants.none c none) E (cc3__gen_bn_kernel i arg1 harg1 arg2 harg2 arg3 harg3 arg4 harg4 arg5 harg5) K } := by
  refine ⟨?_, fun E K => ?run⟩
  case run =>
    simp only [cc3__gen_bn_kernel_eq_skeleton]; unfold cc3__gen_bn_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1; obtain rfl := harg2.eq_unread hf2; obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Hand

end
-- ==== Proof.KB_Reg3.lean ====
/- Region 3 of the kernel program as printed at a parameter for the buffers' entry contents: the blocks, what the body leaves, the proof data and the body obligation. -/
import proofs.«165993_j28200755266000_1_alg».proof.Proof.KB_Run3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The body's one store covers the output block. -/
theorem cover3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) (y : S256x2048.Idx) :
    ∃ pc ∈ (kernelRun3 c i arg1 harg1 arg2 harg2 arg3 harg3 arg4 harg4 arg5 harg5 x1 x2 x3 x4).1, y ∈ pc.1.set :=
  View.cover_of_tiledL (kernelRun3 c i arg1 harg1 arg2 harg2 arg3 harg3 arg4 harg4 arg5 harg5 x1 x2 x3 x4).1 S256x2048.size (by sl_kernel_rfl) y
/-- What the body leaves in the output block's staging buffer: its pieces read back. -/
def out3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) : Vec F S256x2048 .f32 :=
  VO3.read (Elt F) (VO3.writes (Elt F) VO3.junk (kernelRun3 c i arg1 harg1 arg2 harg2 arg3 harg3 arg4 harg4 arg5 harg5 x1 x2 x3 x4).1)

/-- The proof data of the region's pipeline on core `c`: the arrays as the region finds them; after the body at point `t`
    each input's buffer at its block and the output's at what the body stored; the class's invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 c (grid3.coords t) (ms3_0 t) (hs3_0 t) (ms3_1 t) (hs3_1 t) (ms3_2 t) (hs3_2 t) (ms3_3 t) (hs3_3 t) (ms3_4 t) (hs3_4 t) (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 c (grid3.coords t) (ms3_0 t) (hs3_0 t) (ms3_1 t) (hs3_1 t) (ms3_2 t) (hs3_2 t) (ms3_3 t) (hs3_3 t) (ms3_4 t) (hs3_4 t) (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t ∗ (dat3 V c).leavesExact 4 t)

set_option maxHeartbeats 4800000 in
/-- The body at any point: the inputs' memrefs hold their blocks, so the run applies; the invariant and the core's dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = (dat3 V c).Φ t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  unfold out3; (try dsimp only)
  iintro ⟨HΦ, Ho, ⟨%d0, H0⟩, ⟨%d1, H1⟩, ⟨%d2, H2⟩, ⟨%d3, H3⟩, ⟨%d4, H4⟩⟩
  iapply ((kernelRun3 c (grid3.coords t) _ _ _ _ _ _ _ _ _ _ (iblk3 V c 0 t) (iblk3 V c 1 t) (iblk3 V c 2 t) (iblk3 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KB_Main.lean ====
/- The kernel program as printed's @main as a fold over its host stretches and its four regions: the buffers' contents at every boundary, the proof data family, the regions as segments, the run and the frame. -/
import proofs.«165993_j28200755266000_1_alg».proof.Proof.KB_Reg0
import proofs.«165993_j28200755266000_1_alg».proof.Proof.KB_Reg1
import proofs.«165993_j28200755266000_1_alg».proof.Proof.KB_Reg2
import proofs.«165993_j28200755266000_1_alg».proof.Proof.KB_Reg3
import proofs.«165993_j28200755266000_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- After the host stretch `hostOps0_5`. -/
abbrev W6 : Dev nD → Valuation τ sig (Elt F) := fun c => StableHlo.after hostOps0_5 (W5 m c)
/-- After the host stretch `hostOps0_6`. -/
abbrev W7 : Dev nD → Valuation τ sig (Elt F) := fun c => StableHlo.after hostOps0_6 (W6 m c)
/-- After the host stretch `hostOps0_7`. -/
abbrev W8 : Dev nD → Valuation τ sig (Elt F) := fun c => StableHlo.after hostOps0_7 (W7 m c)
/-- After the host stretch `hostOps0_8`. -/
abbrev W9 : Dev nD → Valuation τ sig (Elt F) := fun c => StableHlo.after hostOps0_8 (W8 m c)
/-- After the host stretch `hostOps0_9`. -/
abbrev W10 : Dev nD → Valuation τ sig (Elt F) := fun c => StableHlo.after hostOps0_9 (W9 m c)
/-- After the host stretch `hostOps0_10`. -/
abbrev W11 : Dev nD → Valuation τ sig (Elt F) := fun c => StableHlo.after hostOps0_10 (W10 m c)

/-- The same read at the TensorCore's references (what region 0's proof data take). -/
abbrev U11 : (c : Dev nD) → (b : Ref sig .tc) → Buf (Elt F) ((c : Thread nD τ).loc b) := fun c b => W11 m c b
/-- At region 0's exit: its arrays at what the pipeline leaves (the inputs as entered, the output's write-backs folded),
    every other buffer as entered. -/
def W12 (c : Dev nD) : Valuation τ sig (Elt F) :=
  Pipeline.withArrays spec0 c (W11 m c) fun w => (dat0 (U11 m) c).arrAt w cfg0.N
theorem W12_arr (c : Dev nD) (w : Fin cfg0.W) :
    W12 m c (Proc.devRef .tc (Pipeline.arrRef spec0 w)) = (dat0 (U11 m) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m c (Proc.devRef .tc b) = W11 m c (Proc.devRef .tc b) := by
  unfold W12; exact Pipeline.withArrays_of_ne spec0 c _ _ b hb
abbrev U12 : (c : Dev nD) → (b : Ref sig .tc) → Buf (Elt F) ((c : Thread nD τ).loc b) := fun c b => W12 m c b
theorem hF0 (c : Dev nD) (w : Fin cfg0.W) : (dat0 (U11 m) c).arrAt w cfg0.N = U12 m c (Pipeline.arrRef spec0 w) :=
  (W12_arr m c w).symm
theorem hrest0 (c : Dev nD) : ∀ b, b ∉ Finset.univ.image (Pipeline.arrRef spec0) → U12 m c b = U11 m c b :=
  fun b hb => W12_of_ne m c b fun w e => hb (Finset.mem_image.mpr ⟨w, Finset.mem_univ _, e⟩)
/-- After the host stretch `hostOps1`. -/
abbrev W13 : Dev nD → Valuation τ sig (Elt F) := fun c => StableHlo.after hostOps1 (W12 m c)

/-- The same read at the TensorCore's references (what region 1's proof data take). -/
abbrev U13 : (c : Dev nD) → (b : Ref sig .tc) → Buf (Elt F) ((c : Thread nD τ).loc b) := fun c b => W13 m c b
/-- At region 1's exit: its arrays at what the pipeline leaves (the inputs as entered, the output's write-backs folded),
    every other buffer as entered. -/
def W14 (c : Dev nD) : Valuation τ sig (Elt F) :=
  Pipeline.withArrays spec1 c (W13 m c) fun w => (dat1 (U13 m) c).arrAt w cfg1.N
theorem W14_arr (c : Dev nD) (w : Fin cfg1.W) :
    W14 m c (Proc.devRef .tc (Pipeline.arrRef spec1 w)) = (dat1 (U13 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev U14 : (c : Dev nD) → (b : Ref sig .tc) → Buf (Elt F) ((c : Thread nD τ).loc b) := fun c b => W14 m c b
theorem hF1 (c : Dev nD) (w : Fin cfg1.W) : (dat1 (U13 m) c).arrAt w cfg1.N = U14 m c (Pipeline.arrRef spec1 w) :=
  (W14_arr m c w).symm
theorem hrest1 (c : Dev nD) : ∀ b, b ∉ Finset.univ.image (Pipeline.arrRef spec1) → U14 m c b = U13 m c b :=
  fun b hb => W14_of_ne m c b fun w e => hb (Finset.mem_image.mpr ⟨w, Finset.mem_univ _, e⟩)
/-- After the host stretch `hostOps2`. -/
abbrev W15 : Dev nD → Valuation τ sig (Elt F) := fun c => StableHlo.after hostOps2 (W14 m c)

/-- The same read at the TensorCore's references (what region 2's proof data take). -/
abbrev U15 : (c : Dev nD) → (b : Ref sig .tc) → Buf (Elt F) ((c : Thread nD τ).loc b) := fun c b => W15 m c b
/-- At region 2's exit: its arrays at what the pipeline leaves (the inputs as entered, the output's write-backs folded),
    every other buffer as entered. -/
def W16 (c : Dev nD) : Valuation τ sig (Elt F) :=
  Pipeline.withArrays spec2 c (W15 m c) fun w => (dat2 (U15 m) c).arrAt w cfg2.N
theorem W16_arr (c : Dev nD) (w : Fin cfg2.W) :
    W16 m c (Proc.devRef .tc (Pipeline.arrRef spec2 w)) = (dat2 (U15 m) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m c (Proc.devRef .tc b) = W15 m c (Proc.devRef .tc b) := by
  unfold W16; exact Pipeline.withArrays_of_ne spec2 c _ _ b hb
abbrev U16 : (c : Dev nD) → (b : Ref sig .tc) → Buf (Elt F) ((c : Thread nD τ).loc b) := fun c b => W16 m c b
theorem hF2 (c : Dev nD) (w : Fin cfg2.W) : (dat2 (U15 m) c).arrAt w cfg2.N = U16 m c (Pipeline.arrRef spec2 w) :=
  (W16_arr m c w).symm
theorem hrest2 (c : Dev nD) : ∀ b, b ∉ Finset.univ.image (Pipeline.arrRef spec2) → U16 m c b = U15 m c b :=
  fun b hb => W16_of_ne m c b fun w e => hb (Finset.mem_image.mpr ⟨w, Finset.mem_univ _, e⟩)
/-- After the host stretch `hostOps3`. -/
abbrev W17 : Dev nD → Valuation τ sig (Elt F) := fun c => StableHlo.after hostOps3 (W16 m c)

/-- The same read at the TensorCore's references (what region 3's proof data take). -/
abbrev U17 : (c : Dev nD) → (b : Ref sig .tc) → Buf (Elt F) ((c : Thread nD τ).loc b) := fun c b => W17 m c b
/-- At region 3's exit: its arrays at what the pipeline leaves (the inputs as entered, the output's write-backs folded),
    every other buffer as entered. -/
def W18 (c : Dev nD) : Valuation τ sig (Elt F) :=
  Pipeline.withArrays spec3 c (W17 m c) fun w => (dat3 (U17 m) c).arrAt w cfg3.N
theorem W18_arr (c : Dev nD) (w : Fin cfg3.W) :
    W18 m c (Proc.devRef .tc (Pipeline.arrRef spec3 w)) = (dat3 (U17 m) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m c (Proc.devRef .tc b) = W17 m c (Proc.devRef .tc b) := by
  unfold W18; exact Pipeline.withArrays_of_ne spec3 c _ _ b hb
abbrev U18 : (c : Dev nD) → (b : Ref sig .tc) → Buf (Elt F) ((c : Thread nD τ).loc b) := fun c b => W18 m c b
theorem hF3 (c : Dev nD) (w : Fin cfg3.W) : (dat3 (U17 m) c).arrAt w cfg3.N = U18 m c (Pipeline.arrRef spec3 w) :=
  (W18_arr m c w).symm
theorem hrest3 (c : Dev nD) : ∀ b, b ∉ Finset.univ.image (Pipeline.arrRef spec3) → U18 m c b = U17 m c b :=
  fun b hb => W18_of_ne m c b fun w e => hb (Finset.mem_image.mpr ⟨w, Finset.mem_univ _, e⟩)
/-- After the host stretch `hostOps4`. -/
abbrev W19 : Dev nD → Valuation τ sig (Elt F) := fun c => StableHlo.after hostOps4 (W18 m c)

/-! ## The proof data family and the thread state -/

/-- Every pipeline's proof data, each at its region's entry contents. -/
def hpdats : (p : Fin 4) → (c : Dev nD) → Dat τ (Elt F) Unit ℕ (UR sig nD τ) ℕ (Pipeline.pin (pcfgs (F := F)) adm p) c
  | ⟨0, _⟩ => fun c => dat0 (U11 m) c
  | ⟨1, _⟩ => fun c => dat1 (U13 m) c
  | ⟨2, _⟩ => fun c => dat2 (U15 m) c
  | ⟨3, _⟩ => fun c => dat3 (U17 m) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rh (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
/-- REGION 0 over the thread state: entered from every unscoped buffer at `W11`, left at `W12`. Its arrays split
    out of the unscoped buffers and put back at the exit contents; the generator register into the region's invariant and out;
    nothing owed; no semaphore of the kernel's own. -/
def reg0 : Pipeline.RegionSeg (pcfgs (F := F)) adm (hpdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (U11 m) c).loose
  hwaits := Pipeline.hwaits_of_owed_zero _ _ _ _ Lh lvh 0 fun _ _ => rfl
  pre c := iprop(StableHlo.held (c : Thread nD τ) (Pipeline.ucRefs τ sig) (W11 m c) ∗ Rh c)
  post c := iprop(StableHlo.held (c : Thread nD τ) (Pipeline.ucRefs τ sig) (W12 m c) ∗ Rh c)
  X c := iprop(∃ r, prngReg c r)
  Y c := iprop(∃ r, prngReg c r)
  Z c := Pipeline.unscopedRest (Ix := Unit) (Name := ℕ) (U := UR sig nD τ) (Lvl := ℕ) spec0 c (U11 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U11 m) c)
    unfold Pipeline.ΦA
    iintro ⟨Hp, -, Hr⟩
    isplitl [Hr]; · iexact Hr
    iexact Hp
  hout c := by
    rw [Pipeline.ownSems0_none]
    refine .trans (hout0 (U11 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (U11 m c) (U12 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W13`, left at `W14`. Its arrays split
    out of the unscoped buffers and put back at the exit contents; the generator register into the region's invariant and out;
    nothing owed; no semaphore of the kernel's own. -/
def reg1 : Pipeline.RegionSeg (pcfgs (F := F)) adm (hpdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (U13 m) c).loose
  hwaits := Pipeline.hwaits_of_owed_zero _ _ _ _ Lh lvh 1 fun _ _ => rfl
  pre c := iprop(StableHlo.held (c : Thread nD τ) (Pipeline.ucRefs τ sig) (W13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec1 c (U13 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U13 m) c)
    unfold Pipeline.ΦA
    iintro ⟨Hp, -, Hr⟩
    isplitl [Hr]; · iexact Hr
    iexact Hp
  hout c := by
    rw [Pipeline.ownSems0_none]
    refine .trans (hout1 (U13 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (U13 m c) (U14 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W15`, left at `W16`. Its arrays split
    out of the unscoped buffers and put back at the exit contents; the generator register into the region's invariant and out;
    nothing owed; no semaphore of the kernel's own. -/
def reg2 : Pipeline.RegionSeg (pcfgs (F := F)) adm (hpdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (U15 m) c).loose
  hwaits := Pipeline.hwaits_of_owed_zero _ _ _ _ Lh lvh 2 fun _ _ => rfl
  pre c := iprop(StableHlo.held (c : Thread nD τ) (Pipeline.ucRefs τ sig) (W15 m c) ∗ Rh c)
  post c := iprop(StableHlo.held (c : Thread nD τ) (Pipeline.ucRefs τ sig) (W16 m c) ∗ Rh c)
  X c := iprop(∃ r, prngReg c r)
  Y c := iprop(∃ r, prngReg c r)
  Z c := Pipeline.unscopedRest (Ix := Unit) (Name := ℕ) (U := UR sig nD τ) (Lvl := ℕ) spec2 c (U15 m c)
  hentry c := by
    rw [Pipeline.ownSems0_none]
    have hsplit := Pipeline.arrays_of_unscopedBufs (p := 2) (pcfgs (F := F)) adm (hpdats m) launch2.win launch2.arr_whole c
      ((hpdats m 2 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U15 m) c)
    unfold Pipeline.ΦA
    iintro ⟨Hp, -, Hr⟩
    isplitl [Hr]; · iexact Hr
    iexact Hp
  hout c := by
    rw [Pipeline.ownSems0_none]
    refine .trans (hout2 (U15 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m) ((hpdats m 2 c).share_full fun _ => rfl)
      (U15 m c) (U16 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W17`, left at `W18`. Its arrays split
    out of the unscoped buffers and put back at the exit contents; the generator register into the region's invariant and out;
    nothing owed; no semaphore of the kernel's own. -/
def reg3 : Pipeline.RegionSeg (pcfgs (F := F)) adm (hpdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (U17 m) c).loose
  hwaits := Pipeline.hwaits_of_owed_zero _ _ _ _ Lh lvh 3 fun _ _ => rfl
  pre c := iprop(StableHlo.held (c : Thread nD τ) (Pipeline.ucRefs τ sig) (W17 m c) ∗ Rh c)
  post c := iprop(StableHlo.held (c : Thread nD τ) (Pipeline.ucRefs τ sig) (W18 m c) ∗ Rh c)
  X c := iprop(∃ r, prngReg c r)
  Y c := iprop(∃ r, prngReg c r)
  Z c := Pipeline.unscopedRest (Ix := Unit) (Name := ℕ) (U := UR sig nD τ) (Lvl := ℕ) spec3 c (U17 m c)
  hentry c := by
    rw [Pipeline.ownSems0_none]
    have hsplit := Pipeline.arrays_of_unscopedBufs (p := 3) (pcfgs (F := F)) adm (hpdats m) launch3.win launch3.arr_whole c
      ((hpdats m 3 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((show Pipeline.ΦA spec3 c ⊢ (hpdats m 3 c).Φ 0 from .rfl))
    unfold Pipeline.ΦA
    iintro ⟨Hp, -, Hr⟩
    isplitl [Hr]; · iexact Hr
    iexact Hp
  hout c := by
    rw [Pipeline.ownSems0_none]
    refine .trans ((show (hpdats m 3 c).Φ (Fin.last _) ⊢ Pipeline.ΦA spec3 c from .rfl)) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hpdats m) ((hpdats m 3 c).share_full fun _ => rfl)
      (U17 m c) (U18 m c) ((hpdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per pallas_call. -/
abbrev hsegs : List (Pipeline.Seg (pcfgs (F := F)) adm (hpdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .region (reg0 m),
    .host (hseg hostOps1 hostOps1_sub hostOps1_fresh (W12 m)),
    .region (reg1 m),
    .host (hseg hostOps2 hostOps2_sub hostOps2_fresh (W14 m)),
    .region (reg2 m),
    .host (hseg hostOps3 hostOps3_sub hostOps3_fresh (W16 m)),
    .region (reg3 m),
    .host (hseg hostOps4 hostOps4_sub hostOps4_fresh (W18 m)) ]

/-- @main IS the run of the segments. -/
theorem main_run (c : Dev nD) : main (F := F) c = Pipeline.Seg.run (hsegs m) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents `W19` — whatever is then read off them (`hQ`). -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W19 m c b) → Q (⟨⟩, s)) :
    θ_run defs (onTc (τ := τ) (main (F := F))) ⟨m, fun _ => 0, ρ⟩ Q :=
  Pipeline.θ_run_regions_kit (pcfgs (F := F)) adm (hpdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W19 m c) ∗ Rh c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := hQ)

/-! ## The arguments end as launched -/

/-- No host stretch writes the buffer `r` and no region has it as a window's array. -/
def Kept (r : Ref sig .tc) : Prop :=
  r ∉ hostOps4_W ∧ (∀ w, Pipeline.arrRef spec3 w ≠ r) ∧ r ∉ hostOps3_W ∧ (∀ w, Pipeline.arrRef spec2 w ≠ r) ∧ r ∉ hostOps2_W ∧ (∀ w, Pipeline.arrRef spec1 w ≠ r) ∧ r ∉ hostOps1_W ∧ (∀ w, Pipeline.arrRef spec0 w ≠ r) ∧ r ∉ hostOps0_10_W ∧ r ∉ hostOps0_9_W ∧ r ∉ hostOps0_8_W ∧ r ∉ hostOps0_7_W ∧ r ∉ hostOps0_6_W ∧ r ∉ hostOps0_5_W ∧ r ∉ hostOps0_4_W ∧ r ∉ hostOps0_3_W ∧ r ∉ hostOps0_2_W ∧ r ∉ hostOps0_1_W ∧ r ∉ hostOps0_W

/-- Such a buffer reaches the end as launched: the fold at it walks back to the launch memory. -/
theorem W19_kept (c : Dev nD) (r : Ref sig .tc) (h : Kept r) : W19 m c (Proc.devRef .tc r) = m ((c : Thread nD τ).loc r) :=
  (StableHlo.after_of_writes_sub hostOps4 _ hostOps4_writes h.1).trans <|
    (W18_of_ne m c r h.2.1).trans <|
    (StableHlo.after_of_writes_sub hostOps3 _ hostOps3_writes h.2.2.1).trans <|
    (W16_of_ne m c r h.2.2.2.1).trans <|
    (StableHlo.after_of_writes_sub hostOps2 _ hostOps2_writes h.2.2.2.2.1).trans <|
    (W14_of_ne m c r h.2.2.2.2.2.1).trans <|
    (StableHlo.after_of_writes_sub hostOps1 _ hostOps1_writes h.2.2.2.2.2.2.1).trans <|
    (W12_of_ne m c r h.2.2.2.2.2.2.2.1).trans <|
    (StableHlo.after_of_writes_sub hostOps0_10 _ hostOps0_10_writes h.2.2.2.2.2.2.2.2.1).trans <|
    (StableHlo.after_of_writes_sub hostOps0_9 _ hostOps0_9_writes h.2.2.2.2.2.2.2.2.2.1).trans <|
    (StableHlo.after_of_writes_sub hostOps0_8 _ hostOps0_8_writes h.2.2.2.2.2.2.2.2.2.2.1).trans <|
    (StableHlo.after_of_writes_sub hostOps0_7 _ hostOps0_7_writes h.2.2.2.2.2.2.2.2.2.2.2.1).trans <|
    (StableHlo.after_of_writes_sub hostOps0_6 _ hostOps0_6_writes h.2.2.2.2.2.2.2.2.2.2.2.2.1).trans <|
    (StableHlo.after_of_writes_sub hostOps0_5 _ hostOps0_5_writes h.2.2.2.2.2.2.2.2.2.2.2.2.2.1).trans <|
    (StableHlo.after_of_writes_sub hostOps0_4 _ hostOps0_4_writes h.2.2.2.2.2.2.2.2.2.2.2.2.2.2.1).trans <|
    (StableHlo.after_of_writes_sub hostOps0_3 _ hostOps0_3_writes h.2.2.2.2.2.2.2.2.2.2.2.2.2.2.2.1).trans <|
    (StableHlo.after_of_writes_sub hostOps0_2 _ hostOps0_2_writes h.2.2.2.2.2.2.2.2.2.2.2.2.2.2.2.2.1).trans <|
    (StableHlo.after_of_writes_sub hostOps0_1 _ hostOps0_1_writes h.2.2.2.2.2.2.2.2.2.2.2.2.2.2.2.2.2.1).trans <|
    (StableHlo.after_of_writes_sub hostOps0 _ hostOps0_writes h.2.2.2.2.2.2.2.2.2.2.2.2.2.2.2.2.2.2).trans <| rfl

theorem kept_arg0 : Kept main_arg0 := ⟨by decide, by decide, by decide, by decide, by decide, by decide, by decide, by decide, by decide, by decide, by decide, by decide, by decide, by decide, by decide, by decide, by decide, by decide, by decide⟩
theorem kept_arg1 : Kept main_arg1 := ⟨by decide, by decide, by decide, by decide, by decide, by decide, by decide, by decide, by decide, by decide, by decide, by decide, by decide, by decide, by decide, by decide, by decide, by decide, by decide⟩
theorem kept_arg2 : Kept main_arg2 := ⟨by decide, by decide, by decide, by decide, by decide, by decide, by decide, by decide, by decide, by decide, by decide, by decide, by decide, by decide, by decide, by decide, by decide, by decide, by decide⟩
theorem kept_arg3 : Kept main_arg3 := ⟨by decide, by decide, by decide, by decide, by decide, by decide, by decide, by decide, by decide, by decide, by decide, by decide, by decide, by decide, by decide, by decide, by decide, by decide, by decide⟩
theorem kept_arg4 : Kept main_arg4 := ⟨by decide, by decide, by decide, by decide, by decide, by decide, by decide, by decide, by decide, by decide, by decide, by decide, by decide, by decide, by decide, by decide, by decide, by decide, by decide⟩
theorem kept_arg5 : Kept main_arg5 := ⟨by decide, by decide, by decide, by decide, by decide, by decide, by decide, by decide, by decide, by decide, by decide, by decide, by decide, by decide, by decide, by decide, by decide, by decide, by decide⟩
theorem kept_arg6 : Kept main_arg6 := ⟨by decide, by decide, by decide, by decide, by decide, by decide, by decide, by decide, by decide, by decide, by decide, by decide, by decide, by decide, by decide, by decide, by decide, by decide, by decide⟩
theorem kept_arg7 : Kept main_arg7 := ⟨by decide, by decide, by decide, by decide, by decide, by decide, by decide, by decide, by decide, by decide, by decide, by decide, by decide, by decide, by decide, by decide, by decide, by decide, by decide⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main m ρ fun s h c =>
    ⟨(h c _ (mem_uc main_arg0 (by decide))).trans (W19_kept m c main_arg0 kept_arg0),
     (h c _ (mem_uc main_arg1 (by decide))).trans (W19_kept m c main_arg1 kept_arg1),
     (h c _ (mem_uc main_arg2 (by decide))).trans (W19_kept m c main_arg2 kept_arg2),
     (h c _ (mem_uc main_arg3 (by decide))).trans (W19_kept m c main_arg3 kept_arg3),
     (h c _ (mem_uc main_arg4 (by decide))).trans (W19_kept m c main_arg4 kept_arg4),
     (h c _ (mem_uc main_arg5 (by decide))).trans (W19_kept m c main_arg5 kept_arg5),
     (h c _ (mem_uc main_arg6 (by decide))).trans (W19_kept m c main_arg6 kept_arg6),
     (h c _ (mem_uc main_arg7 (by decide))).trans (W19_kept m c main_arg7 kept_arg7)⟩

end Cert.Kernel.Hand

end
-- ==== Proof.KI_Sh0.lean ====
/- Region 0 of the idealized kernel program: the definitions its body runs share. -/
import proofs.«165993_j28200755266000_1_alg».proof.Proof.Gen.KernelIdeal.Launch
import proofs.«165993_j28200755266000_1_alg».proof.Proof.Gen.KernelIdeal.Skeleton
import proofs.«165993_j28200755266000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the accumulating kernel `cc0__part1_kernel` — what its runs are stated over

The body resets its accumulator (a scratch buffer the kernel keeps across grid points) at the first grid point,
adds this point's product into it, and copies it to the output block. -/

/-- The reset's condition: the grid coordinate is zero. -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val % 49 = 0 :=
  (by decide +kernel : ∀ t : Fin grid0.N, cond0 (grid0.coords t) ↔ t.val % 49 = 0)

/-- No window of the region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Each window's current staging memref at point `t`, as the pipeline passes it, and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S256x128 .f32 := Memref.whole cc0_scratch0
/-- The views through which the output block's and the accumulator's contents are stated. -/
abbrev VO0 : View sig .tc .vmem S256x128 .f32 := (Memref.whole cc0_stg2_0 : Memref sig .tc .vmem S256x128 .f32).view
abbrev VS0 : View sig .tc .vmem S256x128 .f32 := (scM0).view

/-- The scoped buffers of the core other than this region's staging buffers and accumulator (the other regions'
    staging buffers and accumulators), each at some contents: carried through the region unopened. -/
abbrev Rest0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents, beside the other scoped buffers. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  simp only [scM0, owns_whole, bigSepL]
  rfl

end Cert.KernelIdeal.Hand

end
-- ==== Proof.KI_Run0.lean ====
/- Region 0 of the idealized kernel program: the whole-body runs of its kernel, one per control case. -/
import proofs.«165993_j28200755266000_1_alg».proof.Proof.KI_Sh0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__part1_kernel i arg1 harg1 arg2 harg2 arg3 harg3 arg4 harg4) K } := by
  refine ⟨?_, ?_, fun E K => ?run⟩
  case run =>
    simp only [cc0__part1_kernel_eq_skeleton]; unfold cc0__part1_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__part1_kernel i arg1 harg1 arg2 harg2 arg3 harg3 arg4 harg4) K } := by
  refine ⟨?_, ?_, fun E K => ?run⟩
  case run =>
    simp only [cc0__part1_kernel_eq_skeleton]; unfold cc0__part1_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.KernelIdeal.Hand

end
-- ==== Proof.KI_Reg0.lean ====
/- Region 0 of the idealized kernel program at a parameter for the buffers' entry contents: the blocks, what each control case leaves, the accumulation over the grid, the proof data and the body obligation. -/
import proofs.«165993_j28200755266000_1_alg».proof.Proof.KI_Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the accumulator: its pieces read back -/

theorem cover0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) (y : S256x128.Idx) :
    ∃ pc ∈ (kernelRun0_A c i arg1 harg1 arg2 harg2 arg3 harg3 arg4 harg4 hc0 x1 x2).1, y ∈ pc.1.set :=
  View.cover_of_tiledL (kernelRun0_A c i arg1 harg1 arg2 harg2 arg3 harg3 arg4 harg4 hc0 x1 x2).1 S256x128.size (by sl_kernel_rfl) y
def out0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) : Vec F S256x128 .f32 :=
  VO0.read (Elt F) (VO0.writes (Elt F) VO0.junk (kernelRun0_A c i arg1 harg1 arg2 harg2 arg3 harg3 arg4 harg4 hc0 x1 x2).1)
theorem scover0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) (y : S256x128.Idx) :
    ∃ pc ∈ (kernelRun0_A c i arg1 harg1 arg2 harg2 arg3 harg3 arg4 harg4 hc0 x1 x2).2.1, y ∈ pc.1.set :=
  View.cover_of_tiledL (kernelRun0_A c i arg1 harg1 arg2 harg2 arg3 harg3 arg4 harg4 hc0 x1 x2).2.1 S256x128.size (by sl_kernel_rfl) y
def sout0_A (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) : Vec F S256x128 .f32 :=
  VS0.read (Elt F) (VS0.writes (Elt F) VS0.junk (kernelRun0_A c i arg1 harg1 arg2 harg2 arg3 harg3 arg4 harg4 hc0 x1 x2).2.1)
theorem cover0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) (y : S256x128.Idx) :
    ∃ pc ∈ (kernelRun0_B c i arg1 harg1 arg2 harg2 arg3 harg3 arg4 harg4 hc0 x1 x2 xs).1, y ∈ pc.1.set :=
  View.cover_of_tiledL (kernelRun0_B c i arg1 harg1 arg2 harg2 arg3 harg3 arg4 harg4 hc0 x1 x2 xs).1 S256x128.size (by sl_kernel_rfl) y
def out0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) : Vec F S256x128 .f32 :=
  VO0.read (Elt F) (VO0.writes (Elt F) VO0.junk (kernelRun0_B c i arg1 harg1 arg2 harg2 arg3 harg3 arg4 harg4 hc0 x1 x2 xs).1)
theorem scover0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) (y : S256x128.Idx) :
    ∃ pc ∈ (kernelRun0_B c i arg1 harg1 arg2 harg2 arg3 harg3 arg4 harg4 hc0 x1 x2 xs).2.1, y ∈ pc.1.set :=
  View.cover_of_tiledL (kernelRun0_B c i arg1 harg1 arg2 harg2 arg3 harg3 arg4 harg4 hc0 x1 x2 xs).2.1 S256x128.size (by sl_kernel_rfl) y
def sout0_B (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) : Vec F S256x128 .f32 :=
  VS0.read (Elt F) (VS0.writes (Elt F) VS0.junk (kernelRun0_B c i arg1 harg1 arg2 harg2 arg3 harg3 arg4 harg4 hc0 x1 x2 xs).2.1)

/-! ## What the output block and the accumulator hold after each point -/

theorem not_first0 {n : ℕ} (hn : n + 1 < cfg0.N) : ¬ (n + 1) % 49 = 0 := by
  have hN : n + 1 < 49 := lt_of_lt_of_eq hn (show cfg0.N = 49 from N_0); omega

/-- THE ACCUMULATION: after the body at position `n`, the output block's staging buffer and the accumulator: the first
    point's case from the point's input blocks, a later point's from them and what the point before left in the accumulator. -/
def outsAt0 (c : Dev nD) : (n : ℕ) → n < cfg0.N → Vec F S256x128 .f32 × Vec F S256x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => not_first0 hn ((hcond0 ⟨n + 1, hn⟩).mp h)) (iblk0 V c 0 ⟨n + 1, hn⟩) (iblk0 V c 1 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => not_first0 hn ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 49 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact absurd h0 (not_first0 hn)

theorem outsAt0_B (c : Dev nD) (t : Fin cfg0.N) (h0 : ¬t.val % 49 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 49 := lt_of_lt_of_eq t.isLt (show cfg0.N = 49 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 49 = 0
  · have hz : t.val = 0 := by omega
    rw [outsAt0_A V c t h0]
    unfold out0_A sout0_A; (try dsimp only)
    rw [PhiS0_castSucc V c t, PhiS0_zero V c _ _ hz, PhiA0_eq]
    iintro ⟨⟨⟨HS, HR⟩, Hg⟩, Ho, ⟨%d0, H0⟩, ⟨%d1, H1⟩, ⟨%d2, H2⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _ _)
  · have hz : t.val ≠ 0 := fun h => h0 (by rw [h])
    rw [outsAt0_B V c t h0]
    unfold out0_B sout0_B; (try dsimp only)
    rw [PhiS0_castSucc V c t, PhiS0_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 49 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS, HR⟩, Hg⟩
  isplitl [HS HR]
  · isplitl [HS]
    · iexists _; iexact HS
    iexact HR
  iexact Hg

end Region0

end Cert.KernelIdeal.Hand

end
-- ==== Proof.KI_Sh1.lean ====
/- Region 1 of the idealized kernel program: the definitions its body runs share. -/
import proofs.«165993_j28200755266000_1_alg».proof.Proof.Gen.KernelIdeal.Launch
import proofs.«165993_j28200755266000_1_alg».proof.Proof.Gen.KernelIdeal.Skeleton
import proofs.«165993_j28200755266000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the accumulating kernel `cc1__genreduce_kernel` — what its runs are stated over

The body resets its accumulator (a scratch buffer the kernel keeps across grid points) at the first grid point,
adds this point's product into it, and copies it to the output block. -/

/-- The reset's condition: the grid coordinate is zero. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val % 49 = 0 :=
  (by decide +kernel : ∀ t : Fin grid1.N, cond1 (grid1.coords t) ↔ t.val % 49 = 0)

/-- No window of the region is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Each window's current staging memref at point `t`, as the pipeline passes it, and its wholeness. -/
abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S256x128 .f32 := Memref.whole cc1_scratch0
/-- The views through which the output block's and the accumulator's contents are stated. -/
abbrev VO1 : View sig .tc .vmem S256x128 .f32 := (Memref.whole cc1_stg2_0 : Memref sig .tc .vmem S256x128 .f32).view
abbrev VS1 : View sig .tc .vmem S256x128 .f32 := (scM1).view

/-- The scoped buffers of the core other than this region's staging buffers and accumulator (the other regions'
    staging buffers and accumulators), each at some contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents, beside the other scoped buffers. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  simp only [scM1, owns_whole, bigSepL]
  rfl

end Cert.KernelIdeal.Hand

end
-- ==== Proof.KI_Run1.lean ====
/- Region 1 of the idealized kernel program: the whole-body runs of its kernel, one per control case. -/
import proofs.«165993_j28200755266000_1_alg».proof.Proof.KI_Sh1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc1__genreduce_kernel i arg1 harg1 arg2 harg2 arg3 harg3 arg4 harg4) K } := by
  refine ⟨?_, ?_, fun E K => ?run⟩
  case run =>
    simp only [cc1__genreduce_kernel_eq_skeleton]; unfold cc1__genreduce_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc1__genreduce_kernel i arg1 harg1 arg2 harg2 arg3 harg3 arg4 harg4) K } := by
  refine ⟨?_, ?_, fun E K => ?run⟩
  case run =>
    simp only [cc1__genreduce_kernel_eq_skeleton]; unfold cc1__genreduce_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.KernelIdeal.Hand

end
-- ==== Proof.KI_Reg1.lean ====
/- Region 1 of the idealized kernel program at a parameter for the buffers' entry contents: the blocks, what each control case leaves, the accumulation over the grid, the proof data and the body obligation. -/
import proofs.«165993_j28200755266000_1_alg».proof.Proof.KI_Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator: its pieces read back -/

theorem cover1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) (y : S256x128.Idx) :
    ∃ pc ∈ (kernelRun1_A c i arg1 harg1 arg2 harg2 arg3 harg3 arg4 harg4 hc0 x1 x2).1, y ∈ pc.1.set :=
  View.cover_of_tiledL (kernelRun1_A c i arg1 harg1 arg2 harg2 arg3 harg3 arg4 harg4 hc0 x1 x2).1 S256x128.size (by sl_kernel_rfl) y
def out1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) : Vec F S256x128 .f32 :=
  VO1.read (Elt F) (VO1.writes (Elt F) VO1.junk (kernelRun1_A c i arg1 harg1 arg2 harg2 arg3 harg3 arg4 harg4 hc0 x1 x2).1)
theorem scover1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) (y : S256x128.Idx) :
    ∃ pc ∈ (kernelRun1_A c i arg1 harg1 arg2 harg2 arg3 harg3 arg4 harg4 hc0 x1 x2).2.1, y ∈ pc.1.set :=
  View.cover_of_tiledL (kernelRun1_A c i arg1 harg1 arg2 harg2 arg3 harg3 arg4 harg4 hc0 x1 x2).2.1 S256x128.size (by sl_kernel_rfl) y
def sout1_A (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) : Vec F S256x128 .f32 :=
  VS1.read (Elt F) (VS1.writes (Elt F) VS1.junk (kernelRun1_A c i arg1 harg1 arg2 harg2 arg3 harg3 arg4 harg4 hc0 x1 x2).2.1)
theorem cover1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) (y : S256x128.Idx) :
    ∃ pc ∈ (kernelRun1_B c i arg1 harg1 arg2 harg2 arg3 harg3 arg4 harg4 hc0 x1 x2 xs).1, y ∈ pc.1.set :=
  View.cover_of_tiledL (kernelRun1_B c i arg1 harg1 arg2 harg2 arg3 harg3 arg4 harg4 hc0 x1 x2 xs).1 S256x128.size (by sl_kernel_rfl) y
def out1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) : Vec F S256x128 .f32 :=
  VO1.read (Elt F) (VO1.writes (Elt F) VO1.junk (kernelRun1_B c i arg1 harg1 arg2 harg2 arg3 harg3 arg4 harg4 hc0 x1 x2 xs).1)
theorem scover1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) (y : S256x128.Idx) :
    ∃ pc ∈ (kernelRun1_B c i arg1 harg1 arg2 harg2 arg3 harg3 arg4 harg4 hc0 x1 x2 xs).2.1, y ∈ pc.1.set :=
  View.cover_of_tiledL (kernelRun1_B c i arg1 harg1 arg2 harg2 arg3 harg3 arg4 harg4 hc0 x1 x2 xs).2.1 S256x128.size (by sl_kernel_rfl) y
def sout1_B (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) : Vec F S256x128 .f32 :=
  VS1.read (Elt F) (VS1.writes (Elt F) VS1.junk (kernelRun1_B c i arg1 harg1 arg2 harg2 arg3 harg3 arg4 harg4 hc0 x1 x2 xs).2.1)

/-! ## What the output block and the accumulator hold after each point -/

theorem not_first1 {n : ℕ} (hn : n + 1 < cfg1.N) : ¬ (n + 1) % 49 = 0 := by
  have hN : n + 1 < 49 := lt_of_lt_of_eq hn (show cfg1.N = 49 from N_1); omega

/-- THE ACCUMULATION: after the body at position `n`, the output block's staging buffer and the accumulator: the first
    point's case from the point's input blocks, a later point's from them and what the point before left in the accumulator. -/
def outsAt1 (c : Dev nD) : (n : ℕ) → n < cfg1.N → Vec F S256x128 .f32 × Vec F S256x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => not_first1 hn ((hcond1 ⟨n + 1, hn⟩).mp h)) (iblk1 V c 0 ⟨n + 1, hn⟩) (iblk1 V c 1 ⟨n + 1, hn⟩) (outsAt1 c n (Nat.lt_of_succ_lt hn)).2,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => not_first1 hn ((hcond1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 49 = 0) :
    outsAt1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact absurd h0 (not_first1 hn)

theorem outsAt1_B (c : Dev nD) (t : Fin cfg1.N) (h0 : ¬t.val % 49 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 49 := lt_of_lt_of_eq t.isLt (show cfg1.N = 49 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 49 = 0
  · have hz : t.val = 0 := by omega
    rw [outsAt1_A V c t h0]
    unfold out1_A sout1_A; (try dsimp only)
    rw [PhiS1_castSucc V c t, PhiS1_zero V c _ _ hz, PhiA1_eq]
    iintro ⟨⟨⟨HS, HR⟩, Hg⟩, Ho, ⟨%d0, H0⟩, ⟨%d1, H1⟩, ⟨%d2, H2⟩⟩
    iapply ((kernelRun1_A c (grid1.coords t) _ _ _ _ _ _ _ _ ((hcond1 t).mpr h0) (iblk1 V c 0 t) (iblk1 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _ _ _)
  · have hz : t.val ≠ 0 := fun h => h0 (by rw [h])
    rw [outsAt1_B V c t h0]
    unfold out1_B sout1_B; (try dsimp only)
    rw [PhiS1_castSucc V c t, PhiS1_pos V c _ _ hz]
    iintro ⟨⟨⟨HS, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 49 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS, HR⟩, Hg⟩
  isplitl [HS HR]
  · isplitl [HS]
    · iexists _; iexact HS
    iexact HR
  iexact Hg

end Region1

end Cert.KernelIdeal.Hand

end
-- ==== Proof.KI_Sh2.lean ====
/- Region 2 of the idealized kernel program: the definitions its body runs share. -/
import proofs.«165993_j28200755266000_1_alg».proof.Proof.Gen.KernelIdeal.Launch
import proofs.«165993_j28200755266000_1_alg».proof.Proof.Gen.KernelIdeal.Skeleton
import proofs.«165993_j28200755266000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the accumulating kernel `cc2__genreduce_kernel` — what its runs are stated over

The body resets its accumulator (a scratch buffer the kernel keeps across grid points) at the first grid point,
adds this point's product into it, and copies it to the output block. -/

/-- The reset's condition: the grid coordinate is zero. -/
abbrev cond2 (i : grid2.Coords) : Prop := (Scalar.cmpi .ne (Scalar.extui (Scalar.cmpi .eq (BitVec.ofNat 32 (i 0).val) 0#32)) 0#32) = 1#1
/-- It holds at the first point only — decided over the grid. -/
theorem hcond2 : ∀ t : Fin cfg2.N, cond2 (grid2.coords t) ↔ t.val % 49 = 0 :=
  (by decide +kernel : ∀ t : Fin grid2.N, cond2 (grid2.coords t) ↔ t.val % 49 = 0)

/-- No window of the region is ever idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

/-- Each window's current staging memref at point `t`, as the pipeline passes it, and its wholeness. -/
abbrev ms2_0 (t : Fin cfg2.N) : Memref sig .tc .vmem S256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S256x128 .f32 := Memref.whole cc2_scratch0
/-- The views through which the output block's and the accumulator's contents are stated. -/
abbrev VO2 : View sig .tc .vmem S256x128 .f32 := (Memref.whole cc2_stg2_0 : Memref sig .tc .vmem S256x128 .f32).view
abbrev VS2 : View sig .tc .vmem S256x128 .f32 := (scM2).view

/-- The scoped buffers of the core other than this region's staging buffers and accumulator (the other regions'
    staging buffers and accumulators), each at some contents: carried through the region unopened. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents, beside the other scoped buffers. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  simp only [scM2, owns_whole, bigSepL]
  rfl

end Cert.KernelIdeal.Hand

end
-- ==== Proof.KI_Run2.lean ====
/- Region 2 of the idealized kernel program: the whole-body runs of its kernel, one per control case. -/
import proofs.«165993_j28200755266000_1_alg».proof.Proof.KI_Sh2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST grid point (the reset taken): on whole staging memrefs, the inputs' at their contents, the
    output's and the accumulator's at anything, it runs to the continuation holding the inputs' as they were and the
    output's and the accumulator's with the pieces its stores wrote (the witness the run finds). -/
noncomputable def kernelRun2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc2__genreduce_kernel i arg1 harg1 arg2 harg2 arg3 harg3 arg4 harg4) K } := by
  refine ⟨?_, ?_, fun E K => ?run⟩
  case run =>
    simp only [cc2__genreduce_kernel_eq_skeleton]; unfold cc2__genreduce_kernel_skel
    unfold owns
    iintro ⟨⟨%f1, %hf1, H1⟩, ⟨%f2, %hf2, H2⟩, ⟨%d3, %f3, -, H3⟩, ⟨%ds, %fs, -, HS⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

set_option maxHeartbeats 4000000 in
/-- The body at a LATER grid point (no reset): the accumulator comes in at what the point before left (`xs`). -/
noncomputable def kernelRun2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) :
    Σ' (L3 : List (View.Piece (Elt F) S256x128 .f32)), { LS : List (View.Piece (Elt F) S256x128 .f32) //
      ∀ (E : Set ℕ) (K : PUnit → sProp 𝕄),
        iprop(owns (c : Thread nD τ) arg1 fullShare x1 ∗ owns (c : Thread nD τ) arg2 fullShare x2 ∗ (∃ d, owns (c : Thread nD τ) arg3 fullShare d) ∗ owns (c : Thread nD τ) arg4 fullShare xs
            ∗ (iprop(owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc2__genreduce_kernel i arg1 harg1 arg2 harg2 arg3 harg3 arg4 harg4) K } := by
  refine ⟨?_, ?_, fun E K => ?run⟩
  case run =>
    simp only [cc2__genreduce_kernel_eq_skeleton]; unfold cc2__genreduce_kernel_skel
    unfold owns
    iintro ⟨⟨%f1, %hf1, H1⟩, ⟨%f2, %hf2, H2⟩, ⟨%d3, %f3, -, H3⟩, ⟨%fs, %hfs, HS⟩, Hk⟩
    obtain rfl := harg1.eq_unread hf1; obtain rfl := harg2.eq_unread hf2; obtain rfl := harg4.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact HS

end Cert.KernelIdeal.Hand

end
-- ==== Proof.KI_Reg2.lean ====
/- Region 2 of the idealized kernel program at a parameter for the buffers' entry contents: the blocks, what each control case leaves, the accumulation over the grid, the proof data and the body obligation. -/
import proofs.«165993_j28200755266000_1_alg».proof.Proof.KI_Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output block and in the accumulator: its pieces read back -/

theorem cover2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) (y : S256x128.Idx) :
    ∃ pc ∈ (kernelRun2_A c i arg1 harg1 arg2 harg2 arg3 harg3 arg4 harg4 hc0 x1 x2).1, y ∈ pc.1.set :=
  View.cover_of_tiledL (kernelRun2_A c i arg1 harg1 arg2 harg2 arg3 harg3 arg4 harg4 hc0 x1 x2).1 S256x128.size (by sl_kernel_rfl) y
def out2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) : Vec F S256x128 .f32 :=
  VO2.read (Elt F) (VO2.writes (Elt F) VO2.junk (kernelRun2_A c i arg1 harg1 arg2 harg2 arg3 harg3 arg4 harg4 hc0 x1 x2).1)
theorem scover2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) (y : S256x128.Idx) :
    ∃ pc ∈ (kernelRun2_A c i arg1 harg1 arg2 harg2 arg3 harg3 arg4 harg4 hc0 x1 x2).2.1, y ∈ pc.1.set :=
  View.cover_of_tiledL (kernelRun2_A c i arg1 harg1 arg2 harg2 arg3 harg3 arg4 harg4 hc0 x1 x2).2.1 S256x128.size (by sl_kernel_rfl) y
def sout2_A (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) : Vec F S256x128 .f32 :=
  VS2.read (Elt F) (VS2.writes (Elt F) VS2.junk (kernelRun2_A c i arg1 harg1 arg2 harg2 arg3 harg3 arg4 harg4 hc0 x1 x2).2.1)
theorem cover2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) (y : S256x128.Idx) :
    ∃ pc ∈ (kernelRun2_B c i arg1 harg1 arg2 harg2 arg3 harg3 arg4 harg4 hc0 x1 x2 xs).1, y ∈ pc.1.set :=
  View.cover_of_tiledL (kernelRun2_B c i arg1 harg1 arg2 harg2 arg3 harg3 arg4 harg4 hc0 x1 x2 xs).1 S256x128.size (by sl_kernel_rfl) y
def out2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) : Vec F S256x128 .f32 :=
  VO2.read (Elt F) (VO2.writes (Elt F) VO2.junk (kernelRun2_B c i arg1 harg1 arg2 harg2 arg3 harg3 arg4 harg4 hc0 x1 x2 xs).1)
theorem scover2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) (y : S256x128.Idx) :
    ∃ pc ∈ (kernelRun2_B c i arg1 harg1 arg2 harg2 arg3 harg3 arg4 harg4 hc0 x1 x2 xs).2.1, y ∈ pc.1.set :=
  View.cover_of_tiledL (kernelRun2_B c i arg1 harg1 arg2 harg2 arg3 harg3 arg4 harg4 hc0 x1 x2 xs).2.1 S256x128.size (by sl_kernel_rfl) y
def sout2_B (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) : Vec F S256x128 .f32 :=
  VS2.read (Elt F) (VS2.writes (Elt F) VS2.junk (kernelRun2_B c i arg1 harg1 arg2 harg2 arg3 harg3 arg4 harg4 hc0 x1 x2 xs).2.1)

/-! ## What the output block and the accumulator hold after each point -/

theorem not_first2 {n : ℕ} (hn : n + 1 < cfg2.N) : ¬ (n + 1) % 49 = 0 := by
  have hN : n + 1 < 49 := lt_of_lt_of_eq hn (show cfg2.N = 49 from N_2); omega

/-- THE ACCUMULATION: after the body at position `n`, the output block's staging buffer and the accumulator: the first
    point's case from the point's input blocks, a later point's from them and what the point before left in the accumulator. -/
def outsAt2 (c : Dev nD) : (n : ℕ) → n < cfg2.N → Vec F S256x128 .f32 × Vec F S256x128 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩))
  | n + 1, hn => (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => not_first2 hn ((hcond2 ⟨n + 1, hn⟩).mp h)) (iblk2 V c 0 ⟨n + 1, hn⟩) (iblk2 V c 1 ⟨n + 1, hn⟩) (outsAt2 c n (Nat.lt_of_succ_lt hn)).2,
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => not_first2 hn ((hcond2 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 49 = 0) :
    outsAt2 V c t.val t.isLt = (out2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)) := by
  obtain ⟨n, hn⟩ := t
  cases n with
  | zero => exact rfl
  | succ n => exact absurd h0 (not_first2 hn)

theorem outsAt2_B (c : Dev nD) (t : Fin cfg2.N) (h0 : ¬t.val % 49 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact rfl

/-- The region invariant before position `n`: before the first point the class's (every scoped buffer that is no staging
    buffer at anything); afterwards the accumulator at what the point before left in it, the other scoped buffers at
    anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The pipeline's proof data -/

/-- The proof data of the region's pipeline on core `c`: the arrays as the region finds them; after the body at point `t`
    each input's buffer at its block and the output's at the accumulation; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed form says which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 49 := lt_of_lt_of_eq t.isLt (show cfg2.N = 49 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 49 = 0
  · have hz : t.val = 0 := by omega
    rw [outsAt2_A V c t h0]
    unfold out2_A sout2_A; (try dsimp only)
    rw [PhiS2_castSucc V c t, PhiS2_zero V c _ _ hz, PhiA2_eq]
    iintro ⟨⟨⟨HS, HR⟩, Hg⟩, Ho, ⟨%d0, H0⟩, ⟨%d1, H1⟩, ⟨%d2, H2⟩⟩
    iapply ((kernelRun2_A c (grid2.coords t) _ _ _ _ _ _ _ _ ((hcond2 t).mpr h0) (iblk2 V c 0 t) (iblk2 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover2_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _ _ _)
  · have hz : t.val ≠ 0 := fun h => h0 (by rw [h])
    rw [outsAt2_B V c t h0]
    unfold out2_B sout2_B; (try dsimp only)
    rw [PhiS2_castSucc V c t, PhiS2_pos V c _ _ hz]
    iintro ⟨⟨⟨HS, HR⟩, Hg⟩, Ho, ⟨%d0, H0⟩, ⟨%d1, H1⟩, ⟨%d2, H2⟩⟩
    iapply ((kernelRun2_B c (grid2.coords t) _ _ _ _ _ _ _ _ (fun h => h0 ((hcond2 t).mp h)) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 49 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS, HR⟩, Hg⟩
  isplitl [HS HR]
  · isplitl [HS]
    · iexists _; iexact HS
    iexact HR
  iexact Hg

end Region2

end Cert.KernelIdeal.Hand

end
-- ==== Proof.KI_Sh3.lean ====
/- Region 3 of the idealized kernel program: the definitions its body run is stated over. -/
import proofs.«165993_j28200755266000_1_alg».proof.Proof.Gen.KernelIdeal.Launch
import proofs.«165993_j28200755266000_1_alg».proof.Proof.Gen.KernelIdeal.Skeleton
import proofs.«165993_j28200755266000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the kernel `cc3__gen_bn_kernel` — what its run is stated over

One tile of the last layer's product, normalised column by column over the batch axis, scaled and shifted. The body
keeps nothing between grid points. -/

/-- No window of the region is ever idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

abbrev ms3_0 (t : Fin cfg3.N) : Memref sig .tc .vmem S256x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x2048 .f32 := win3_4.stage (cfg3.slots t 4)
abbrev hs3_4 (t : Fin cfg3.N) : (ms3_4 t).IsWhole := hstage3_4 ((cfg3.slots t 4).cast nbuf3_4)
/-- The view through which the output block's contents are stated. -/
abbrev VO3 : View sig .tc .vmem S256x2048 .f32 := (Memref.whole cc3_stg4_0 : Memref sig .tc .vmem S256x2048 .f32).view

end Cert.KernelIdeal.Hand

end
-- ==== Proof.KI_Run3.lean ====
/- Region 3 of the idealized kernel program: the whole-body run of its kernel. -/
import proofs.«165993_j28200755266000_1_alg».proof.Proof.KI_Sh3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any grid point: on whole staging memrefs, the inputs' at their contents and the output's at anything,
    it runs to the continuation holding the inputs' as they were and the output's with the pieces its store wrote. -/
noncomputable def kernelRun3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) :
    { L5 : List (View.Piece (Elt F) S256x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)) -∗ K ⟨⟩))
          ⊢ wp frame (wpE (defs₀ (F := F)) Variants.none c none) E (cc3__gen_bn_kernel i arg1 harg1 arg2 harg2 arg3 harg3 arg4 harg4 arg5 harg5) K } := by
  refine ⟨?_, fun E K => ?run⟩
  case run =>
    simp only [cc3__gen_bn_kernel_eq_skeleton]; unfold cc3__gen_bn_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1; obtain rfl := harg2.eq_unread hf2; obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Hand

end
-- ==== Proof.KI_Reg3.lean ====
/- Region 3 of the idealized kernel program at a parameter for the buffers' entry contents: the blocks, what the body leaves, the proof data and the body obligation. -/
import proofs.«165993_j28200755266000_1_alg».proof.Proof.KI_Run3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The body's one store covers the output block. -/
theorem cover3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) (y : S256x2048.Idx) :
    ∃ pc ∈ (kernelRun3 c i arg1 harg1 arg2 harg2 arg3 harg3 arg4 harg4 arg5 harg5 x1 x2 x3 x4).1, y ∈ pc.1.set :=
  View.cover_of_tiledL (kernelRun3 c i arg1 harg1 arg2 harg2 arg3 harg3 arg4 harg4 arg5 harg5 x1 x2 x3 x4).1 S256x2048.size (by sl_kernel_rfl) y
/-- What the body leaves in the output block's staging buffer: its pieces read back. -/
def out3 (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) : Vec F S256x2048 .f32 :=
  VO3.read (Elt F) (VO3.writes (Elt F) VO3.junk (kernelRun3 c i arg1 harg1 arg2 harg2 arg3 harg3 arg4 harg4 arg5 harg5 x1 x2 x3 x4).1)

/-- The proof data of the region's pipeline on core `c`: the arrays as the region finds them; after the body at point `t`
    each input's buffer at its block and the output's at what the body stored; the class's invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 c (grid3.coords t) (ms3_0 t) (hs3_0 t) (ms3_1 t) (hs3_1 t) (ms3_2 t) (hs3_2 t) (ms3_3 t) (hs3_3 t) (ms3_4 t) (hs3_4 t) (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 c (grid3.coords t) (ms3_0 t) (hs3_0 t) (ms3_1 t) (hs3_1 t) (ms3_2 t) (hs3_2 t) (ms3_3 t) (hs3_3 t) (ms3_4 t) (hs3_4 t) (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t ∗ (dat3 V c).leavesExact 4 t)

set_option maxHeartbeats 4800000 in
/-- The body at any point: the inputs' memrefs hold their blocks, so the run applies; the invariant and the core's dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = (dat3 V c).Φ t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  unfold out3; (try dsimp only)
  iintro ⟨HΦ, Ho, ⟨%d0, H0⟩, ⟨%d1, H1⟩, ⟨%d2, H2⟩, ⟨%d3, H3⟩, ⟨%d4, H4⟩⟩
  iapply ((kernelRun3 c (grid3.coords t) _ _ _ _ _ _ _ _ _ _ (iblk3 V c 0 t) (iblk3 V c 1 t) (iblk3 V c 2 t) (iblk3 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI_Main.lean ====
/- The idealized kernel program's @main as a fold over its host stretches and its four regions: the buffers' contents at every boundary, the proof data family, the regions as segments, the run and the frame. -/
import proofs.«165993_j28200755266000_1_alg».proof.Proof.KI_Reg0
import proofs.«165993_j28200755266000_1_alg».proof.Proof.KI_Reg1
import proofs.«165993_j28200755266000_1_alg».proof.Proof.KI_Reg2
import proofs.«165993_j28200755266000_1_alg».proof.Proof.KI_Reg3
import proofs.«165993_j28200755266000_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- After the host stretch `hostOps0_5`. -/
abbrev W6 : Dev nD → Valuation τ sig (Elt F) := fun c => StableHlo.after hostOps0_5 (W5 m c)
/-- After the host stretch `hostOps0_6`. -/
abbrev W7 : Dev nD → Valuation τ sig (Elt F) := fun c => StableHlo.after hostOps0_6 (W6 m c)
/-- After the host stretch `hostOps0_7`. -/
abbrev W8 : Dev nD → Valuation τ sig (Elt F) := fun c => StableHlo.after hostOps0_7 (W7 m c)
/-- After the host stretch `hostOps0_8`. -/
abbrev W9 : Dev nD → Valuation τ sig (Elt F) := fun c => StableHlo.after hostOps0_8 (W8 m c)
/-- After the host stretch `hostOps0_9`. -/
abbrev W10 : Dev nD → Valuation τ sig (Elt F) := fun c => StableHlo.after hostOps0_9 (W9 m c)
/-- After the host stretch `hostOps0_10`. -/
abbrev W11 : Dev nD → Valuation τ sig (Elt F) := fun c => StableHlo.after hostOps0_10 (W10 m c)

/-- The same read at the TensorCore's references (what region 0's proof data take). -/
abbrev U11 : (c : Dev nD) → (b : Ref sig .tc) → Buf (Elt F) ((c : Thread nD τ).loc b) := fun c b => W11 m c b
/-- At region 0's exit: its arrays at what the pipeline leaves (the inputs as entered, the output's write-backs folded),
    every other buffer as entered. -/
def W12 (c : Dev nD) : Valuation τ sig (Elt F) :=
  Pipeline.withArrays spec0 c (W11 m c) fun w => (dat0 (U11 m) c).arrAt w cfg0.N
theorem W12_arr (c : Dev nD) (w : Fin cfg0.W) :
    W12 m c (Proc.devRef .tc (Pipeline.arrRef spec0 w)) = (dat0 (U11 m) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m c (Proc.devRef .tc b) = W11 m c (Proc.devRef .tc b) := by
  unfold W12; exact Pipeline.withArrays_of_ne spec0 c _ _ b hb
abbrev U12 : (c : Dev nD) → (b : Ref sig .tc) → Buf (Elt F) ((c : Thread nD τ).loc b) := fun c b => W12 m c b
theorem hF0 (c : Dev nD) (w : Fin cfg0.W) : (dat0 (U11 m) c).arrAt w cfg0.N = U12 m c (Pipeline.arrRef spec0 w) :=
  (W12_arr m c w).symm
theorem hrest0 (c : Dev nD) : ∀ b, b ∉ Finset.univ.image (Pipeline.arrRef spec0) → U12 m c b = U11 m c b :=
  fun b hb => W12_of_ne m c b fun w e => hb (Finset.mem_image.mpr ⟨w, Finset.mem_univ _, e⟩)
/-- After the host stretch `hostOps1`. -/
abbrev W13 : Dev nD → Valuation τ sig (Elt F) := fun c => StableHlo.after hostOps1 (W12 m c)

/-- The same read at the TensorCore's references (what region 1's proof data take). -/
abbrev U13 : (c : Dev nD) → (b : Ref sig .tc) → Buf (Elt F) ((c : Thread nD τ).loc b) := fun c b => W13 m c b
/-- At region 1's exit: its arrays at what the pipeline leaves (the inputs as entered, the output's write-backs folded),
    every other buffer as entered. -/
def W14 (c : Dev nD) : Valuation τ sig (Elt F) :=
  Pipeline.withArrays spec1 c (W13 m c) fun w => (dat1 (U13 m) c).arrAt w cfg1.N
theorem W14_arr (c : Dev nD) (w : Fin cfg1.W) :
    W14 m c (Proc.devRef .tc (Pipeline.arrRef spec1 w)) = (dat1 (U13 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev U14 : (c : Dev nD) → (b : Ref sig .tc) → Buf (Elt F) ((c : Thread nD τ).loc b) := fun c b => W14 m c b
theorem hF1 (c : Dev nD) (w : Fin cfg1.W) : (dat1 (U13 m) c).arrAt w cfg1.N = U14 m c (Pipeline.arrRef spec1 w) :=
  (W14_arr m c w).symm
theorem hrest1 (c : Dev nD) : ∀ b, b ∉ Finset.univ.image (Pipeline.arrRef spec1) → U14 m c b = U13 m c b :=
  fun b hb => W14_of_ne m c b fun w e => hb (Finset.mem_image.mpr ⟨w, Finset.mem_univ _, e⟩)
/-- After the host stretch `hostOps2`. -/
abbrev W15 : Dev nD → Valuation τ sig (Elt F) := fun c => StableHlo.after hostOps2 (W14 m c)

/-- The same read at the TensorCore's references (what region 2's proof data take). -/
abbrev U15 : (c : Dev nD) → (b : Ref sig .tc) → Buf (Elt F) ((c : Thread nD τ).loc b) := fun c b => W15 m c b
/-- At region 2's exit: its arrays at what the pipeline leaves (the inputs as entered, the output's write-backs folded),
    every other buffer as entered. -/
def W16 (c : Dev nD) : Valuation τ sig (Elt F) :=
  Pipeline.withArrays spec2 c (W15 m c) fun w => (dat2 (U15 m) c).arrAt w cfg2.N
theorem W16_arr (c : Dev nD) (w : Fin cfg2.W) :
    W16 m c (Proc.devRef .tc (Pipeline.arrRef spec2 w)) = (dat2 (U15 m) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m c (Proc.devRef .tc b) = W15 m c (Proc.devRef .tc b) := by
  unfold W16; exact Pipeline.withArrays_of_ne spec2 c _ _ b hb
abbrev U16 : (c : Dev nD) → (b : Ref sig .tc) → Buf (Elt F) ((c : Thread nD τ).loc b) := fun c b => W16 m c b
theorem hF2 (c : Dev nD) (w : Fin cfg2.W) : (dat2 (U15 m) c).arrAt w cfg2.N = U16 m c (Pipeline.arrRef spec2 w) :=
  (W16_arr m c w).symm
theorem hrest2 (c : Dev nD) : ∀ b, b ∉ Finset.univ.image (Pipeline.arrRef spec2) → U16 m c b = U15 m c b :=
  fun b hb => W16_of_ne m c b fun w e => hb (Finset.mem_image.mpr ⟨w, Finset.mem_univ _, e⟩)
/-- After the host stretch `hostOps3`. -/
abbrev W17 : Dev nD → Valuation τ sig (Elt F) := fun c => StableHlo.after hostOps3 (W16 m c)

/-- The same read at the TensorCore's references (what region 3's proof data take). -/
abbrev U17 : (c : Dev nD) → (b : Ref sig .tc) → Buf (Elt F) ((c : Thread nD τ).loc b) := fun c b => W17 m c b
/-- At region 3's exit: its arrays at what the pipeline leaves (the inputs as entered, the output's write-backs folded),
    every other buffer as entered. -/
def W18 (c : Dev nD) : Valuation τ sig (Elt F) :=
  Pipeline.withArrays spec3 c (W17 m c) fun w => (dat3 (U17 m) c).arrAt w cfg3.N
theorem W18_arr (c : Dev nD) (w : Fin cfg3.W) :
    W18 m c (Proc.devRef .tc (Pipeline.arrRef spec3 w)) = (dat3 (U17 m) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m c (Proc.devRef .tc b) = W17 m c (Proc.devRef .tc b) := by
  unfold W18; exact Pipeline.withArrays_of_ne spec3 c _ _ b hb
abbrev U18 : (c : Dev nD) → (b : Ref sig .tc) → Buf (Elt F) ((c : Thread nD τ).loc b) := fun c b => W18 m c b
theorem hF3 (c : Dev nD) (w : Fin cfg3.W) : (dat3 (U17 m) c).arrAt w cfg3.N = U18 m c (Pipeline.arrRef spec3 w) :=
  (W18_arr m c w).symm
theorem hrest3 (c : Dev nD) : ∀ b, b ∉ Finset.univ.image (Pipeline.arrRef spec3) → U18 m c b = U17 m c b :=
  fun b hb => W18_of_ne m c b fun w e => hb (Finset.mem_image.mpr ⟨w, Finset.mem_univ _, e⟩)
/-- After the host stretch `hostOps4`. -/
abbrev W19 : Dev nD → Valuation τ sig (Elt F) := fun c => StableHlo.after hostOps4 (W18 m c)

/-! ## The proof data family and the thread state -/

/-- Every pipeline's proof data, each at its region's entry contents. -/
def hpdats : (p : Fin 4) → (c : Dev nD) → Dat τ (Elt F) Unit ℕ (UR sig nD τ) ℕ (Pipeline.pin (pcfgs (F := F)) adm p) c
  | ⟨0, _⟩ => fun c => dat0 (U11 m) c
  | ⟨1, _⟩ => fun c => dat1 (U13 m) c
  | ⟨2, _⟩ => fun c => dat2 (U15 m) c
  | ⟨3, _⟩ => fun c => dat3 (U17 m) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rh (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
/-- REGION 0 over the thread state: entered from every unscoped buffer at `W11`, left at `W12`. Its arrays split
    out of the unscoped buffers and put back at the exit contents; the generator register into the region's invariant and out;
    nothing owed; no semaphore of the kernel's own. -/
def reg0 : Pipeline.RegionSeg (pcfgs (F := F)) adm (hpdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (U11 m) c).loose
  hwaits := Pipeline.hwaits_of_owed_zero _ _ _ _ Lh lvh 0 fun _ _ => rfl
  pre c := iprop(StableHlo.held (c : Thread nD τ) (Pipeline.ucRefs τ sig) (W11 m c) ∗ Rh c)
  post c := iprop(StableHlo.held (c : Thread nD τ) (Pipeline.ucRefs τ sig) (W12 m c) ∗ Rh c)
  X c := iprop(∃ r, prngReg c r)
  Y c := iprop(∃ r, prngReg c r)
  Z c := Pipeline.unscopedRest (Ix := Unit) (Name := ℕ) (U := UR sig nD τ) (Lvl := ℕ) spec0 c (U11 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U11 m) c)
    unfold Pipeline.ΦA
    iintro ⟨Hp, -, Hr⟩
    isplitl [Hr]; · iexact Hr
    iexact Hp
  hout c := by
    rw [Pipeline.ownSems0_none]
    refine .trans (hout0 (U11 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (U11 m c) (U12 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W13`, left at `W14`. Its arrays split
    out of the unscoped buffers and put back at the exit contents; the generator register into the region's invariant and out;
    nothing owed; no semaphore of the kernel's own. -/
def reg1 : Pipeline.RegionSeg (pcfgs (F := F)) adm (hpdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (U13 m) c).loose
  hwaits := Pipeline.hwaits_of_owed_zero _ _ _ _ Lh lvh 1 fun _ _ => rfl
  pre c := iprop(StableHlo.held (c : Thread nD τ) (Pipeline.ucRefs τ sig) (W13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec1 c (U13 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U13 m) c)
    unfold Pipeline.ΦA
    iintro ⟨Hp, -, Hr⟩
    isplitl [Hr]; · iexact Hr
    iexact Hp
  hout c := by
    rw [Pipeline.ownSems0_none]
    refine .trans (hout1 (U13 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (U13 m c) (U14 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W15`, left at `W16`. Its arrays split
    out of the unscoped buffers and put back at the exit contents; the generator register into the region's invariant and out;
    nothing owed; no semaphore of the kernel's own. -/
def reg2 : Pipeline.RegionSeg (pcfgs (F := F)) adm (hpdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (U15 m) c).loose
  hwaits := Pipeline.hwaits_of_owed_zero _ _ _ _ Lh lvh 2 fun _ _ => rfl
  pre c := iprop(StableHlo.held (c : Thread nD τ) (Pipeline.ucRefs τ sig) (W15 m c) ∗ Rh c)
  post c := iprop(StableHlo.held (c : Thread nD τ) (Pipeline.ucRefs τ sig) (W16 m c) ∗ Rh c)
  X c := iprop(∃ r, prngReg c r)
  Y c := iprop(∃ r, prngReg c r)
  Z c := Pipeline.unscopedRest (Ix := Unit) (Name := ℕ) (U := UR sig nD τ) (Lvl := ℕ) spec2 c (U15 m c)
  hentry c := by
    rw [Pipeline.ownSems0_none]
    have hsplit := Pipeline.arrays_of_unscopedBufs (p := 2) (pcfgs (F := F)) adm (hpdats m) launch2.win launch2.arr_whole c
      ((hpdats m 2 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U15 m) c)
    unfold Pipeline.ΦA
    iintro ⟨Hp, -, Hr⟩
    isplitl [Hr]; · iexact Hr
    iexact Hp
  hout c := by
    rw [Pipeline.ownSems0_none]
    refine .trans (hout2 (U15 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m) ((hpdats m 2 c).share_full fun _ => rfl)
      (U15 m c) (U16 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W17`, left at `W18`. Its arrays split
    out of the unscoped buffers and put back at the exit contents; the generator register into the region's invariant and out;
    nothing owed; no semaphore of the kernel's own. -/
def reg3 : Pipeline.RegionSeg (pcfgs (F := F)) adm (hpdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (U17 m) c).loose
  hwaits := Pipeline.hwaits_of_owed_zero _ _ _ _ Lh lvh 3 fun _ _ => rfl
  pre c := iprop(StableHlo.held (c : Thread nD τ) (Pipeline.ucRefs τ sig) (W17 m c) ∗ Rh c)
  post c := iprop(StableHlo.held (c : Thread nD τ) (Pipeline.ucRefs τ sig) (W18 m c) ∗ Rh c)
  X c := iprop(∃ r, prngReg c r)
  Y c := iprop(∃ r, prngReg c r)
  Z c := Pipeline.unscopedRest (Ix := Unit) (Name := ℕ) (U := UR sig nD τ) (Lvl := ℕ) spec3 c (U17 m c)
  hentry c := by
    rw [Pipeline.ownSems0_none]
    have hsplit := Pipeline.arrays_of_unscopedBufs (p := 3) (pcfgs (F := F)) adm (hpdats m) launch3.win launch3.arr_whole c
      ((hpdats m 3 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((show Pipeline.ΦA spec3 c ⊢ (hpdats m 3 c).Φ 0 from .rfl))
    unfold Pipeline.ΦA
    iintro ⟨Hp, -, Hr⟩
    isplitl [Hr]; · iexact Hr
    iexact Hp
  hout c := by
    rw [Pipeline.ownSems0_none]
    refine .trans ((show (hpdats m 3 c).Φ (Fin.last _) ⊢ Pipeline.ΦA spec3 c from .rfl)) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hpdats m) ((hpdats m 3 c).share_full fun _ => rfl)
      (U17 m c) (U18 m c) ((hpdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per pallas_call. -/
abbrev hsegs : List (Pipeline.Seg (pcfgs (F := F)) adm (hpdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .region (reg0 m),
    .host (hseg hostOps1 hostOps1_sub hostOps1_fresh (W12 m)),
    .region (reg1 m),
    .host (hseg hostOps2 hostOps2_sub hostOps2_fresh (W14 m)),
    .region (reg2 m),
    .host (hseg hostOps3 hostOps3_sub hostOps3_fresh (W16 m)),
    .region (reg3 m),
    .host (hseg hostOps4 hostOps4_sub hostOps4_fresh (W18 m)) ]

/-- @main IS the run of the segments. -/
theorem main_run (c : Dev nD) : main (F := F) c = Pipeline.Seg.run (hsegs m) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents `W19` — whatever is then read off them (`hQ`). -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W19 m c b) → Q (⟨⟩, s)) :
    θ_run defs (onTc (τ := τ) (main (F := F))) ⟨m, fun _ => 0, ρ⟩ Q :=
  Pipeline.θ_run_regions_kit (pcfgs (F := F)) adm (hpdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W19 m c) ∗ Rh c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := hQ)

/-! ## The arguments end as launched -/

/-- No host stretch writes the buffer `r` and no region has it as a window's array. -/
def Kept (r : Ref sig .tc) : Prop :=
  r ∉ hostOps4_W ∧ (∀ w, Pipeline.arrRef spec3 w ≠ r) ∧ r ∉ hostOps3_W ∧ (∀ w, Pipeline.arrRef spec2 w ≠ r) ∧ r ∉ hostOps2_W ∧ (∀ w, Pipeline.arrRef spec1 w ≠ r) ∧ r ∉ hostOps1_W ∧ (∀ w, Pipeline.arrRef spec0 w ≠ r) ∧ r ∉ hostOps0_10_W ∧ r ∉ hostOps0_9_W ∧ r ∉ hostOps0_8_W ∧ r ∉ hostOps0_7_W ∧ r ∉ hostOps0_6_W ∧ r ∉ hostOps0_5_W ∧ r ∉ hostOps0_4_W ∧ r ∉ hostOps0_3_W ∧ r ∉ hostOps0_2_W ∧ r ∉ hostOps0_1_W ∧ r ∉ hostOps0_W

/-- Such a buffer reaches the end as launched: the fold at it walks back to the launch memory. -/
theorem W19_kept (c : Dev nD) (r : Ref sig .tc) (h : Kept r) : W19 m c (Proc.devRef .tc r) = m ((c : Thread nD τ).loc r) :=
  (StableHlo.after_of_writes_sub hostOps4 _ hostOps4_writes h.1).trans <|
    (W18_of_ne m c r h.2.1).trans <|
    (StableHlo.after_of_writes_sub hostOps3 _ hostOps3_writes h.2.2.1).trans <|
    (W16_of_ne m c r h.2.2.2.1).trans <|
    (StableHlo.after_of_writes_sub hostOps2 _ hostOps2_writes h.2.2.2.2.1).trans <|
    (W14_of_ne m c r h.2.2.2.2.2.1).trans <|
    (StableHlo.after_of_writes_sub hostOps1 _ hostOps1_writes h.2.2.2.2.2.2.1).trans <|
    (W12_of_ne m c r h.2.2.2.2.2.2.2.1).trans <|
    (StableHlo.after_of_writes_sub hostOps0_10 _ hostOps0_10_writes h.2.2.2.2.2.2.2.2.1).trans <|
    (StableHlo.after_of_writes_sub hostOps0_9 _ hostOps0_9_writes h.2.2.2.2.2.2.2.2.2.1).trans <|
    (StableHlo.after_of_writes_sub hostOps0_8 _ hostOps0_8_writes h.2.2.2.2.2.2.2.2.2.2.1).trans <|
    (StableHlo.after_of_writes_sub hostOps0_7 _ hostOps0_7_writes h.2.2.2.2.2.2.2.2.2.2.2.1).trans <|
    (StableHlo.after_of_writes_sub hostOps0_6 _ hostOps0_6_writes h.2.2.2.2.2.2.2.2.2.2.2.2.1).trans <|
    (StableHlo.after_of_writes_sub hostOps0_5 _ hostOps0_5_writes h.2.2.2.2.2.2.2.2.2.2.2.2.2.1).trans <|
    (StableHlo.after_of_writes_sub hostOps0_4 _ hostOps0_4_writes h.2.2.2.2.2.2.2.2.2.2.2.2.2.2.1).trans <|
    (StableHlo.after_of_writes_sub hostOps0_3 _ hostOps0_3_writes h.2.2.2.2.2.2.2.2.2.2.2.2.2.2.2.1).trans <|
    (StableHlo.after_of_writes_sub hostOps0_2 _ hostOps0_2_writes h.2.2.2.2.2.2.2.2.2.2.2.2.2.2.2.2.1).trans <|
    (StableHlo.after_of_writes_sub hostOps0_1 _ hostOps0_1_writes h.2.2.2.2.2.2.2.2.2.2.2.2.2.2.2.2.2.1).trans <|
    (StableHlo.after_of_writes_sub hostOps0 _ hostOps0_writes h.2.2.2.2.2.2.2.2.2.2.2.2.2.2.2.2.2.2).trans <| rfl

theorem kept_arg0 : Kept main_arg0 := ⟨by decide, by decide, by decide, by decide, by decide, by decide, by decide, by decide, by decide, by decide, by decide, by decide, by decide, by decide, by decide, by decide, by decide, by decide, by decide⟩
theorem kept_arg1 : Kept main_arg1 := ⟨by decide, by decide, by decide, by decide, by decide, by decide, by decide, by decide, by decide, by decide, by decide, by decide, by decide, by decide, by decide, by decide, by decide, by decide, by decide⟩
theorem kept_arg2 : Kept main_arg2 := ⟨by decide, by decide, by decide, by decide, by decide, by decide, by decide, by decide, by decide, by decide, by decide, by decide, by decide, by decide, by decide, by decide, by decide, by decide, by decide⟩
theorem kept_arg3 : Kept main_arg3 := ⟨by decide, by decide, by decide, by decide, by decide, by decide, by decide, by decide, by decide, by decide, by decide, by decide, by decide, by decide, by decide, by decide, by decide, by decide, by decide⟩
theorem kept_arg4 : Kept main_arg4 := ⟨by decide, by decide, by decide, by decide, by decide, by decide, by decide, by decide, by decide, by decide, by decide, by decide, by decide, by decide, by decide, by decide, by decide, by decide, by decide⟩
theorem kept_arg5 : Kept main_arg5 := ⟨by decide, by decide, by decide, by decide, by decide, by decide, by decide, by decide, by decide, by decide, by decide, by decide, by decide, by decide, by decide, by decide, by decide, by decide, by decide⟩
theorem kept_arg6 : Kept main_arg6 := ⟨by decide, by decide, by decide, by decide, by decide, by decide, by decide, by decide, by decide, by decide, by decide, by decide, by decide, by decide, by decide, by decide, by decide, by decide, by decide⟩
theorem kept_arg7 : Kept main_arg7 := ⟨by decide, by decide, by decide, by decide, by decide, by decide, by decide, by decide, by decide, by decide, by decide, by decide, by decide, by decide, by decide, by decide, by decide, by decide, by decide⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_main m ρ fun s h c =>
    ⟨(h c _ (mem_uc main_arg0 (by decide))).trans (W19_kept m c main_arg0 kept_arg0),
     (h c _ (mem_uc main_arg1 (by decide))).trans (W19_kept m c main_arg1 kept_arg1),
     (h c _ (mem_uc main_arg2 (by decide))).trans (W19_kept m c main_arg2 kept_arg2),
     (h c _ (mem_uc main_arg3 (by decide))).trans (W19_kept m c main_arg3 kept_arg3),
     (h c _ (mem_uc main_arg4 (by decide))).trans (W19_kept m c main_arg4 kept_arg4),
     (h c _ (mem_uc main_arg5 (by decide))).trans (W19_kept m c main_arg5 kept_arg5),
     (h c _ (mem_uc main_arg6 (by decide))).trans (W19_kept m c main_arg6 kept_arg6),
     (h c _ (mem_uc main_arg7 (by decide))).trans (W19_kept m c main_arg7 kept_arg7)⟩

end Cert.KernelIdeal.Hand

end
-- ==== Proof.KI_VHost.lean ====
/- The idealized kernel program's host stretches, read: each buffer a region reads or the program returns, as a pure term of the buffers before it. -/
import proofs.«165993_j28200755266000_1_alg».proof.Proof.KI_Main
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The host stretches, read: each buffer a region reads, as a pure term of the buffers before it -/

/-- The padding value: the integer zero converted to a float. -/
def zpad : (⟨S_, .f32⟩ : BufTy).Contents (Elt F) := sitofp .f32 (constantI S_ 32 0#32 : (⟨S_, .i32⟩ : BufTy).Contents (Elt F))

/-- A [256,100000] array padded with 352 columns. -/
def padA (a : (⟨S256x100000, .f32⟩ : BufTy).Contents (Elt F)) : (⟨S256x100352, .f32⟩ : BufTy).Contents (Elt F) :=
  pad S256x100352 ![0, 0] ![0, 352] ![0, 0] a (zpad (F := F)) pads_S256x100000_S256x100352_000_03520 h_S_
/-- A [128,100000] array padded with 352 columns. -/
def padW (a : (⟨S128x100000, .f32⟩ : BufTy).Contents (Elt F)) : (⟨S128x100352, .f32⟩ : BufTy).Contents (Elt F) :=
  pad S128x100352 ![0, 0] ![0, 352] ![0, 0] a (zpad (F := F)) pads_S128x100000_S128x100352_000_03520 h_S_
/-- A [100000] vector padded with 352 entries, as one row. -/
def padRow (a : (⟨S100000, .f32⟩ : BufTy).Contents (Elt F)) : (⟨S1x100352, .f32⟩ : BufTy).Contents (Elt F) :=
  shapeCast S1x100352 (pad S100352 ![0] ![352] ![0] a (zpad (F := F)) pads_S100000_S100352_03520 h_S_) shapeCasts_S100352_S1x100352
/-- A one-entry vector as a scalar. -/
def scal (a : (⟨S1, .f32⟩ : BufTy).Contents (Elt F)) : (⟨S_, .f32⟩ : BufTy).Contents (Elt F) :=
  shapeCast S_ a shapeCasts_S1_S_

theorem W11_v0 (c : Dev nD) : W11 m c (Proc.devRef .tc main_v0) = padA (m ((c : Thread nD τ).loc main_arg0)) := by
  after_results; rfl
theorem W11_v1 (c : Dev nD) : W11 m c (Proc.devRef .tc main_v1) = padW (m ((c : Thread nD τ).loc main_arg1)) := by
  after_results; rfl
theorem W11_v2 (c : Dev nD) : W11 m c (Proc.devRef .tc main_v2) = padW (m ((c : Thread nD τ).loc main_arg2)) := by
  after_results; rfl
theorem W11_v4 (c : Dev nD) : W11 m c (Proc.devRef .tc main_v4) = padRow (m ((c : Thread nD τ).loc main_arg3)) := by
  after_results; rfl
theorem W11_v6 (c : Dev nD) : W11 m c (Proc.devRef .tc main_v6) = padRow (m ((c : Thread nD τ).loc main_arg4)) := by
  after_results; rfl
theorem W11_v7 (c : Dev nD) : W11 m c (Proc.devRef .tc main_v7) = scal (m ((c : Thread nD τ).loc main_arg5)) := by
  after_results; rfl
theorem W11_v8 (c : Dev nD) : W11 m c (Proc.devRef .tc main_v8) = scal (m ((c : Thread nD τ).loc main_arg6)) := by
  after_results; rfl

/-- The first layer's logits from region 0's output and the scalar. -/
def kmul (r : (⟨S256x128, .f32⟩ : BufTy).Contents (Elt F)) (s : (⟨S_, .f32⟩ : BufTy).Contents (Elt F)) : (⟨S256x128, .f32⟩ : BufTy).Contents (Elt F) :=
  mulf r (broadcastInDim S256x128 ![] bcast_S_S256x128 s)
/-- A later layer's logits from the first layer's, the scalar and a region's output. -/
def klogits (P : (⟨S256x128, .f32⟩ : BufTy).Contents (Elt F)) (s : (⟨S_, .f32⟩ : BufTy).Contents (Elt F)) (r : (⟨S256x128, .f32⟩ : BufTy).Contents (Elt F)) : (⟨S256x128, .f32⟩ : BufTy).Contents (Elt F) :=
  addf P (mulf (broadcastInDim S256x128 ![] bcast_S_S256x128 s) r)
/-- The row softmax over the hidden axis, as the host stretches apply it. -/
def ksoftmax (x : (⟨S256x128, .f32⟩ : BufTy).Contents (Elt F)) : (⟨S256x128, .f32⟩ : BufTy).Contents (Elt F) :=
  Host.divf
    (Host.exp (subf x (broadcastInDim S256x128 ![0, 1] bcast_S256x1_S256x128_0_1 (broadcastInDim S256x1 ![0] bcast_S256_S256x1_0
      (maximumf (broadcastInDim S256 ![] bcast_S_S256 (constant S_ .f32 0xFF800000#32))
        (Host.reduce FloatOps.maximumf x (constant S_ .f32 0xFF800000#32) reducesTo_S256x128_S256_d1 h_S_))))))
    (broadcastInDim S256x128 ![0, 1] bcast_S256x1_S256x128_0_1 (broadcastInDim S256x1 ![0] bcast_S256_S256x1_0
      (Host.reduceAdd
        (Host.exp (subf x (broadcastInDim S256x128 ![0, 1] bcast_S256x1_S256x128_0_1 (broadcastInDim S256x1 ![0] bcast_S256_S256x1_0
          (maximumf (broadcastInDim S256 ![] bcast_S_S256 (constant S_ .f32 0xFF800000#32))
            (Host.reduce FloatOps.maximumf x (constant S_ .f32 0xFF800000#32) reducesTo_S256x128_S256_d1 h_S_))))))
        (constant S_ .f32 0x00000000#32) reducesTo_S256x128_S256_d1 h_S_)))

theorem W13_v11 (c : Dev nD) : W13 m c (Proc.devRef .tc main_v11) = kmul (W12 m c (Proc.devRef .tc main_v9)) (W12 m c (Proc.devRef .tc main_v7)) := by
  after_results; rfl
set_option maxHeartbeats 4000000 in
theorem W13_v22 (c : Dev nD) : W13 m c (Proc.devRef .tc main_v22) = ksoftmax (W13 m c (Proc.devRef .tc main_v11)) := by
  rw [W13_v11]; after_results
  generalize W12 m c (Proc.devRef .tc main_v9) = r; generalize W12 m c (Proc.devRef .tc main_v7) = s
  rfl
theorem W15_v26 (c : Dev nD) : W15 m c (Proc.devRef .tc main_v26) = klogits (W14 m c (Proc.devRef .tc main_v11)) (W14 m c (Proc.devRef .tc main_v8)) (W14 m c (Proc.devRef .tc main_v23)) := by
  after_results; rfl
set_option maxHeartbeats 4000000 in
theorem W15_v37 (c : Dev nD) : W15 m c (Proc.devRef .tc main_v37) = ksoftmax (W15 m c (Proc.devRef .tc main_v26)) := by
  rw [W15_v26]; after_results
  generalize W14 m c (Proc.devRef .tc main_v11) = P; generalize W14 m c (Proc.devRef .tc main_v8) = s; generalize W14 m c (Proc.devRef .tc main_v23) = r
  rfl
theorem W17_v41 (c : Dev nD) : W17 m c (Proc.devRef .tc main_v41) = klogits (W16 m c (Proc.devRef .tc main_v11)) (W16 m c (Proc.devRef .tc main_v8)) (W16 m c (Proc.devRef .tc main_v38)) := by
  after_results; rfl
set_option maxHeartbeats 4000000 in
theorem W17_v52 (c : Dev nD) : W17 m c (Proc.devRef .tc main_v52) = ksoftmax (W17 m c (Proc.devRef .tc main_v41)) := by
  rw [W17_v41]; after_results
  generalize W16 m c (Proc.devRef .tc main_v11) = P; generalize W16 m c (Proc.devRef .tc main_v8) = s; generalize W16 m c (Proc.devRef .tc main_v38) = r
  rfl
theorem W19_v54 (c : Dev nD) : W19 m c (Proc.devRef .tc main_v54) = extractStridedSlice S256x100000 ![0, 0] (W18 m c (Proc.devRef .tc main_v53)) slices_S256x100352_S256x100000_0_0 := by
  after_results

/-! ## What each item leaves in place -/

theorem K13 (c : Dev nD) (r : Ref sig .tc) (h : r ∉ hostOps1_W) : W13 m c (Proc.devRef .tc r) = W12 m c (Proc.devRef .tc r) :=
  StableHlo.after_of_writes_sub hostOps1 _ hostOps1_writes h
theorem K15 (c : Dev nD) (r : Ref sig .tc) (h : r ∉ hostOps2_W) : W15 m c (Proc.devRef .tc r) = W14 m c (Proc.devRef .tc r) :=
  StableHlo.after_of_writes_sub hostOps2 _ hostOps2_writes h
theorem K17 (c : Dev nD) (r : Ref sig .tc) (h : r ∉ hostOps3_W) : W17 m c (Proc.devRef .tc r) = W16 m c (Proc.devRef .tc r) :=
  StableHlo.after_of_writes_sub hostOps3 _ hostOps3_writes h

/-- A buffer no region stages and no later stretch writes holds, at every later boundary, what it held when region 0 was entered. -/
theorem kept13 (c : Dev nD) (r : Ref sig .tc) (h0 : ∀ w, Pipeline.arrRef spec0 w ≠ r) (h1 : r ∉ hostOps1_W) :
    W13 m c (Proc.devRef .tc r) = W11 m c (Proc.devRef .tc r) := (K13 m c r h1).trans (W12_of_ne m c r h0)
theorem kept15 (c : Dev nD) (r : Ref sig .tc) (h0 : ∀ w, Pipeline.arrRef spec0 w ≠ r) (h1 : r ∉ hostOps1_W)
    (h2 : ∀ w, Pipeline.arrRef spec1 w ≠ r) (h3 : r ∉ hostOps2_W) :
    W15 m c (Proc.devRef .tc r) = W11 m c (Proc.devRef .tc r) := (K15 m c r h3).trans ((W14_of_ne m c r h2).trans (kept13 m c r h0 h1))
theorem kept17 (c : Dev nD) (r : Ref sig .tc) (h0 : ∀ w, Pipeline.arrRef spec0 w ≠ r) (h1 : r ∉ hostOps1_W)
    (h2 : ∀ w, Pipeline.arrRef spec1 w ≠ r) (h3 : r ∉ hostOps2_W) (h4 : ∀ w, Pipeline.arrRef spec2 w ≠ r) (h5 : r ∉ hostOps3_W) :
    W17 m c (Proc.devRef .tc r) = W11 m c (Proc.devRef .tc r) := (K17 m c r h5).trans ((W16_of_ne m c r h4).trans (kept15 m c r h0 h1 h2 h3))

end Cert.KernelIdeal.Hand

end
-- ==== Proof.ValPieces.lean ====
/-
  What each kernel body's stores leave, read back as values: the pieces a run found in the output block and in the
  accumulator are whole-buffer stores, so the contents they leave are the last store's payload, and every load between
  them reads either an input block whole or the payload of the store before it.
-/
import proofs.«165993_j28200755266000_1_alg».proof.Proof.KI_Reg0
import proofs.«165993_j28200755266000_1_alg».proof.Proof.KI_Reg1
import proofs.«165993_j28200755266000_1_alg».proof.Proof.KI_Reg2
import proofs.«165993_j28200755266000_1_alg».proof.Proof.KI_Reg3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The zero offsets of a whole rank-2 buffer. -/
theorem hz2 : (![0, 0] : Fin 2 → Nat) = fun _ => 0 := funext fun a => by fin_cases a <;> rfl

/-! ## Region 0 -/

/-- At the first grid point the accumulator is left at the second store's payload over the reset payload (the load
    between the two stores reads the reset back). -/
theorem sout0_A_eq (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) :
    sout0_A c i arg1 harg1 arg2 harg2 arg3 harg3 arg4 harg4 hc0 x1 x2 = k0_pay2 x1 x2 (k0_pay1 (F := F)) := by
  unfold sout0_A
  rw [View.read_writes_eq_canon _ _ _ (scover0_A c i arg1 harg1 arg2 harg2 arg3 harg3 arg4 harg4 hc0 x1 x2)]
  unfold kernelRun0_A
  dsimp only
  sl_unfold_words
  rw [View.canon_cons_unit_zero (S := S256x128) hz2, View.readCov_cons_toLoadRect]
  simp only [View.readAt_eq_ld, harg1.read_unread, harg2.read_unread, View.ld_unit_zero (S := S256x2048) hz2,
    View.ld_unit_zero (S := S128x2048) hz2]

/-- The output block is a copy of the accumulator just stored. -/
theorem out0_A_eq (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond0 i)
    (x1 : Vec F S256x2048 .f32) (x2 : Vec F S128x2048 .f32) :
    out0_A c i arg1 harg1 arg2 harg2 arg3 harg3 arg4 harg4 hc0 x1 x2 = k0_pay2 x1 x2 (k0_pay1 (F := F)) := by
  unfold out0_A
  rw [View.read_writes_eq_canon _ _ _ (cover0_A c i arg1 harg1 arg2 harg2 arg3 harg3 arg4 harg4 hc0 x1 x2)]
  unfold kernelRun0_A
  dsimp only
  sl_unfold_words
  rw [View.canon_unit_zero (S := S256x128) hz2, View.readCov_cons_toLoadRect, View.readCov_cons_toLoadRect]
  simp only [View.readAt_eq_ld, harg1.read_unread, harg2.read_unread, View.ld_unit_zero (S := S256x2048) hz2,
    View.ld_unit_zero (S := S128x2048) hz2]

/-- At a later grid point the accumulator is left at the store's payload over what the point before left in it. -/
theorem sout0_B_eq (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) :
    sout0_B c i arg1 harg1 arg2 harg2 arg3 harg3 arg4 harg4 hc0 x1 x2 xs = k0_pay2 x1 x2 xs := by
  unfold sout0_B
  rw [View.read_writes_eq_canon _ _ _ (scover0_B c i arg1 harg1 arg2 harg2 arg3 harg3 arg4 harg4 hc0 x1 x2 xs)]
  unfold kernelRun0_B
  dsimp only
  sl_unfold_words
  rw [View.canon_unit_zero (S := S256x128) hz2]
  simp only [View.readAt_eq_ld, harg1.read_unread, harg2.read_unread, harg4.read_unread, View.ld_unit_zero (S := S256x2048) hz2,
    View.ld_unit_zero (S := S128x2048) hz2, View.ld_unit_zero (S := S256x128) hz2]

/-- The output block is a copy of it. -/
theorem out0_B_eq (c : Dev nD) (i : grid0.Coords) (arg1 : Memref sig .tc .vmem S256x2048 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond0 i)
    (x1 : Vec F S256x2048 .f32) (x2 : Vec F S128x2048 .f32) (xs : Vec F S256x128 .f32) :
    out0_B c i arg1 harg1 arg2 harg2 arg3 harg3 arg4 harg4 hc0 x1 x2 xs = k0_pay2 x1 x2 xs := by
  unfold out0_B
  rw [View.read_writes_eq_canon _ _ _ (cover0_B c i arg1 harg1 arg2 harg2 arg3 harg3 arg4 harg4 hc0 x1 x2 xs)]
  unfold kernelRun0_B
  dsimp only
  sl_unfold_words
  rw [View.canon_unit_zero (S := S256x128) hz2, View.readCov_cons_toLoadRect]
  simp only [View.readAt_eq_ld, harg1.read_unread, harg2.read_unread, harg4.read_unread, View.ld_unit_zero (S := S256x2048) hz2,
    View.ld_unit_zero (S := S128x2048) hz2, View.ld_unit_zero (S := S256x128) hz2]

/-! ## Region 1 -/

/-- At the first grid point the accumulator is left at the second store's payload over the reset payload (the load
    between the two stores reads the reset back). -/
theorem sout1_A_eq (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) :
    sout1_A c i arg1 harg1 arg2 harg2 arg3 harg3 arg4 harg4 hc0 x1 x2 = k1_pay2 x1 x2 (k1_pay1 (F := F)) := by
  unfold sout1_A
  rw [View.read_writes_eq_canon _ _ _ (scover1_A c i arg1 harg1 arg2 harg2 arg3 harg3 arg4 harg4 hc0 x1 x2)]
  unfold kernelRun1_A
  dsimp only
  sl_unfold_words
  rw [View.canon_cons_unit_zero (S := S256x128) hz2, View.readCov_cons_toLoadRect]
  simp only [View.readAt_eq_ld, harg1.read_unread, harg2.read_unread, View.ld_unit_zero (S := S256x128) hz2,
    View.ld_unit_zero (S := S128x2048) hz2]

/-- The output block is a copy of the accumulator just stored. -/
theorem out1_A_eq (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond1 i)
    (x1 : Vec F S256x128 .f32) (x2 : Vec F S128x2048 .f32) :
    out1_A c i arg1 harg1 arg2 harg2 arg3 harg3 arg4 harg4 hc0 x1 x2 = k1_pay2 x1 x2 (k1_pay1 (F := F)) := by
  unfold out1_A
  rw [View.read_writes_eq_canon _ _ _ (cover1_A c i arg1 harg1 arg2 harg2 arg3 harg3 arg4 harg4 hc0 x1 x2)]
  unfold kernelRun1_A
  dsimp only
  sl_unfold_words
  rw [View.canon_unit_zero (S := S256x128) hz2, View.readCov_cons_toLoadRect, View.readCov_cons_toLoadRect]
  simp only [View.readAt_eq_ld, harg1.read_unread, harg2.read_unread, View.ld_unit_zero (S := S256x128) hz2,
    View.ld_unit_zero (S := S128x2048) hz2]

/-- At a later grid point the accumulator is left at the store's payload over what the point before left in it. -/
theorem sout1_B_eq (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) :
    sout1_B c i arg1 harg1 arg2 harg2 arg3 harg3 arg4 harg4 hc0 x1 x2 xs = k1_pay2 x1 x2 xs := by
  unfold sout1_B
  rw [View.read_writes_eq_canon _ _ _ (scover1_B c i arg1 harg1 arg2 harg2 arg3 harg3 arg4 harg4 hc0 x1 x2 xs)]
  unfold kernelRun1_B
  dsimp only
  sl_unfold_words
  rw [View.canon_unit_zero (S := S256x128) hz2]
  simp only [View.readAt_eq_ld, harg1.read_unread, harg2.read_unread, harg4.read_unread, View.ld_unit_zero (S := S256x128) hz2,
    View.ld_unit_zero (S := S128x2048) hz2, View.ld_unit_zero (S := S256x128) hz2]

/-- The output block is a copy of it. -/
theorem out1_B_eq (c : Dev nD) (i : grid1.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond1 i)
    (x1 : Vec F S256x128 .f32) (x2 : Vec F S128x2048 .f32) (xs : Vec F S256x128 .f32) :
    out1_B c i arg1 harg1 arg2 harg2 arg3 harg3 arg4 harg4 hc0 x1 x2 xs = k1_pay2 x1 x2 xs := by
  unfold out1_B
  rw [View.read_writes_eq_canon _ _ _ (cover1_B c i arg1 harg1 arg2 harg2 arg3 harg3 arg4 harg4 hc0 x1 x2 xs)]
  unfold kernelRun1_B
  dsimp only
  sl_unfold_words
  rw [View.canon_unit_zero (S := S256x128) hz2, View.readCov_cons_toLoadRect]
  simp only [View.readAt_eq_ld, harg1.read_unread, harg2.read_unread, harg4.read_unread, View.ld_unit_zero (S := S256x128) hz2,
    View.ld_unit_zero (S := S128x2048) hz2, View.ld_unit_zero (S := S256x128) hz2]

/-! ## Region 2 -/

/-- At the first grid point the accumulator is left at the second store's payload over the reset payload (the load
    between the two stores reads the reset back). -/
theorem sout2_A_eq (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) :
    sout2_A c i arg1 harg1 arg2 harg2 arg3 harg3 arg4 harg4 hc0 x1 x2 = k2_pay2 x1 x2 (k2_pay1 (F := F)) := by
  unfold sout2_A
  rw [View.read_writes_eq_canon _ _ _ (scover2_A c i arg1 harg1 arg2 harg2 arg3 harg3 arg4 harg4 hc0 x1 x2)]
  unfold kernelRun2_A
  dsimp only
  sl_unfold_words
  rw [View.canon_cons_unit_zero (S := S256x128) hz2, View.readCov_cons_toLoadRect]
  simp only [View.readAt_eq_ld, harg1.read_unread, harg2.read_unread, View.ld_unit_zero (S := S256x128) hz2,
    View.ld_unit_zero (S := S128x2048) hz2]

/-- The output block is a copy of the accumulator just stored. -/
theorem out2_A_eq (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : cond2 i)
    (x1 : Vec F S256x128 .f32) (x2 : Vec F S128x2048 .f32) :
    out2_A c i arg1 harg1 arg2 harg2 arg3 harg3 arg4 harg4 hc0 x1 x2 = k2_pay2 x1 x2 (k2_pay1 (F := F)) := by
  unfold out2_A
  rw [View.read_writes_eq_canon _ _ _ (cover2_A c i arg1 harg1 arg2 harg2 arg3 harg3 arg4 harg4 hc0 x1 x2)]
  unfold kernelRun2_A
  dsimp only
  sl_unfold_words
  rw [View.canon_unit_zero (S := S256x128) hz2, View.readCov_cons_toLoadRect, View.readCov_cons_toLoadRect]
  simp only [View.readAt_eq_ld, harg1.read_unread, harg2.read_unread, View.ld_unit_zero (S := S256x128) hz2,
    View.ld_unit_zero (S := S128x2048) hz2]

/-- At a later grid point the accumulator is left at the store's payload over what the point before left in it. -/
theorem sout2_B_eq (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) :
    sout2_B c i arg1 harg1 arg2 harg2 arg3 harg3 arg4 harg4 hc0 x1 x2 xs = k2_pay2 x1 x2 xs := by
  unfold sout2_B
  rw [View.read_writes_eq_canon _ _ _ (scover2_B c i arg1 harg1 arg2 harg2 arg3 harg3 arg4 harg4 hc0 x1 x2 xs)]
  unfold kernelRun2_B
  dsimp only
  sl_unfold_words
  rw [View.canon_unit_zero (S := S256x128) hz2]
  simp only [View.readAt_eq_ld, harg1.read_unread, harg2.read_unread, harg4.read_unread, View.ld_unit_zero (S := S256x128) hz2,
    View.ld_unit_zero (S := S128x2048) hz2, View.ld_unit_zero (S := S256x128) hz2]

/-- The output block is a copy of it. -/
theorem out2_B_eq (c : Dev nD) (i : grid2.Coords) (arg1 : Memref sig .tc .vmem S256x128 .f32) (harg1 : arg1.IsWhole) (arg2 : Memref sig .tc .vmem S128x2048 .f32) (harg2 : arg2.IsWhole) (arg3 : Memref sig .tc .vmem S256x128 .f32) (harg3 : arg3.IsWhole) (arg4 : Memref sig .tc .vmem S256x128 .f32) (harg4 : arg4.IsWhole) (hc0 : ¬cond2 i)
    (x1 : Vec F S256x128 .f32) (x2 : Vec F S128x2048 .f32) (xs : Vec F S256x128 .f32) :
    out2_B c i arg1 harg1 arg2 harg2 arg3 harg3 arg4 harg4 hc0 x1 x2 xs = k2_pay2 x1 x2 xs := by
  unfold out2_B
  rw [View.read_writes_eq_canon _ _ _ (cover2_B c i arg1 harg1 arg2 harg2 arg3 harg3 arg4 harg4 hc0 x1 x2 xs)]
  unfold kernelRun2_B
  dsimp only
  sl_unfold_words
  rw [View.canon_unit_zero (S := S256x128) hz2, View.readCov_cons_toLoadRect]
  simp only [View.readAt_eq_ld, harg1.read_unread, harg2.read_unread, harg4.read_unread, View.ld_unit_zero (S := S256x128) hz2,
    View.ld_unit_zero (S := S128x2048) hz2, View.ld_unit_zero (S := S256x128) hz2]

/-! ## Region 3 -/

/-- The last kernel's output block is its one store's payload over the four loaded blocks. -/
theorem out3_eq (c : Dev nD) (i : grid3.Coords) (arg1 : Memref sig .tc .vmem S256x128 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole)
    (x1 : Vec F S256x128 .f32) (x2 : Vec F S128x2048 .f32) (x3 : Vec F S1x2048 .f32) (x4 : Vec F S1x2048 .f32) :
    out3 c i arg1 harg1 arg2 harg2 arg3 harg3 arg4 harg4 arg5 harg5 x1 x2 x3 x4 = k3_pay1 x1 x2 x3 x4 := by
  unfold out3
  rw [View.read_writes_eq_canon _ _ _ (cover3 c i arg1 harg1 arg2 harg2 arg3 harg3 arg4 harg4 arg5 harg5 x1 x2 x3 x4)]
  unfold kernelRun3
  dsimp only
  sl_unfold_words
  rw [View.canon_unit_zero (S := S256x2048) hz2]
  simp only [View.readAt_eq_ld, harg1.read_unread, harg2.read_unread, harg3.read_unread, harg4.read_unread,
    View.ld_unit_zero (S := S256x128) hz2, View.ld_unit_zero (S := S128x2048) hz2, View.ld_unit_zero (S := S1x2048) hz2]

end Cert.KernelIdeal.Hand

end
-- ==== Proof.KI_VBlk.lean ====
/- The idealized kernel program's regions, read: each input window's block as a slice of its array, and each region's output array after the region as one function. -/
import proofs.«165993_j28200755266000_1_alg».proof.Proof.KI_Main
import proofs.«165993_j28200755266000_1_alg».proof.Proof.ValPieces
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks as slices of their arrays -/

theorem idx0_0 : ∀ t : Fin cfg0.N, win0_0.index t 0 = 0 ∧ win0_0.index t 1 = t.val :=
  (by decide +kernel : ∀ t : Fin grid0.N, win0_0.index t 0 = 0 ∧ win0_0.index t 1 = t.val)

/-- Window 0's block at point `t` is columns \`2048 t … 2048 t + 2047\` of its array. -/
theorem iblk0_0_apply (c : Dev nD) (t : Fin cfg0.N) (x : S256x2048.Idx) (k : S256x100352.Idx)
    (hk0 : (k 0).val = (x 0).val) (hk1 : (k 1).val = 2048 * t.val + (x 1).val) :
    (iblk0 V c 0 t : Vec F S256x2048 .f32) x = (V c main_v0 : S256x100352.Idx → Elt F .f32) k := by
  have hi := idx0_0 t
  unfold iblk0
  rw [View.read_apply]
  show V c main_v0 _ = V c main_v0 _
  refine congrArg (V c main_v0) ?_
  funext a
  apply Fin.ext
  match a with
  | ⟨0, _⟩ => show win0_0.index t 0 * 256 + 1 * (x 0).val = (k 0).val; rw [hi.1, hk0]; omega
  | ⟨1, _⟩ => show win0_0.index t 1 * 2048 + 1 * (x 1).val = (k 1).val; rw [hi.2, hk1]; omega

theorem idx0_1 : ∀ t : Fin cfg0.N, win0_1.index t 0 = 0 ∧ win0_1.index t 1 = t.val :=
  (by decide +kernel : ∀ t : Fin grid0.N, win0_1.index t 0 = 0 ∧ win0_1.index t 1 = t.val)

/-- Window 1's block at point `t` is columns \`2048 t … 2048 t + 2047\` of its array. -/
theorem iblk0_1_apply (c : Dev nD) (t : Fin cfg0.N) (x : S128x2048.Idx) (k : S128x100352.Idx)
    (hk0 : (k 0).val = (x 0).val) (hk1 : (k 1).val = 2048 * t.val + (x 1).val) :
    (iblk0 V c 1 t : Vec F S128x2048 .f32) x = (V c main_v1 : S128x100352.Idx → Elt F .f32) k := by
  have hi := idx0_1 t
  unfold iblk0
  rw [View.read_apply]
  show V c main_v1 _ = V c main_v1 _
  refine congrArg (V c main_v1) ?_
  funext a
  apply Fin.ext
  match a with
  | ⟨0, _⟩ => show win0_1.index t 0 * 128 + 1 * (x 0).val = (k 0).val; rw [hi.1, hk0]; omega
  | ⟨1, _⟩ => show win0_1.index t 1 * 2048 + 1 * (x 1).val = (k 1).val; rw [hi.2, hk1]; omega

theorem idx1_0 : ∀ t : Fin cfg1.N, win1_0.index t 0 = 0 ∧ win1_0.index t 1 = 0 :=
  (by decide +kernel : ∀ t : Fin grid1.N, win1_0.index t 0 = 0 ∧ win1_0.index t 1 = 0)

/-- Window 0's block at point `t` is the whole of its array. -/
theorem iblk1_0_apply (c : Dev nD) (t : Fin cfg1.N) (x : S256x128.Idx) (k : S256x128.Idx)
    (hk0 : (k 0).val = (x 0).val) (hk1 : (k 1).val = (x 1).val) :
    (iblk1 V c 0 t : Vec F S256x128 .f32) x = (V c main_v22 : S256x128.Idx → Elt F .f32) k := by
  have hi := idx1_0 t
  unfold iblk1
  rw [View.read_apply]
  show V c main_v22 _ = V c main_v22 _
  refine congrArg (V c main_v22) ?_
  funext a
  apply Fin.ext
  match a with
  | ⟨0, _⟩ => show win1_0.index t 0 * 256 + 1 * (x 0).val = (k 0).val; rw [hi.1, hk0]; omega
  | ⟨1, _⟩ => show win1_0.index t 1 * 128 + 1 * (x 1).val = (k 1).val; rw [hi.2, hk1]; omega

theorem idx1_1 : ∀ t : Fin cfg1.N, win1_1.index t 0 = 0 ∧ win1_1.index t 1 = t.val :=
  (by decide +kernel : ∀ t : Fin grid1.N, win1_1.index t 0 = 0 ∧ win1_1.index t 1 = t.val)

/-- Window 1's block at point `t` is columns \`2048 t … 2048 t + 2047\` of its array. -/
theorem iblk1_1_apply (c : Dev nD) (t : Fin cfg1.N) (x : S128x2048.Idx) (k : S128x100352.Idx)
    (hk0 : (k 0).val = (x 0).val) (hk1 : (k 1).val = 2048 * t.val + (x 1).val) :
    (iblk1 V c 1 t : Vec F S128x2048 .f32) x = (V c main_v2 : S128x100352.Idx → Elt F .f32) k := by
  have hi := idx1_1 t
  unfold iblk1
  rw [View.read_apply]
  show V c main_v2 _ = V c main_v2 _
  refine congrArg (V c main_v2) ?_
  funext a
  apply Fin.ext
  match a with
  | ⟨0, _⟩ => show win1_1.index t 0 * 128 + 1 * (x 0).val = (k 0).val; rw [hi.1, hk0]; omega
  | ⟨1, _⟩ => show win1_1.index t 1 * 2048 + 1 * (x 1).val = (k 1).val; rw [hi.2, hk1]; omega

theorem idx2_0 : ∀ t : Fin cfg2.N, win2_0.index t 0 = 0 ∧ win2_0.index t 1 = 0 :=
  (by decide +kernel : ∀ t : Fin grid2.N, win2_0.index t 0 = 0 ∧ win2_0.index t 1 = 0)

/-- Window 0's block at point `t` is the whole of its array. -/
theorem iblk2_0_apply (c : Dev nD) (t : Fin cfg2.N) (x : S256x128.Idx) (k : S256x128.Idx)
    (hk0 : (k 0).val = (x 0).val) (hk1 : (k 1).val = (x 1).val) :
    (iblk2 V c 0 t : Vec F S256x128 .f32) x = (V c main_v37 : S256x128.Idx → Elt F .f32) k := by
  have hi := idx2_0 t
  unfold iblk2
  rw [View.read_apply]
  show V c main_v37 _ = V c main_v37 _
  refine congrArg (V c main_v37) ?_
  funext a
  apply Fin.ext
  match a with
  | ⟨0, _⟩ => show win2_0.index t 0 * 256 + 1 * (x 0).val = (k 0).val; rw [hi.1, hk0]; omega
  | ⟨1, _⟩ => show win2_0.index t 1 * 128 + 1 * (x 1).val = (k 1).val; rw [hi.2, hk1]; omega

theorem idx2_1 : ∀ t : Fin cfg2.N, win2_1.index t 0 = 0 ∧ win2_1.index t 1 = t.val :=
  (by decide +kernel : ∀ t : Fin grid2.N, win2_1.index t 0 = 0 ∧ win2_1.index t 1 = t.val)

/-- Window 1's block at point `t` is columns \`2048 t … 2048 t + 2047\` of its array. -/
theorem iblk2_1_apply (c : Dev nD) (t : Fin cfg2.N) (x : S128x2048.Idx) (k : S128x100352.Idx)
    (hk0 : (k 0).val = (x 0).val) (hk1 : (k 1).val = 2048 * t.val + (x 1).val) :
    (iblk2 V c 1 t : Vec F S128x2048 .f32) x = (V c main_v2 : S128x100352.Idx → Elt F .f32) k := by
  have hi := idx2_1 t
  unfold iblk2
  rw [View.read_apply]
  show V c main_v2 _ = V c main_v2 _
  refine congrArg (V c main_v2) ?_
  funext a
  apply Fin.ext
  match a with
  | ⟨0, _⟩ => show win2_1.index t 0 * 128 + 1 * (x 0).val = (k 0).val; rw [hi.1, hk0]; omega
  | ⟨1, _⟩ => show win2_1.index t 1 * 2048 + 1 * (x 1).val = (k 1).val; rw [hi.2, hk1]; omega

theorem idx3_0 : ∀ t : Fin cfg3.N, win3_0.index t 0 = 0 ∧ win3_0.index t 1 = 0 :=
  (by decide +kernel : ∀ t : Fin grid3.N, win3_0.index t 0 = 0 ∧ win3_0.index t 1 = 0)

/-- Window 0's block at point `t` is the whole of its array. -/
theorem iblk3_0_apply (c : Dev nD) (t : Fin cfg3.N) (x : S256x128.Idx) (k : S256x128.Idx)
    (hk0 : (k 0).val = (x 0).val) (hk1 : (k 1).val = (x 1).val) :
    (iblk3 V c 0 t : Vec F S256x128 .f32) x = (V c main_v52 : S256x128.Idx → Elt F .f32) k := by
  have hi := idx3_0 t
  unfold iblk3
  rw [View.read_apply]
  show V c main_v52 _ = V c main_v52 _
  refine congrArg (V c main_v52) ?_
  funext a
  apply Fin.ext
  match a with
  | ⟨0, _⟩ => show win3_0.index t 0 * 256 + 1 * (x 0).val = (k 0).val; rw [hi.1, hk0]; omega
  | ⟨1, _⟩ => show win3_0.index t 1 * 128 + 1 * (x 1).val = (k 1).val; rw [hi.2, hk1]; omega

theorem idx3_1 : ∀ t : Fin cfg3.N, win3_1.index t 0 = 0 ∧ win3_1.index t 1 = t.val :=
  (by decide +kernel : ∀ t : Fin grid3.N, win3_1.index t 0 = 0 ∧ win3_1.index t 1 = t.val)

/-- Window 1's block at point `t` is columns \`2048 t … 2048 t + 2047\` of its array. -/
theorem iblk3_1_apply (c : Dev nD) (t : Fin cfg3.N) (x : S128x2048.Idx) (k : S128x100352.Idx)
    (hk0 : (k 0).val = (x 0).val) (hk1 : (k 1).val = 2048 * t.val + (x 1).val) :
    (iblk3 V c 1 t : Vec F S128x2048 .f32) x = (V c main_v2 : S128x100352.Idx → Elt F .f32) k := by
  have hi := idx3_1 t
  unfold iblk3
  rw [View.read_apply]
  show V c main_v2 _ = V c main_v2 _
  refine congrArg (V c main_v2) ?_
  funext a
  apply Fin.ext
  match a with
  | ⟨0, _⟩ => show win3_1.index t 0 * 128 + 1 * (x 0).val = (k 0).val; rw [hi.1, hk0]; omega
  | ⟨1, _⟩ => show win3_1.index t 1 * 2048 + 1 * (x 1).val = (k 1).val; rw [hi.2, hk1]; omega

theorem idx3_2 : ∀ t : Fin cfg3.N, win3_2.index t 0 = 0 ∧ win3_2.index t 1 = t.val :=
  (by decide +kernel : ∀ t : Fin grid3.N, win3_2.index t 0 = 0 ∧ win3_2.index t 1 = t.val)

/-- Window 2's block at point `t` is columns \`2048 t … 2048 t + 2047\` of its array. -/
theorem iblk3_2_apply (c : Dev nD) (t : Fin cfg3.N) (x : S1x2048.Idx) (k : S1x100352.Idx)
    (hk0 : (k 0).val = (x 0).val) (hk1 : (k 1).val = 2048 * t.val + (x 1).val) :
    (iblk3 V c 2 t : Vec F S1x2048 .f32) x = (V c main_v4 : S1x100352.Idx → Elt F .f32) k := by
  have hi := idx3_2 t
  unfold iblk3
  rw [View.read_apply]
  show V c main_v4 _ = V c main_v4 _
  refine congrArg (V c main_v4) ?_
  funext a
  apply Fin.ext
  match a with
  | ⟨0, _⟩ => show win3_2.index t 0 * 1 + 1 * (x 0).val = (k 0).val; rw [hi.1, hk0]; omega
  | ⟨1, _⟩ => show win3_2.index t 1 * 2048 + 1 * (x 1).val = (k 1).val; rw [hi.2, hk1]; omega

theorem idx3_3 : ∀ t : Fin cfg3.N, win3_3.index t 0 = 0 ∧ win3_3.index t 1 = t.val :=
  (by decide +kernel : ∀ t : Fin grid3.N, win3_3.index t 0 = 0 ∧ win3_3.index t 1 = t.val)

/-- Window 3's block at point `t` is columns \`2048 t … 2048 t + 2047\` of its array. -/
theorem iblk3_3_apply (c : Dev nD) (t : Fin cfg3.N) (x : S1x2048.Idx) (k : S1x100352.Idx)
    (hk0 : (k 0).val = (x 0).val) (hk1 : (k 1).val = 2048 * t.val + (x 1).val) :
    (iblk3 V c 3 t : Vec F S1x2048 .f32) x = (V c main_v6 : S1x100352.Idx → Elt F .f32) k := by
  have hi := idx3_3 t
  unfold iblk3
  rw [View.read_apply]
  show V c main_v6 _ = V c main_v6 _
  refine congrArg (V c main_v6) ?_
  funext a
  apply Fin.ext
  match a with
  | ⟨0, _⟩ => show win3_3.index t 0 * 1 + 1 * (x 0).val = (k 0).val; rw [hi.1, hk0]; omega
  | ⟨1, _⟩ => show win3_3.index t 1 * 2048 + 1 * (x 1).val = (k 1).val; rw [hi.2, hk1]; omega

/-! ## The output arrays after each region -/

/-- The region's last grid point. -/
abbrev tl0 : Fin cfg0.N := ⟨48, by rw [show cfg0.N = 49 from N_0]; decide⟩

/-- The one write-back, at the last point, writes the accumulation: block (0, 0) of the [256,128] array is the array. -/
theorem flushed0_eq (c : Dev nD) (t : Fin cfg0.N) (hf : (cfg0.win 2).flush t = true) :
    (dat0 V c).flushed 2 t = ((cfg0.win 2).blk t).view.read (Elt F) ((outsAt0 V c 48 tl0.isLt).1) := by
  have hN : cfg0.N = 49 := N_0
  have h1 : t.val = 48 := by have := (flush0_2 t).mp hf; have := t.isLt; omega
  obtain rfl : t = tl0 := Fin.ext h1
  show (cfg0.win 2).cut (grid0.coords tl0) ((dat0 V c).after 2 tl0) = _
  rw [after0_2]
  have hz' : (fun a => win0_2.index tl0 a * main_v9.ty.shape.size a) = fun _ => 0 := funext fun a => by fin_cases a <;> decide +kernel
  exact (Memref.read_access_unit_zero (Elt F) main_v9 hz' (fun a => by rw [congrFun hz' a]; simp) ((outsAt0 V c 48 tl0.isLt).1)).symm

/-- So the region's output array ends holding the accumulation after the last point. -/
theorem final0 (c : Dev nD) : (dat0 V c).arrAt 2 cfg0.N = (outsAt0 V c 48 tl0.isLt).1 :=
  (dat0 V c).arrAt_eq_of_cover 2 ((outsAt0 V c 48 tl0.isLt).1) (flushed0_eq V c) fun i =>
    ⟨tl0, (flush0_2 tl0).mpr rfl, by
      show i ∈ ((View.whole main_v9).slice (win0_2.rect tl0)).set
      rw [View.set_slice_whole, Rect.mem_set_unit]
      intro a
      have h0 : (i 0 : Nat) < 256 := (i 0).isLt
      have h1 : (i 1 : Nat) < 128 := (i 1).isLt
      match a with
      | ⟨0, _⟩ => show win0_2.index tl0 0 * win0_2.size 0 ≤ (i 0 : Nat) ∧ (i 0 : Nat) < win0_2.index tl0 0 * win0_2.size 0 + win0_2.xsize (grid0.coords tl0) 0
                  rw [show win0_2.index tl0 0 * win0_2.size 0 = 0 from by decide +kernel, show win0_2.xsize (grid0.coords tl0) 0 = 256 from by decide +kernel]; omega
      | ⟨1, _⟩ => show win0_2.index tl0 1 * win0_2.size 1 ≤ (i 1 : Nat) ∧ (i 1 : Nat) < win0_2.index tl0 1 * win0_2.size 1 + win0_2.xsize (grid0.coords tl0) 1
                  rw [show win0_2.index tl0 1 * win0_2.size 1 = 0 from by decide +kernel, show win0_2.xsize (grid0.coords tl0) 1 = 128 from by decide +kernel]; omega⟩

/-- The region's last grid point. -/
abbrev tl1 : Fin cfg1.N := ⟨48, by rw [show cfg1.N = 49 from N_1]; decide⟩

/-- The one write-back, at the last point, writes the accumulation: block (0, 0) of the [256,128] array is the array. -/
theorem flushed1_eq (c : Dev nD) (t : Fin cfg1.N) (hf : (cfg1.win 2).flush t = true) :
    (dat1 V c).flushed 2 t = ((cfg1.win 2).blk t).view.read (Elt F) ((outsAt1 V c 48 tl1.isLt).1) := by
  have hN : cfg1.N = 49 := N_1
  have h1 : t.val = 48 := by have := (flush1_2 t).mp hf; have := t.isLt; omega
  obtain rfl : t = tl1 := Fin.ext h1
  show (cfg1.win 2).cut (grid1.coords tl1) ((dat1 V c).after 2 tl1) = _
  rw [after1_2]
  have hz' : (fun a => win1_2.index tl1 a * main_v23.ty.shape.size a) = fun _ => 0 := funext fun a => by fin_cases a <;> decide +kernel
  exact (Memref.read_access_unit_zero (Elt F) main_v23 hz' (fun a => by rw [congrFun hz' a]; simp) ((outsAt1 V c 48 tl1.isLt).1)).symm

/-- So the region's output array ends holding the accumulation after the last point. -/
theorem final1 (c : Dev nD) : (dat1 V c).arrAt 2 cfg1.N = (outsAt1 V c 48 tl1.isLt).1 :=
  (dat1 V c).arrAt_eq_of_cover 2 ((outsAt1 V c 48 tl1.isLt).1) (flushed1_eq V c) fun i =>
    ⟨tl1, (flush1_2 tl1).mpr rfl, by
      show i ∈ ((View.whole main_v23).slice (win1_2.rect tl1)).set
      rw [View.set_slice_whole, Rect.mem_set_unit]
      intro a
      have h0 : (i 0 : Nat) < 256 := (i 0).isLt
      have h1 : (i 1 : Nat) < 128 := (i 1).isLt
      match a with
      | ⟨0, _⟩ => show win1_2.index tl1 0 * win1_2.size 0 ≤ (i 0 : Nat) ∧ (i 0 : Nat) < win1_2.index tl1 0 * win1_2.size 0 + win1_2.xsize (grid1.coords tl1) 0
                  rw [show win1_2.index tl1 0 * win1_2.size 0 = 0 from by decide +kernel, show win1_2.xsize (grid1.coords tl1) 0 = 256 from by decide +kernel]; omega
      | ⟨1, _⟩ => show win1_2.index tl1 1 * win1_2.size 1 ≤ (i 1 : Nat) ∧ (i 1 : Nat) < win1_2.index tl1 1 * win1_2.size 1 + win1_2.xsize (grid1.coords tl1) 1
                  rw [show win1_2.index tl1 1 * win1_2.size 1 = 0 from by decide +kernel, show win1_2.xsize (grid1.coords tl1) 1 = 128 from by decide +kernel]; omega⟩

/-- The region's last grid point. -/
abbrev tl2 : Fin cfg2.N := ⟨48, by rw [show cfg2.N = 49 from N_2]; decide⟩

/-- The one write-back, at the last point, writes the accumulation: block (0, 0) of the [256,128] array is the array. -/
theorem flushed2_eq (c : Dev nD) (t : Fin cfg2.N) (hf : (cfg2.win 2).flush t = true) :
    (dat2 V c).flushed 2 t = ((cfg2.win 2).blk t).view.read (Elt F) ((outsAt2 V c 48 tl2.isLt).1) := by
  have hN : cfg2.N = 49 := N_2
  have h1 : t.val = 48 := by have := (flush2_2 t).mp hf; have := t.isLt; omega
  obtain rfl : t = tl2 := Fin.ext h1
  show (cfg2.win 2).cut (grid2.coords tl2) ((dat2 V c).after 2 tl2) = _
  rw [after2_2]
  have hz' : (fun a => win2_2.index tl2 a * main_v38.ty.shape.size a) = fun _ => 0 := funext fun a => by fin_cases a <;> decide +kernel
  exact (Memref.read_access_unit_zero (Elt F) main_v38 hz' (fun a => by rw [congrFun hz' a]; simp) ((outsAt2 V c 48 tl2.isLt).1)).symm

/-- So the region's output array ends holding the accumulation after the last point. -/
theorem final2 (c : Dev nD) : (dat2 V c).arrAt 2 cfg2.N = (outsAt2 V c 48 tl2.isLt).1 :=
  (dat2 V c).arrAt_eq_of_cover 2 ((outsAt2 V c 48 tl2.isLt).1) (flushed2_eq V c) fun i =>
    ⟨tl2, (flush2_2 tl2).mpr rfl, by
      show i ∈ ((View.whole main_v38).slice (win2_2.rect tl2)).set
      rw [View.set_slice_whole, Rect.mem_set_unit]
      intro a
      have h0 : (i 0 : Nat) < 256 := (i 0).isLt
      have h1 : (i 1 : Nat) < 128 := (i 1).isLt
      match a with
      | ⟨0, _⟩ => show win2_2.index tl2 0 * win2_2.size 0 ≤ (i 0 : Nat) ∧ (i 0 : Nat) < win2_2.index tl2 0 * win2_2.size 0 + win2_2.xsize (grid2.coords tl2) 0
                  rw [show win2_2.index tl2 0 * win2_2.size 0 = 0 from by decide +kernel, show win2_2.xsize (grid2.coords tl2) 0 = 256 from by decide +kernel]; omega
      | ⟨1, _⟩ => show win2_2.index tl2 1 * win2_2.size 1 ≤ (i 1 : Nat) ∧ (i 1 : Nat) < win2_2.index tl2 1 * win2_2.size 1 + win2_2.xsize (grid2.coords tl2) 1
                  rw [show win2_2.index tl2 1 * win2_2.size 1 = 0 from by decide +kernel, show win2_2.xsize (grid2.coords tl2) 1 = 128 from by decide +kernel]; omega⟩

theorem idx3_4 : ∀ t : Fin cfg3.N, win3_4.index t 0 = 0 ∧ win3_4.index t 1 = t.val :=
  (by decide +kernel : ∀ t : Fin grid3.N, win3_4.index t 0 = 0 ∧ win3_4.index t 1 = t.val)

/-- What the body stores at point `t`: the payload of the point's four input blocks. -/
def o3 (c : Dev nD) (t : Fin cfg3.N) : Vec F S256x2048 .f32 :=
  k3_pay1 (iblk3 V c 0 t) (iblk3 V c 1 t) (iblk3 V c 2 t) (iblk3 V c 3 t)

theorem tile_lt (i : S256x100352.Idx) : (i 1).val / 2048 < cfg3.N := by
  rw [show cfg3.N = 49 from N_3]; have h : (i 1 : Nat) < 100352 := (i 1).isLt; omega

/-- The region's output array as ONE function of its index: column `v` is column `v % 2048` of what point `v / 2048` stored. -/
def res3 (c : Dev nD) : S256x100352.Idx → Elt F .f32 := fun i =>
  o3 V c ⟨(i 1).val / 2048, tile_lt i⟩ (ValueIdx.ix2 (⟨(i 0).val, (i 0).isLt⟩ : Fin 256) (⟨(i 1).val % 2048, Nat.mod_lt _ (by decide)⟩ : Fin 2048))

theorem res3_apply (c : Dev nD) (t : Fin cfg3.N) (j : S256x2048.Idx) (i : S256x100352.Idx)
    (h0 : (i 0).val = (j 0).val) (h1 : (i 1).val = 2048 * t.val + (j 1).val) : res3 V c i = o3 V c t j := by
  unfold res3
  have hj : (j 1).val < 2048 := (j 1).isLt
  have ht : (⟨(i 1).val / 2048, tile_lt i⟩ : Fin cfg3.N) = t := Fin.ext (by show (i 1).val / 2048 = t.val; omega)
  have hx : ValueIdx.ix2 (⟨(i 0).val, (i 0).isLt⟩ : Fin 256) (⟨(i 1).val % 2048, Nat.mod_lt _ (by decide)⟩ : Fin 2048) = j := by
    funext a; apply Fin.ext
    match a with
    | ⟨0, _⟩ => exact h0
    | ⟨1, _⟩ => show (i 1).val % 2048 = (j 1).val; omega
  rw [ht, hx]

/-- WHAT POINT `t` WRITES BACK is block `t` of that function. -/
theorem flushed3_eq (c : Dev nD) (t : Fin cfg3.N) :
    (dat3 V c).flushed 4 t = ((cfg3.win 4).blk t).view.read (Elt F) (res3 V c) := by
  show (cfg3.win 4).cut (grid3.coords t) ((dat3 V c).after 4 t) = _
  rw [after3_4, out3_eq]
  have hi := idx3_4 t
  funext j
  show o3 V c t j = res3 V c (((cfg3.win 4).blk t).view.emb j)
  refine (res3_apply V c t j _ ?_ ?_).symm
  · show win3_4.index t 0 * 256 + 1 * (j 0).val = (j 0).val; rw [hi.1]; omega
  · show win3_4.index t 1 * 2048 + 1 * (j 1).val = 2048 * t.val + (j 1).val; rw [hi.2]; omega

theorem mem_blk3 (t : Fin cfg3.N) (i : S256x100352.Idx) :
    i ∈ ((cfg3.win 4).blk t).view.set ↔ ∀ a : Fin 2, win3_4.index t a * S256x2048.size a ≤ (i a).val ∧ (i a).val < win3_4.index t a * S256x2048.size a + S256x2048.size a := by
  show i ∈ ((View.whole main_v53).slice (win3_4.rect t)).set ↔ _
  rw [View.set_slice_whole, Rect.mem_set_unit]
  exact Iff.rfl

/-- The blocks tile the array, so it ends holding that function. -/
theorem final3 (c : Dev nD) : (dat3 V c).arrAt 4 cfg3.N = res3 V c :=
  (dat3 V c).arrAt_eq_of_cover 4 (res3 V c) (fun t _ => flushed3_eq V c t) fun i => by
    have h0 : (i 0 : Nat) < 256 := (i 0).isLt
    have h1 : (i 1 : Nat) < 100352 := (i 1).isLt
    refine ⟨⟨(i 1).val / 2048, tile_lt i⟩, flush3_4 _, ?_⟩
    rw [mem_blk3]
    have hi := idx3_4 ⟨(i 1).val / 2048, tile_lt i⟩
    intro a
    match a with
    | ⟨0, _⟩ => show win3_4.index _ 0 * 256 ≤ (i 0).val ∧ (i 0).val < win3_4.index _ 0 * 256 + 256; rw [hi.1]; omega
    | ⟨1, _⟩ => show win3_4.index _ 1 * 2048 ≤ (i 1).val ∧ (i 1).val < win3_4.index _ 1 * 2048 + 2048; rw [hi.2]; show (i 1).val / 2048 * 2048 ≤ (i 1).val ∧ (i 1).val < (i 1).val / 2048 * 2048 + 2048; omega

end Cert.KernelIdeal.Hand

end
-- ==== Proof.PayMatmul.lean ====
/-
  The two matrix unit products of the kernel bodies read at an index, at the extended reals: into the zero rows a
  product is the finite sum, over the one contracted coordinate, of the products of the operands' entries. One form
  contracts the column axes of both operands (x · yᵀ), the other the left operand's columns with the right operand's
  rows (x · y).
-/
import proofs.«165993_j28200755266000_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.PayVal

open Cert.KernelIdeal Cert.KernelIdeal.Gen

/-- The row of the left operand a product entry reads: the entry's row. -/
theorem rowrow_lhs_0 (i : S256x128.Idx) (q : dot_S256x2048_S128x2048_S256x128_1_1_0_0_n_n.contr.Idx) :
    (dot_S256x2048_S128x2048_S256x128_1_1_0_0_n_n.lhsIdx i q 0).val = (i 0).val := by
  unfold DotDims.lhsIdx
  rw [dif_neg (show ¬(0 : Fin S256x2048.rank) ∈ dot_S256x2048_S128x2048_S256x128_1_1_0_0_n_n.lhsBatch by decide),
    dif_pos (show (0 : Fin S256x2048.rank) ∈ dot_S256x2048_S128x2048_S256x128_1_1_0_0_n_n.lhsNonContracting by decide)]
  rfl
/-- Its column: the contracted coordinate. -/
theorem rowrow_lhs_1 (i : S256x128.Idx) (q : dot_S256x2048_S128x2048_S256x128_1_1_0_0_n_n.contr.Idx) :
    (dot_S256x2048_S128x2048_S256x128_1_1_0_0_n_n.lhsIdx i q 1).val = (q ⟨0, by decide⟩).val :=
  dot_S256x2048_S128x2048_S256x128_1_1_0_0_n_n.lhsIdx_val_of_single rfl i q
/-- The row of the right operand a product entry reads: the entry's column. -/
theorem rowrow_rhs_0 (i : S256x128.Idx) (q : dot_S256x2048_S128x2048_S256x128_1_1_0_0_n_n.contr.Idx) :
    (dot_S256x2048_S128x2048_S256x128_1_1_0_0_n_n.rhsIdx i q 0).val = (i 1).val := by
  unfold DotDims.rhsIdx
  rw [dif_neg (show ¬(0 : Fin S128x2048.rank) ∈ dot_S256x2048_S128x2048_S256x128_1_1_0_0_n_n.rhsBatch by decide),
    dif_pos (show (0 : Fin S128x2048.rank) ∈ dot_S256x2048_S128x2048_S256x128_1_1_0_0_n_n.rhsNonContracting by decide)]
  rfl
/-- Its column: the contracted coordinate. -/
theorem rowrow_rhs_1 (i : S256x128.Idx) (q : dot_S256x2048_S128x2048_S256x128_1_1_0_0_n_n.contr.Idx) :
    (dot_S256x2048_S128x2048_S256x128_1_1_0_0_n_n.rhsIdx i q 1).val = (q ⟨0, by decide⟩).val :=
  dot_S256x2048_S128x2048_S256x128_1_1_0_0_n_n.rhsIdx_val_of_single rfl i q

/-- A matrix unit product that contracts the second axis of both operands (x · yᵀ over one 2048-column tile) into the
    zero rows, read at (b, h): the sum over the tile's columns of the products of row b of x and row h of y. -/
theorem matmul_rowrow_apply {φ₁ φ₂ : FTy} (x : FVec Ideal S256x2048 φ₁) (y : FVec Ideal S128x2048 φ₂)
    (b : Fin 256) (h : Fin 128) :
    FloatOps.matmul dot_S256x2048_S128x2048_S256x128_1_1_0_0_n_n none x y
        (constant (F := Ideal) S256x128 .f32 0x00000000#32) (ix2 b h)
      = ∑ j : Fin 2048, x (ix2 b j) * y (ix2 h j) := by
  rw [Ideal.matmul_constant_zero_apply,
    ← Equiv.sum_comp (contrEquiv1 dot_S256x2048_S128x2048_S256x128_1_1_0_0_n_n 2048 rfl rfl).symm]
  refine Finset.sum_congr rfl fun c _ => ?_
  have hc := contrEquiv1_symm_val dot_S256x2048_S128x2048_S256x128_1_1_0_0_n_n 2048 rfl rfl c
  have el : dot_S256x2048_S128x2048_S256x128_1_1_0_0_n_n.lhsIdx (ix2 b h)
      ((contrEquiv1 dot_S256x2048_S128x2048_S256x128_1_1_0_0_n_n 2048 rfl rfl).symm c) = ix2 b c :=
    funext fun a => Fin.ext (by
      match a with
      | ⟨0, _⟩ => exact rowrow_lhs_0 _ _
      | ⟨1, _⟩ => exact (rowrow_lhs_1 _ _).trans hc)
  have er : dot_S256x2048_S128x2048_S256x128_1_1_0_0_n_n.rhsIdx (ix2 b h)
      ((contrEquiv1 dot_S256x2048_S128x2048_S256x128_1_1_0_0_n_n 2048 rfl rfl).symm c) = ix2 h c :=
    funext fun a => Fin.ext (by
      match a with
      | ⟨0, _⟩ => exact rowrow_rhs_0 _ _
      | ⟨1, _⟩ => exact (rowrow_rhs_1 _ _).trans hc)
  rw [el, er]

/-- The row of the left operand a product entry reads: the entry's row. -/
theorem rowcol_lhs_0 (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide),
    dif_pos (show (0 : Fin S256x128.rank) ∈ dot_S256x128_S128x2048_S256x2048_1_0_0_1_n_n.lhsNonContracting by decide)]
  rfl
/-- Its column: the contracted coordinate. -/
theorem rowcol_lhs_1 (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
/-- The row of the right operand a product entry reads: the contracted coordinate. -/
theorem rowcol_rhs_0 (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
/-- Its column: the entry's column. -/
theorem rowcol_rhs_1 (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide),
    dif_pos (show (1 : Fin S128x2048.rank) ∈ dot_S256x128_S128x2048_S256x2048_1_0_0_1_n_n.rhsNonContracting by decide)]
  rfl

/-- A matrix unit product that contracts the second axis of the left operand with the first of the right one
    (p · w over one 2048-column tile) into the zero rows, read at (b, j): the sum over the 128 hidden coordinates of the
    products of row b of p and column j of w. -/
theorem matmul_rowcol_apply {φ₁ φ₂ : FTy} (p : FVec Ideal S256x128 φ₁) (w : FVec Ideal S128x2048 φ₂)
    (b : Fin 256) (j : Fin 2048) :
    FloatOps.matmul dot_S256x128_S128x2048_S256x2048_1_0_0_1_n_n none p w
        (constant (F := Ideal) S256x2048 .f32 0x00000000#32) (ix2 b j)
      = ∑ h : Fin 128, p (ix2 b h) * w (ix2 h j) := by
  rw [Ideal.matmul_constant_zero_apply,
    ← Equiv.sum_comp (contrEquiv1 dot_S256x128_S128x2048_S256x2048_1_0_0_1_n_n 128 rfl rfl).symm]
  refine Finset.sum_congr rfl fun c _ => ?_
  have hc := contrEquiv1_symm_val dot_S256x128_S128x2048_S256x2048_1_0_0_1_n_n 128 rfl rfl c
  have el : dot_S256x128_S128x2048_S256x2048_1_0_0_1_n_n.lhsIdx (ix2 b j)
      ((contrEquiv1 dot_S256x128_S128x2048_S256x2048_1_0_0_1_n_n 128 rfl rfl).symm c) = ix2 b c :=
    funext fun a => Fin.ext (by
      match a with
      | ⟨0, _⟩ => exact rowcol_lhs_0 _ _
      | ⟨1, _⟩ => exact (rowcol_lhs_1 _ _).trans hc)
  have er : dot_S256x128_S128x2048_S256x2048_1_0_0_1_n_n.rhsIdx (ix2 b j)
      ((contrEquiv1 dot_S256x128_S128x2048_S256x2048_1_0_0_1_n_n 128 rfl rfl).symm c) = ix2 c j :=
    funext fun a => Fin.ext (by
      match a with
      | ⟨0, _⟩ => exact (rowcol_rhs_0 _ _).trans hc
      | ⟨1, _⟩ => exact rowcol_rhs_1 _ _)
  rw [el, er]

end Cert.KernelIdeal.PayVal

end
-- ==== Proof.PayBn.lean ====
/-
  The fourth kernel body (the last layer's tile p · w of the target block, normalized column by column over the 256
  rows of the batch and scaled and shifted by the column's gamma and beta) read index by index at the extended reals.
  A column's statistics involve that column only: its mean is the column's sum divided by the word for 256, its
  variance the sum of the squared deviations divided by the same word, and the entry at row b is the deviation at b
  times the reciprocal square root of (variance plus the epsilon word), times gamma, plus beta — in exactly that
  order of operations.
-/
import proofs.«165993_j28200755266000_1_alg».proof.Proof.Gen.KernelIdeal.Skeleton
import proofs.«165993_j28200755266000_1_alg».proof.Proof.PayMatmul
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.PayVal

open Cert.KernelIdeal Cert.KernelIdeal.Gen

/-- A column's mean: its sum over the 256 rows divided by the word that denotes 256. -/
def colMean (col : Fin 256 → EReal) : EReal :=
  Ideal.div (∑ b' : Fin 256, col b') (Ideal.ofBits .f32 0x43800000#32)

/-- A column's (biased) variance: the sum of the squared deviations from the mean divided by the word that denotes 256. -/
def colVar (col : Fin 256 → EReal) : EReal :=
  Ideal.div (∑ b' : Fin 256, (col b' - colMean col) * (col b' - colMean col)) (Ideal.ofBits .f32 0x43800000#32)

/-- The batch norm of one column at row `b`: deviation times the reciprocal square root of variance plus the epsilon
    word, times gamma, plus beta. -/
def bnCol (col : Fin 256 → EReal) (gam bet : EReal) (b : Fin 256) : EReal :=
  ((col b - colMean col) * Ideal.rsqrt (colVar col + Ideal.ofBits .f32 0x3727C5AC#32)) * gam + bet

/-- A sum over the rows of a [256, 2048] tile, read at column j: the sum over the 256 rows of the tile's entries in
    that column. -/
theorem colsum_apply (src : FVec Ideal S256x2048 .f32) (hφ : FKind.Formats .f32)
    (hacc : (0x00000000#32 : BitVec 32) = 0x00000000#32) (j : Fin 2048) :
    multiReduction (F := Ideal) .add [0] S2048 src 0x00000000#32 Facts₀.reduces_S256x2048_S2048 hφ hacc (ix1 j)
      = ∑ b : Fin 256, src (ix2 b j) := by
  refine (Ideal.multiReduction_add_single src 0x00000000#32 Facts₀.reduces_S256x2048_S2048 hφ hacc (ix1 j)).trans ?_
  show ∑ k : Fin 256, src (Facts₀.reduces_S256x2048_S2048.lift (ix1 j) k) = _
  refine Finset.sum_congr rfl fun k _ => congrArg src (funext fun c => Fin.ext ?_)
  match c with
  | ⟨0, _⟩ => rfl
  | ⟨1, _⟩ => rfl

/-- The reciprocal square root of a vector at an index is that of the element. -/
theorem rsqrt_apply {s : Shape} {φ : FTy} (a : FVec Ideal s φ) (i : s.Idx) : rsqrt a i = Ideal.rsqrt (a i) := rfl

/-- A word broadcast as a scalar reads, at the extended reals, the value the word denotes. -/
theorem scalar_ofBits (w : BitVec (FTy.bits .f32)) : Scalar.ofBits (F := Ideal) .f32 w = Ideal.ofBits .f32 w := rfl

/-- The fourth kernel's stored tile at (b, j): the batch norm, over the batch, of column j of the target block's tile
    (row b' of p against column j of w), with the column's gamma and beta. -/
theorem k3_pay1_apply (p : Vec Ideal S256x128 .f32) (w : Vec Ideal S128x2048 .f32) (g be : Vec Ideal S1x2048 .f32)
    (b : Fin 256) (j : Fin 2048) :
    k3_pay1 p w g be (ix2 b j)
      = bnCol (fun b' => ∑ h : Fin 128, p (ix2 b' h) * w (ix2 h j)) (g (ix2 0 j)) (be (ix2 0 j)) b := by
  unfold k3_pay1
  simp only [shapeCast_self]
  -- read every operation at the index; a column sum is rewritten where it is met, then the reading goes on below it
  repeat (first
    | rw [colsum_apply]
    | simp only [addf_apply, mulf_apply, subf_apply, divf_apply, rsqrt_apply, broadcast_apply,
        broadcastTo_1b_ab_apply, shapeCast_a_1a_apply, scalar_ofBits, matmul_rowcol_apply, truncf_apply])
  unfold bnCol colVar colMean
  rfl

end Cert.KernelIdeal.PayVal

end
-- ==== Proof.PayPart1.lean ====
/-
  The first kernel body (the product of the context tile with the transposed weight tile, accumulated over the
  column tiles) read index by index at the extended reals: the word it resets its accumulator to denotes 0, and the
  accumulator after one tile is the accumulator before it plus the 2048-term sum of products of that tile.
-/
import proofs.«165993_j28200755266000_1_alg».proof.Proof.Gen.KernelIdeal.Skeleton
import proofs.«165993_j28200755266000_1_alg».proof.Proof.PayMatmul
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.PayVal

open Cert.KernelIdeal Cert.KernelIdeal.Gen

/-- The word the first kernel resets its accumulator to denotes the extended real 0 at every index. -/
theorem k0_pay1_apply (b : Fin 256) (h : Fin 128) : k0_pay1 (F := Ideal) (ix2 b h) = 0 := by
  unfold k0_pay1
  rw [shapeCast_self]
  exact Ideal.ofBits_zero_f32

/-- The first kernel's accumulator after a tile: the accumulator before it plus the tile's sum of products. -/
theorem k0_pay2_apply (x1 : Vec Ideal S256x2048 .f32) (x2 : Vec Ideal S128x2048 .f32) (acc : Vec Ideal S256x128 .f32)
    (b : Fin 256) (h : Fin 128) :
    k0_pay2 x1 x2 acc (ix2 b h) = acc (ix2 b h) + ∑ j : Fin 2048, x1 (ix2 b j) * x2 (ix2 h j) := by
  unfold k0_pay2
  simp only [shapeCast_self]
  rw [addf_apply]
  refine congrArg (acc (ix2 b h) + ·) ?_
  exact matmul_rowrow_apply (truncf .bf16 x1 Facts₀.bitsLt_bf16_f32) (truncf .bf16 x2 Facts₀.bitsLt_bf16_f32) b h

end Cert.KernelIdeal.PayVal

end
-- ==== Proof.PayGen.lean ====
/-
  The second and third kernel bodies (one body, launched twice: from the probabilities p and a weight tile w it forms
  the tile p · w of the target block and at once reduces it against the same weight tile, accumulating over the column
  tiles) read index by index at the extended reals: the reset word denotes 0, and the accumulator after one tile is
  the accumulator before it plus the sum over the tile's columns of (row b of p · column j of w) times w at (h', j).
-/
import proofs.«165993_j28200755266000_1_alg».proof.Proof.Gen.KernelIdeal.Skeleton
import proofs.«165993_j28200755266000_1_alg».proof.Proof.PayMatmul
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.PayVal

open Cert.KernelIdeal Cert.KernelIdeal.Gen

/-- The word the second kernel resets its accumulator to denotes the extended real 0 at every index. -/
theorem k1_pay1_apply (b : Fin 256) (h : Fin 128) : k1_pay1 (F := Ideal) (ix2 b h) = 0 := by
  unfold k1_pay1
  rw [shapeCast_self]
  exact Ideal.ofBits_zero_f32

/-- Likewise the third kernel's. -/
theorem k2_pay1_apply (b : Fin 256) (h : Fin 128) : k2_pay1 (F := Ideal) (ix2 b h) = 0 := by
  unfold k2_pay1
  rw [shapeCast_self]
  exact Ideal.ofBits_zero_f32

/-- The second kernel's accumulator after a tile: the accumulator before it plus, summed over the tile's columns, the
    target block's entry (row b of p against column j of w) times the weight at (h', j). -/
theorem k1_pay2_apply (p : Vec Ideal S256x128 .f32) (w : Vec Ideal S128x2048 .f32) (acc : Vec Ideal S256x128 .f32)
    (b : Fin 256) (h' : Fin 128) :
    k1_pay2 p w acc (ix2 b h')
      = acc (ix2 b h') + ∑ j : Fin 2048, (∑ h : Fin 128, p (ix2 b h) * w (ix2 h j)) * w (ix2 h' j) := by
  unfold k1_pay2
  simp only [shapeCast_self]
  rw [addf_apply]
  refine congrArg (acc (ix2 b h') + ·) ?_
  refine (matmul_rowrow_apply _ _ b h').trans ?_
  refine Finset.sum_congr rfl fun j _ => ?_
  rw [truncf_apply, truncf_apply]
  refine congrArg (· * w (ix2 h' j)) ?_
  exact matmul_rowcol_apply (truncf .bf16 p Facts₀.bitsLt_bf16_f32) (truncf .bf16 w Facts₀.bitsLt_bf16_f32) b j

/-- The third kernel's accumulator after a tile: the same function of its loads. -/
theorem k2_pay2_apply (p : Vec Ideal S256x128 .f32) (w : Vec Ideal S128x2048 .f32) (acc : Vec Ideal S256x128 .f32)
    (b : Fin 256) (h' : Fin 128) :
    k2_pay2 p w acc (ix2 b h')
      = acc (ix2 b h') + ∑ j : Fin 2048, (∑ h : Fin 128, p (ix2 b h) * w (ix2 h j)) * w (ix2 h' j) := by
  unfold k2_pay2
  simp only [shapeCast_self]
  rw [addf_apply]
  refine congrArg (acc (ix2 b h') + ·) ?_
  refine (matmul_rowrow_apply _ _ b h').trans ?_
  refine Finset.sum_congr rfl fun j _ => ?_
  rw [truncf_apply, truncf_apply]
  refine congrArg (· * w (ix2 h' j)) ?_
  exact matmul_rowcol_apply (truncf .bf16 p Facts₀.bitsLt_bf16_f32) (truncf .bf16 w Facts₀.bitsLt_bf16_f32) b j

end Cert.KernelIdeal.PayVal

end
-- ==== Proof.ValAcc.lean ====
/-
  The accumulation of the three reducing kernels in closed form, at the extended reals: the accumulator is reset to
  zero and the first tile's term added at the first grid point, one more tile's term added at every later point, and
  the output block is a copy of the accumulator; so after point n both hold the sum of the terms of tiles 0 … n, and
  after the last of the 49 points the sum over all tiles.
-/
import proofs.«165993_j28200755266000_1_alg».proof.Proof.ValPieces
import proofs.«165993_j28200755266000_1_alg».proof.Proof.PayPart1
import proofs.«165993_j28200755266000_1_alg».proof.Proof.PayGen

set_option maxRecDepth 16384

noncomputable section

open Idealize.ShloMosaic Idealize.ShloMosaic.TcCoe Idealize.ShloMosaic.ValueIdx
open Idealize.SL.Sem
open scoped BigOperators

namespace Cert.KernelIdeal.PayVal

open Cert.KernelIdeal Cert.KernelIdeal.Gen Cert.KernelIdeal.Hand

/-- A family of [256, 128] blocks that starts at zero plus the first term and adds one term per step holds, entry by
    entry, the sum of the terms so far. -/
theorem fold_sum {N : ℕ} (a : (n : ℕ) → n < N → Vec Ideal S256x128 .f32) (M : (n : ℕ) → n < N → Fin 256 → Fin 128 → EReal)
    (h0 : ∀ (hn : 0 < N) (b : Fin 256) (k : Fin 128), a 0 hn (ix2 b k) = 0 + M 0 hn b k)
    (hs : ∀ (n : ℕ) (hn : n + 1 < N) (b : Fin 256) (k : Fin 128),
      a (n + 1) hn (ix2 b k) = a n (Nat.lt_of_succ_lt hn) (ix2 b k) + M (n + 1) hn b k) :
    ∀ (n : ℕ) (hn : n < N) (b : Fin 256) (k : Fin 128),
      a n hn (ix2 b k) = ∑ t : Fin (n + 1), M t.val (lt_of_lt_of_le t.isLt hn) b k
  | 0, hn, b, k => by
    rw [h0, zero_add]
    exact (Fin.sum_univ_one (fun t : Fin 1 => M t.val (lt_of_lt_of_le t.isLt hn) b k)).symm
  | n + 1, hn, b, k => by
    rw [hs, fold_sum a M h0 hs n (Nat.lt_of_succ_lt hn) b k]
    exact (Fin.sum_univ_castSucc (fun t : Fin (n + 1 + 1) => M t.val (lt_of_lt_of_le t.isLt hn) b k)).symm

/-! ## Region 0 -/

section Region0
variable (V : (c : Dev nD) → (b : Ref sig .tc) → Buf (Elt Ideal) ((c : Thread nD τ).loc b)) (c : Dev nD)

/-- The first input's block at grid position `n`, as a vector of the block's literal shape. -/
abbrev blkA0 (n : ℕ) (hn : n < cfg0.N) : Vec Ideal S256x2048 .f32 := iblk0 V c 0 ⟨n, hn⟩
/-- The weight tile at grid position `n`. -/
abbrev blkB0 (n : ℕ) (hn : n < cfg0.N) : Vec Ideal S128x2048 .f32 := iblk0 V c 1 ⟨n, hn⟩

/-- After every point the output block holds what the accumulator holds. -/
theorem outs0_fst : ∀ (n : ℕ) (hn : n < cfg0.N), (outsAt0 V c n hn).1 = (outsAt0 V c n hn).2
  | 0, hn => by
    rw [outsAt0_A V c ⟨0, hn⟩ rfl]; dsimp only
    exact (out0_A_eq c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0 (Memref.isWhole_whole _) ((hcond0 (⟨0, hn⟩ : Fin cfg0.N)).mpr rfl) (blkA0 V c 0 hn) (blkB0 V c 0 hn)).trans
      (sout0_A_eq c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0 (Memref.isWhole_whole _) ((hcond0 (⟨0, hn⟩ : Fin cfg0.N)).mpr rfl) (blkA0 V c 0 hn) (blkB0 V c 0 hn)).symm
  | n + 1, hn => by
    rw [outsAt0_B V c ⟨n + 1, hn⟩ (not_first0 hn)]; dsimp only
    exact (out0_B_eq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0 (Memref.isWhole_whole _) (fun h => not_first0 hn ((hcond0 (⟨n + 1, hn⟩ : Fin cfg0.N)).mp h)) (blkA0 V c (n + 1) hn) (blkB0 V c (n + 1) hn) (outsAt0 V c n (Nat.lt_of_succ_lt hn)).2).trans
      (sout0_B_eq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0 (Memref.isWhole_whole _) (fun h => not_first0 hn ((hcond0 (⟨n + 1, hn⟩ : Fin cfg0.N)).mp h)) (blkA0 V c (n + 1) hn) (blkB0 V c (n + 1) hn) (outsAt0 V c n (Nat.lt_of_succ_lt hn)).2).symm

/-- The accumulator after the first point: the reset value plus the first tile's term. -/
theorem acc0_zero (hn : 0 < cfg0.N) (b : Fin 256) (h' : Fin 128) :
    (outsAt0 V c 0 hn).2 (ix2 b h') = 0 + ∑ j : Fin 2048, (blkA0 V c 0 hn) (ix2 b j) * (blkB0 V c 0 hn) (ix2 h' j) := by
  rw [outsAt0_A V c ⟨0, hn⟩ rfl]; dsimp only
  exact (congrFun (sout0_A_eq c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0 (Memref.isWhole_whole _) ((hcond0 (⟨0, hn⟩ : Fin cfg0.N)).mpr rfl) (blkA0 V c 0 hn) (blkB0 V c 0 hn)) (ix2 b h')).trans
    ((k0_pay2_apply (blkA0 V c 0 hn) (blkB0 V c 0 hn) (k0_pay1 (F := Ideal)) b h').trans
      (congrArg (· + ∑ j : Fin 2048, (blkA0 V c 0 hn) (ix2 b j) * (blkB0 V c 0 hn) (ix2 h' j)) (k0_pay1_apply b h')))

/-- The accumulator after a later point: what the point before left plus this tile's term. -/
theorem acc0_succ (n : ℕ) (hn : n + 1 < cfg0.N) (b : Fin 256) (h' : Fin 128) :
    (outsAt0 V c (n + 1) hn).2 (ix2 b h')
      = (outsAt0 V c n (Nat.lt_of_succ_lt hn)).2 (ix2 b h') + ∑ j : Fin 2048, (blkA0 V c (n + 1) hn) (ix2 b j) * (blkB0 V c (n + 1) hn) (ix2 h' j) := by
  rw [outsAt0_B V c ⟨n + 1, hn⟩ (not_first0 hn)]; dsimp only
  exact (congrFun (sout0_B_eq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0 (Memref.isWhole_whole _) (fun h => not_first0 hn ((hcond0 (⟨n + 1, hn⟩ : Fin cfg0.N)).mp h)) (blkA0 V c (n + 1) hn) (blkB0 V c (n + 1) hn) (outsAt0 V c n (Nat.lt_of_succ_lt hn)).2) (ix2 b h')).trans
    (k0_pay2_apply (blkA0 V c (n + 1) hn) (blkB0 V c (n + 1) hn) (outsAt0 V c n (Nat.lt_of_succ_lt hn)).2 b h')

/-- The accumulation in closed form after any point: the sum of the tiles' terms up to it. -/
theorem acc0_at (n : ℕ) (hn : n < cfg0.N) (b : Fin 256) (h' : Fin 128) :
    (outsAt0 V c n hn).1 (ix2 b h')
      = ∑ t : Fin (n + 1), ∑ j : Fin 2048, (blkA0 V c t.val (lt_of_lt_of_le t.isLt hn)) (ix2 b j) * (blkB0 V c t.val (lt_of_lt_of_le t.isLt hn)) (ix2 h' j) :=
  (congrFun (outs0_fst V c n hn) (ix2 b h')).trans
    (fold_sum (fun n hn => (outsAt0 V c n hn).2)
      (fun n hn b h' => ∑ j : Fin 2048, (blkA0 V c n hn) (ix2 b j) * (blkB0 V c n hn) (ix2 h' j))
      (fun hn b h' => acc0_zero V c hn b h') (fun n hn b h' => acc0_succ V c n hn b h') n hn b h')

end Region0

/-! ## Region 1 -/

section Region1
variable (V : (c : Dev nD) → (b : Ref sig .tc) → Buf (Elt Ideal) ((c : Thread nD τ).loc b)) (c : Dev nD)

/-- The first input's block at grid position `n`, as a vector of the block's literal shape. -/
abbrev blkA1 (n : ℕ) (hn : n < cfg1.N) : Vec Ideal S256x128 .f32 := iblk1 V c 0 ⟨n, hn⟩
/-- The weight tile at grid position `n`. -/
abbrev blkB1 (n : ℕ) (hn : n < cfg1.N) : Vec Ideal S128x2048 .f32 := iblk1 V c 1 ⟨n, hn⟩

/-- After every point the output block holds what the accumulator holds. -/
theorem outs1_fst : ∀ (n : ℕ) (hn : n < cfg1.N), (outsAt1 V c n hn).1 = (outsAt1 V c n hn).2
  | 0, hn => by
    rw [outsAt1_A V c ⟨0, hn⟩ rfl]; dsimp only
    exact (out1_A_eq c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) scM1 (Memref.isWhole_whole _) ((hcond1 (⟨0, hn⟩ : Fin cfg1.N)).mpr rfl) (blkA1 V c 0 hn) (blkB1 V c 0 hn)).trans
      (sout1_A_eq c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) scM1 (Memref.isWhole_whole _) ((hcond1 (⟨0, hn⟩ : Fin cfg1.N)).mpr rfl) (blkA1 V c 0 hn) (blkB1 V c 0 hn)).symm
  | n + 1, hn => by
    rw [outsAt1_B V c ⟨n + 1, hn⟩ (not_first1 hn)]; dsimp only
    exact (out1_B_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1 (Memref.isWhole_whole _) (fun h => not_first1 hn ((hcond1 (⟨n + 1, hn⟩ : Fin cfg1.N)).mp h)) (blkA1 V c (n + 1) hn) (blkB1 V c (n + 1) hn) (outsAt1 V c n (Nat.lt_of_succ_lt hn)).2).trans
      (sout1_B_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1 (Memref.isWhole_whole _) (fun h => not_first1 hn ((hcond1 (⟨n + 1, hn⟩ : Fin cfg1.N)).mp h)) (blkA1 V c (n + 1) hn) (blkB1 V c (n + 1) hn) (outsAt1 V c n (Nat.lt_of_succ_lt hn)).2).symm

/-- The accumulator after the first point: the reset value plus the first tile's term. -/
theorem acc1_zero (hn : 0 < cfg1.N) (b : Fin 256) (h' : Fin 128) :
    (outsAt1 V c 0 hn).2 (ix2 b h') = 0 + ∑ j : Fin 2048, (∑ h : Fin 128, (blkA1 V c 0 hn) (ix2 b h) * (blkB1 V c 0 hn) (ix2 h j)) * (blkB1 V c 0 hn) (ix2 h' j) := by
  rw [outsAt1_A V c ⟨0, hn⟩ rfl]; dsimp only
  exact (congrFun (sout1_A_eq c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) scM1 (Memref.isWhole_whole _) ((hcond1 (⟨0, hn⟩ : Fin cfg1.N)).mpr rfl) (blkA1 V c 0 hn) (blkB1 V c 0 hn)) (ix2 b h')).trans
    ((k1_pay2_apply (blkA1 V c 0 hn) (blkB1 V c 0 hn) (k1_pay1 (F := Ideal)) b h').trans
      (congrArg (· + ∑ j : Fin 2048, (∑ h : Fin 128, (blkA1 V c 0 hn) (ix2 b h) * (blkB1 V c 0 hn) (ix2 h j)) * (blkB1 V c 0 hn) (ix2 h' j)) (k1_pay1_apply b h')))

/-- The accumulator after a later point: what the point before left plus this tile's term. -/
theorem acc1_succ (n : ℕ) (hn : n + 1 < cfg1.N) (b : Fin 256) (h' : Fin 128) :
    (outsAt1 V c (n + 1) hn).2 (ix2 b h')
      = (outsAt1 V c n (Nat.lt_of_succ_lt hn)).2 (ix2 b h') + ∑ j : Fin 2048, (∑ h : Fin 128, (blkA1 V c (n + 1) hn) (ix2 b h) * (blkB1 V c (n + 1) hn) (ix2 h j)) * (blkB1 V c (n + 1) hn) (ix2 h' j) := by
  rw [outsAt1_B V c ⟨n + 1, hn⟩ (not_first1 hn)]; dsimp only
  exact (congrFun (sout1_B_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1 (Memref.isWhole_whole _) (fun h => not_first1 hn ((hcond1 (⟨n + 1, hn⟩ : Fin cfg1.N)).mp h)) (blkA1 V c (n + 1) hn) (blkB1 V c (n + 1) hn) (outsAt1 V c n (Nat.lt_of_succ_lt hn)).2) (ix2 b h')).trans
    (k1_pay2_apply (blkA1 V c (n + 1) hn) (blkB1 V c (n + 1) hn) (outsAt1 V c n (Nat.lt_of_succ_lt hn)).2 b h')

/-- The accumulation in closed form after any point: the sum of the tiles' terms up to it. -/
theorem acc1_at (n : ℕ) (hn : n < cfg1.N) (b : Fin 256) (h' : Fin 128) :
    (outsAt1 V c n hn).1 (ix2 b h')
      = ∑ t : Fin (n + 1), ∑ j : Fin 2048, (∑ h : Fin 128, (blkA1 V c t.val (lt_of_lt_of_le t.isLt hn)) (ix2 b h) * (blkB1 V c t.val (lt_of_lt_of_le t.isLt hn)) (ix2 h j)) * (blkB1 V c t.val (lt_of_lt_of_le t.isLt hn)) (ix2 h' j) :=
  (congrFun (outs1_fst V c n hn) (ix2 b h')).trans
    (fold_sum (fun n hn => (outsAt1 V c n hn).2)
      (fun n hn b h' => ∑ j : Fin 2048, (∑ h : Fin 128, (blkA1 V c n hn) (ix2 b h) * (blkB1 V c n hn) (ix2 h j)) * (blkB1 V c n hn) (ix2 h' j))
      (fun hn b h' => acc1_zero V c hn b h') (fun n hn b h' => acc1_succ V c n hn b h') n hn b h')

end Region1

/-! ## Region 2 -/

section Region2
variable (V : (c : Dev nD) → (b : Ref sig .tc) → Buf (Elt Ideal) ((c : Thread nD τ).loc b)) (c : Dev nD)

/-- The first input's block at grid position `n`, as a vector of the block's literal shape. -/
abbrev blkA2 (n : ℕ) (hn : n < cfg2.N) : Vec Ideal S256x128 .f32 := iblk2 V c 0 ⟨n, hn⟩
/-- The weight tile at grid position `n`. -/
abbrev blkB2 (n : ℕ) (hn : n < cfg2.N) : Vec Ideal S128x2048 .f32 := iblk2 V c 1 ⟨n, hn⟩

/-- After every point the output block holds what the accumulator holds. -/
theorem outs2_fst : ∀ (n : ℕ) (hn : n < cfg2.N), (outsAt2 V c n hn).1 = (outsAt2 V c n hn).2
  | 0, hn => by
    rw [outsAt2_A V c ⟨0, hn⟩ rfl]; dsimp only
    exact (out2_A_eq c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) scM2 (Memref.isWhole_whole _) ((hcond2 (⟨0, hn⟩ : Fin cfg2.N)).mpr rfl) (blkA2 V c 0 hn) (blkB2 V c 0 hn)).trans
      (sout2_A_eq c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) scM2 (Memref.isWhole_whole _) ((hcond2 (⟨0, hn⟩ : Fin cfg2.N)).mpr rfl) (blkA2 V c 0 hn) (blkB2 V c 0 hn)).symm
  | n + 1, hn => by
    rw [outsAt2_B V c ⟨n + 1, hn⟩ (not_first2 hn)]; dsimp only
    exact (out2_B_eq c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) scM2 (Memref.isWhole_whole _) (fun h => not_first2 hn ((hcond2 (⟨n + 1, hn⟩ : Fin cfg2.N)).mp h)) (blkA2 V c (n + 1) hn) (blkB2 V c (n + 1) hn) (outsAt2 V c n (Nat.lt_of_succ_lt hn)).2).trans
      (sout2_B_eq c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) scM2 (Memref.isWhole_whole _) (fun h => not_first2 hn ((hcond2 (⟨n + 1, hn⟩ : Fin cfg2.N)).mp h)) (blkA2 V c (n + 1) hn) (blkB2 V c (n + 1) hn) (outsAt2 V c n (Nat.lt_of_succ_lt hn)).2).symm

/-- The accumulator after the first point: the reset value plus the first tile's term. -/
theorem acc2_zero (hn : 0 < cfg2.N) (b : Fin 256) (h' : Fin 128) :
    (outsAt2 V c 0 hn).2 (ix2 b h') = 0 + ∑ j : Fin 2048, (∑ h : Fin 128, (blkA2 V c 0 hn) (ix2 b h) * (blkB2 V c 0 hn) (ix2 h j)) * (blkB2 V c 0 hn) (ix2 h' j) := by
  rw [outsAt2_A V c ⟨0, hn⟩ rfl]; dsimp only
  exact (congrFun (sout2_A_eq c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) scM2 (Memref.isWhole_whole _) ((hcond2 (⟨0, hn⟩ : Fin cfg2.N)).mpr rfl) (blkA2 V c 0 hn) (blkB2 V c 0 hn)) (ix2 b h')).trans
    ((k2_pay2_apply (blkA2 V c 0 hn) (blkB2 V c 0 hn) (k2_pay1 (F := Ideal)) b h').trans
      (congrArg (· + ∑ j : Fin 2048, (∑ h : Fin 128, (blkA2 V c 0 hn) (ix2 b h) * (blkB2 V c 0 hn) (ix2 h j)) * (blkB2 V c 0 hn) (ix2 h' j)) (k2_pay1_apply b h')))

/-- The accumulator after a later point: what the point before left plus this tile's term. -/
theorem acc2_succ (n : ℕ) (hn : n + 1 < cfg2.N) (b : Fin 256) (h' : Fin 128) :
    (outsAt2 V c (n + 1) hn).2 (ix2 b h')
      = (outsAt2 V c n (Nat.lt_of_succ_lt hn)).2 (ix2 b h') + ∑ j : Fin 2048, (∑ h : Fin 128, (blkA2 V c (n + 1) hn) (ix2 b h) * (blkB2 V c (n + 1) hn) (ix2 h j)) * (blkB2 V c (n + 1) hn) (ix2 h' j) := by
  rw [outsAt2_B V c ⟨n + 1, hn⟩ (not_first2 hn)]; dsimp only
  exact (congrFun (sout2_B_eq c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) scM2 (Memref.isWhole_whole _) (fun h => not_first2 hn ((hcond2 (⟨n + 1, hn⟩ : Fin cfg2.N)).mp h)) (blkA2 V c (n + 1) hn) (blkB2 V c (n + 1) hn) (outsAt2 V c n (Nat.lt_of_succ_lt hn)).2) (ix2 b h')).trans
    (k2_pay2_apply (blkA2 V c (n + 1) hn) (blkB2 V c (n + 1) hn) (outsAt2 V c n (Nat.lt_of_succ_lt hn)).2 b h')

/-- The accumulation in closed form after any point: the sum of the tiles' terms up to it. -/
theorem acc2_at (n : ℕ) (hn : n < cfg2.N) (b : Fin 256) (h' : Fin 128) :
    (outsAt2 V c n hn).1 (ix2 b h')
      = ∑ t : Fin (n + 1), ∑ j : Fin 2048, (∑ h : Fin 128, (blkA2 V c t.val (lt_of_lt_of_le t.isLt hn)) (ix2 b h) * (blkB2 V c t.val (lt_of_lt_of_le t.isLt hn)) (ix2 h j)) * (blkB2 V c t.val (lt_of_lt_of_le t.isLt hn)) (ix2 h' j) :=
  (congrFun (outs2_fst V c n hn) (ix2 b h')).trans
    (fold_sum (fun n hn => (outsAt2 V c n hn).2)
      (fun n hn b h' => ∑ j : Fin 2048, (∑ h : Fin 128, (blkA2 V c n hn) (ix2 b h) * (blkB2 V c n hn) (ix2 h j)) * (blkB2 V c n hn) (ix2 h' j))
      (fun hn b h' => acc2_zero V c hn b h') (fun n hn b h' => acc2_succ V c n hn b h') n hn b h')

end Region2

/-! ## After the last of the 49 points -/

/-- The first kernel's output block after the last point: the sum over all 49 tiles of the tiles' sums of products. -/
theorem acc0_last (V : (c : Dev nD) → (b : Ref sig .tc) → Buf (Elt Ideal) ((c : Thread nD τ).loc b)) (c : Dev nD)
    (h48 : 48 < cfg0.N) (b : Fin 256) (h : Fin 128) :
    (outsAt0 V c 48 h48).1 (ix2 b h)
      = ∑ t : Fin 49, ∑ j : Fin 2048,
          blkA0 V c t.val (lt_of_lt_of_le t.isLt h48) (ix2 b j) * blkB0 V c t.val (lt_of_lt_of_le t.isLt h48) (ix2 h j) :=
  acc0_at V c 48 h48 b h

/-- The second kernel's output block after the last point. -/
theorem acc1_last (V : (c : Dev nD) → (b : Ref sig .tc) → Buf (Elt Ideal) ((c : Thread nD τ).loc b)) (c : Dev nD)
    (h48 : 48 < cfg1.N) (b : Fin 256) (h' : Fin 128) :
    (outsAt1 V c 48 h48).1 (ix2 b h')
      = ∑ t : Fin 49, ∑ j : Fin 2048,
          (∑ h : Fin 128, blkA1 V c t.val (lt_of_lt_of_le t.isLt h48) (ix2 b h)
              * blkB1 V c t.val (lt_of_lt_of_le t.isLt h48) (ix2 h j))
            * blkB1 V c t.val (lt_of_lt_of_le t.isLt h48) (ix2 h' j) :=
  acc1_at V c 48 h48 b h'

/-- The third kernel's output block after the last point. -/
theorem acc2_last (V : (c : Dev nD) → (b : Ref sig .tc) → Buf (Elt Ideal) ((c : Thread nD τ).loc b)) (c : Dev nD)
    (h48 : 48 < cfg2.N) (b : Fin 256) (h' : Fin 128) :
    (outsAt2 V c 48 h48).1 (ix2 b h')
      = ∑ t : Fin 49, ∑ j : Fin 2048,
          (∑ h : Fin 128, blkA2 V c t.val (lt_of_lt_of_le t.isLt h48) (ix2 b h)
              * blkB2 V c t.val (lt_of_lt_of_le t.isLt h48) (ix2 h j))
            * blkB2 V c t.val (lt_of_lt_of_le t.isLt h48) (ix2 h' j) :=
  acc2_at V c 48 h48 b h'

end Cert.KernelIdeal.PayVal

end
-- ==== Proof.Tile.lean ====
/-
  Finite-sum algebra over the extended reals for a column axis of 100000 entries padded with zeros to 100352 and cut
  into 49 tiles of 2048: the sum tile by tile is the sum over the padded axis; the padded axis's sum of a function that
  vanishes on the padding is the sum over the true axis; and an accumulator that starts at zero plus the first term
  and adds one term per step holds the partial sum.
-/
import Mathlib.Data.EReal.Basic
import Mathlib.Algebra.BigOperators.Fin
import Mathlib.Logic.Equiv.Fin.Basic

open scoped BigOperators

namespace Cert.KernelIdeal.PayVal

/-- The sum over 49 tiles of the sum over each tile's 2048 columns is the sum over all 100352 columns
    (column 2048·t + j is column j of tile t). -/
theorem tile_sum (g : Fin 100352 → EReal) :
    ∑ t : Fin 49, ∑ j : Fin 2048, g ⟨2048 * t.val + j.val, by have := t.isLt; have := j.isLt; omega⟩
      = ∑ v : Fin 100352, g v := by
  calc ∑ t : Fin 49, ∑ j : Fin 2048, g ⟨2048 * t.val + j.val, by have := t.isLt; have := j.isLt; omega⟩
      = ∑ x : Fin 49 × Fin 2048, g ⟨2048 * x.1.val + x.2.val, by have := x.1.isLt; have := x.2.isLt; omega⟩ :=
        (Fintype.sum_prod_type' (fun (t : Fin 49) (j : Fin 2048) =>
          g ⟨2048 * t.val + j.val, by have := t.isLt; have := j.isLt; omega⟩)).symm
    _ = ∑ x : Fin 49 × Fin 2048, g ((finProdFinEquiv : Fin 49 × Fin 2048 ≃ Fin (49 * 2048)) x) :=
        Finset.sum_congr rfl fun x _ => congrArg g (Fin.ext (by
          show 2048 * x.1.val + x.2.val = x.2.val + 2048 * x.1.val
          omega))
    _ = ∑ v : Fin 100352, g v := Equiv.sum_comp (finProdFinEquiv : Fin 49 × Fin 2048 ≃ Fin (49 * 2048)) g

/-- A function on the padded axis that is `f` on the true columns and zero on the padding sums to the sum of `f`. -/
theorem pad_sum (f : Fin 100000 → EReal) :
    ∑ v : Fin 100352, (if hv : v.val < 100000 then f ⟨v.val, hv⟩ else 0) = ∑ v : Fin 100000, f v := by
  refine (Fin.sum_univ_add (a := 100000) (b := 352)
    (fun v : Fin (100000 + 352) => if hv : v.val < 100000 then f ⟨v.val, hv⟩ else (0 : EReal))).trans ?_
  have h1 : ∀ i : Fin 100000,
      (if hv : (Fin.castAdd 352 i).val < 100000 then f ⟨(Fin.castAdd 352 i).val, hv⟩ else (0 : EReal)) = f i :=
    fun i => by rw [dif_pos (show (Fin.castAdd 352 i).val < 100000 from i.isLt)]; rfl
  have h2 : ∀ i : Fin 352,
      (if hv : (Fin.natAdd 100000 i).val < 100000 then f ⟨(Fin.natAdd 100000 i).val, hv⟩ else (0 : EReal)) = 0 :=
    fun i => dif_neg (by show ¬ 100000 + i.val < 100000; omega)
  rw [Finset.sum_congr rfl (fun i _ => h1 i), Finset.sum_congr rfl (fun i _ => h2 i), Finset.sum_const_zero, add_zero]

/-- The accumulator recurrence of the two reducing kernels: reset to zero and the first term added at step 0, one more
    term added at every later step; after step `n` the accumulator is the sum of the terms 0 … n. -/
theorem acc_fold (M : ℕ → EReal) (a : ℕ → EReal) (h0 : a 0 = 0 + M 0) (hs : ∀ n, a (n + 1) = a n + M (n + 1)) :
    ∀ n, a n = ∑ t ∈ Finset.range (n + 1), M t := by
  intro n
  induction n with
  | zero => rw [h0, zero_add, Finset.sum_range_one]
  | succ n ih => rw [hs, ih, Finset.sum_range_succ _ (n + 1)]

end Cert.KernelIdeal.PayVal
-- ==== Proof.BrgPad.lean ====
/-
  The padding bridge, at the ideal instance (floats are extended reals). The column axis of 100000 entries is padded
  to 100352 = 49 · 2048 with the float the integer zero converts to, which is zero; a padded array read at a true
  column is the array there and at a padded column is zero; a padded row and a one-entry vector reshaped likewise.
  So a contraction taken tile by tile over the padded axis is the contraction over the true axis: a padded
  column's product has a zero factor.
-/
import proofs.«165993_j28200755266000_1_alg».proof.Proof.KI_VHost
import proofs.«165993_j28200755266000_1_alg».proof.Proof.Tile
import Idealize.ShloMosaic.Lib.KernelVsHost
import Idealize.ShloMosaic.Lib.ValueIdx
import Idealize.ShloMosaic.Lib.ValueLayout
import Idealize.ShloMosaic.Lib.Pipeline.Value

noncomputable section

open scoped BigOperators

namespace Cert.KernelIdeal.Brg

open Cert.KernelIdeal Cert.KernelIdeal.Hand Idealize.ShloMosaic Idealize.ShloMosaic.ValueIdx
open Cert.KernelIdeal.PayVal

/-! ## The padding value, the padded arrays and the reshapes read at an index -/

/-- The padding value is zero: the integer zero converts to the float zero. -/
theorem zpad_eq : (zpad (F := Ideal) ValueIdx.ix0 : EReal) = 0 := by
  unfold zpad
  rw [sitofp_apply, constantI_apply]
  show ((((0#32 : BitVec 32).toInt : ℤ) : ℝ) : EReal) = 0
  simp

/-- The padding value at any index of its one-element shape. -/
theorem zpad_first (hu : 0 < S_.numel) : (zpad (F := Ideal) (Shape.Idx.first hu) : EReal) = 0 := by
  rw [eq_ix0 (Shape.Idx.first hu)]; exact zpad_eq

theorem padA_lt (a : FVec Ideal S256x100000 .f32) (b : Fin 256) (v : Fin 100352) (hv : v.val < 100000) :
    padA (F := Ideal) a (ix2 b v) = a (ix2 b ⟨v.val, hv⟩) := by
  unfold padA
  exact pad_apply_of_inside _ _ _ a _ _ _ (ix2 b v) (ix2 b ⟨v.val, hv⟩) (fun c => by
    match c with
    | ⟨0, _⟩ => show b.val = 0 + b.val * (0 + 1); omega
    | ⟨1, _⟩ => show v.val = 0 + v.val * (0 + 1); omega)

theorem padA_ge (a : FVec Ideal S256x100000 .f32) (b : Fin 256) (v : Fin 100352) (hv : 100000 ≤ v.val) :
    (padA (F := Ideal) a (ix2 b v) : EReal) = 0 := by
  unfold padA
  rw [pad_apply_of_not_inside _ _ _ a _ _ _ (ix2 b v) (1 : Fin 2) (fun hin => by
    have h3 : (v.val - 0) / (0 + 1) < 100000 := hin.2.2
    simp at h3; omega)]
  exact zpad_first _

theorem padW_lt (a : FVec Ideal S128x100000 .f32) (b : Fin 128) (v : Fin 100352) (hv : v.val < 100000) :
    padW (F := Ideal) a (ix2 b v) = a (ix2 b ⟨v.val, hv⟩) := by
  unfold padW
  exact pad_apply_of_inside _ _ _ a _ _ _ (ix2 b v) (ix2 b ⟨v.val, hv⟩) (fun c => by
    match c with
    | ⟨0, _⟩ => show b.val = 0 + b.val * (0 + 1); omega
    | ⟨1, _⟩ => show v.val = 0 + v.val * (0 + 1); omega)

theorem padW_ge (a : FVec Ideal S128x100000 .f32) (b : Fin 128) (v : Fin 100352) (hv : 100000 ≤ v.val) :
    (padW (F := Ideal) a (ix2 b v) : EReal) = 0 := by
  unfold padW
  rw [pad_apply_of_not_inside _ _ _ a _ _ _ (ix2 b v) (1 : Fin 2) (fun hin => by
    have h3 : (v.val - 0) / (0 + 1) < 100000 := hin.2.2
    simp at h3; omega)]
  exact zpad_first _

theorem padRow_lt (a : FVec Ideal S100000 .f32) (v : Fin 100352) (hv : v.val < 100000) :
    padRow (F := Ideal) a (ix2 (0 : Fin 1) v) = a (ix1 ⟨v.val, hv⟩) := by
  unfold padRow
  rw [shapeCast_a_1a_apply]
  exact pad_apply_of_inside _ _ _ a _ _ _ (ix1 v) (ix1 ⟨v.val, hv⟩) (fun c => by
    match c with
    | ⟨0, _⟩ => show v.val = 0 + v.val * (0 + 1); omega)

theorem padRow_ge (a : FVec Ideal S100000 .f32) (v : Fin 100352) (hv : 100000 ≤ v.val) :
    (padRow (F := Ideal) a (ix2 (0 : Fin 1) v) : EReal) = 0 := by
  unfold padRow
  rw [shapeCast_a_1a_apply, pad_apply_of_not_inside _ _ _ a _ _ _ (ix1 v) (0 : Fin 1) (fun hin => by
    have h3 : (v.val - 0) / (0 + 1) < 100000 := hin.2.2
    simp at h3; omega)]
  exact zpad_first _

/-- A one-entry vector reshaped to a scalar reads its entry. -/
theorem scal_apply (a : FVec Ideal S1 .f32) : scal (F := Ideal) a ValueIdx.ix0 = a (ix1 0) := by
  unfold scal
  rw [shapeCast_dropUnit_apply (n := 0) ![] a _ ValueIdx.ix0]
  exact congrArg a (funext fun c => by match c with | ⟨0, _⟩ => rfl)

/-! ## The tiled, padded contractions are the true ones -/

/-- The first contraction: over 49 tiles of 2048 padded columns, the padded operands' products sum to the sum over
    the 100000 true columns (a padded column's product has a zero factor). -/
theorem bridge0 (a0 : FVec Ideal S256x100000 .f32) (a1 : FVec Ideal S128x100000 .f32) (b : Fin 256) (h : Fin 128) :
    ∑ t : Fin 49, ∑ j : Fin 2048,
        (padA (F := Ideal) a0 (ix2 b ⟨2048 * t.val + j.val, by have := t.isLt; have := j.isLt; omega⟩) : EReal)
          * padW (F := Ideal) a1 (ix2 h ⟨2048 * t.val + j.val, by have := t.isLt; have := j.isLt; omega⟩)
      = ∑ v : Fin 100000, a0 (ix2 b v) * a1 (ix2 h v) := by
  refine (tile_sum fun v : Fin 100352 => (padA (F := Ideal) a0 (ix2 b v) : EReal) * padW (F := Ideal) a1 (ix2 h v)).trans ?_
  refine Eq.trans (Finset.sum_congr rfl fun v _ => ?_) (pad_sum fun v : Fin 100000 => a0 (ix2 b v) * a1 (ix2 h v))
  by_cases hv : v.val < 100000
  · rw [dif_pos hv, padA_lt a0 b v hv, padW_lt a1 h v hv]
  · rw [dif_neg hv, padA_ge a0 b v (Nat.le_of_not_lt hv), zero_mul]

/-- The second contraction, whose left factor is itself a sum over the hidden axis against the padded weights. -/
theorem bridge1 (p : FVec Ideal S256x128 .f32) (a2 : FVec Ideal S128x100000 .f32) (b : Fin 256) (h' : Fin 128) :
    ∑ t : Fin 49, ∑ j : Fin 2048,
        (∑ h : Fin 128, (p (ix2 b h) : EReal)
            * padW (F := Ideal) a2 (ix2 h ⟨2048 * t.val + j.val, by have := t.isLt; have := j.isLt; omega⟩))
          * padW (F := Ideal) a2 (ix2 h' ⟨2048 * t.val + j.val, by have := t.isLt; have := j.isLt; omega⟩)
      = ∑ v : Fin 100000, (∑ h : Fin 128, p (ix2 b h) * a2 (ix2 h v)) * a2 (ix2 h' v) := by
  refine (tile_sum fun v : Fin 100352 =>
    (∑ h : Fin 128, (p (ix2 b h) : EReal) * padW (F := Ideal) a2 (ix2 h v)) * padW (F := Ideal) a2 (ix2 h' v)).trans ?_
  refine Eq.trans (Finset.sum_congr rfl fun v _ => ?_)
    (pad_sum fun v : Fin 100000 => (∑ h : Fin 128, p (ix2 b h) * a2 (ix2 h v)) * a2 (ix2 h' v))
  by_cases hv : v.val < 100000
  · rw [dif_pos hv, padW_lt a2 h' v hv]
    exact congrArg (· * a2 (ix2 h' ⟨v.val, hv⟩)) (Finset.sum_congr rfl fun h _ => by rw [padW_lt a2 h v hv])
  · rw [dif_neg hv, padW_ge a2 h' v (Nat.le_of_not_lt hv), mul_zero]

end Cert.KernelIdeal.Brg

end
-- ==== Proof.RefStages.lean ====
/-
  The reference's result as one closed term of its seven float arguments, at the ideal instance
  (floats are extended reals). Each stage is the composition of the host operations the reference
  applies, in the order it applies them, over the same shape facts:

    part1   : (a0 · a1ᵀ) * a5, the layer-independent logits;
    softmax : the row softmax over the hidden axis (row maximum, shift, exponential, row sum, quotient);
    tblock  : p · a2, the retrieved block;
    logits  : P + a6 * (tb · a2ᵀ);
    bn      : the batch norm over axis 0 — mean, biased variance, reciprocal square root, scale, shift;
    out     : three layers of (logits, softmax, tblock), then bn.
-/
import proofs.«165993_j28200755266000_1_alg».proof.ReferenceIdeal
import Idealize.ShloMosaic.PureOps.Ideal

noncomputable section

namespace Cert.ReferenceIdeal.RefRun

open Idealize.ShloMosaic Idealize.SL.Sem Cert.ReferenceIdeal
open Cert.ReferenceIdeal.Facts₀ Cert.ReferenceIdeal.Facts

variable [Cert.ReferenceIdeal.Facts]

/-- The layer-independent logits: the contraction of `a0` with `a1` over the vocabulary axis, times the scalar `a5`. -/
def part1 (a0 : FVec Ideal S256x100000 .f32) (a1 : FVec Ideal S128x100000 .f32) (a5 : FVec Ideal S1 .f32) :
    FVec Ideal S256x128 .f32 :=
  mulf (Host.dotGeneral dot_S256x100000_S100000x128_S256x128_1_0_0_1_n_n none a0
      (transpose S100000x128 [1, 0] a1 transposes_S128x100000_S100000x128_1_0))
    (broadcastInDim S256x128 ![0, 1] bcast_S1x1_S256x128_0_1 (broadcastInDim S1x1 ![1] bcast_S1_S1x1_1 a5))

/-- The row maxima of `x` (reduce with initial value -∞, then the maximum with a broadcast -∞). -/
def rowMax (x : FVec Ideal S256x128 .f32) : FVec Ideal S256 .f32 :=
  maximumf (broadcastInDim S256 ![] bcast_S_S256 (constant (F := Ideal) S_ .f32 0xFF800000#32))
    (Host.reduce FloatOps.maximumf x (constant (F := Ideal) S_ .f32 0xFF800000#32) reducesTo_S256x128_S256_d1 h_S_)

/-- The exponentials of `x` shifted by its row maxima. -/
def expShift (x : FVec Ideal S256x128 .f32) : FVec Ideal S256x128 .f32 :=
  Host.exp (subf x (broadcastInDim S256x128 ![0, 1] bcast_S256x1_S256x128_0_1
    (broadcastInDim S256x1 ![0] bcast_S256_S256x1_0 (rowMax x))))

/-- The row sums of `e` (reduce with initial value 0). -/
def rowSum (e : FVec Ideal S256x128 .f32) : FVec Ideal S256 .f32 :=
  Host.reduceAdd e (constant (F := Ideal) S_ .f32 0x00000000#32) reducesTo_S256x128_S256_d1 h_S_

/-- The row softmax of `x` over the hidden axis. -/
def softmax (x : FVec Ideal S256x128 .f32) : FVec Ideal S256x128 .f32 :=
  Host.divf (expShift x) (broadcastInDim S256x128 ![0, 1] bcast_S256x1_S256x128_0_1
    (broadcastInDim S256x1 ![0] bcast_S256_S256x1_0 (rowSum (expShift x))))

/-- The retrieved block: the contraction of `p` with `a2` over the hidden axis. -/
def tblock (p : FVec Ideal S256x128 .f32) (a2 : FVec Ideal S128x100000 .f32) : FVec Ideal S256x100000 .f32 :=
  Host.dotGeneral dot_S256x128_S128x100000_S256x100000_1_0_0_1_n_n none p a2

/-- A later layer's logits: `P` plus the scalar `a6` times the contraction of `tb` with `a2` over the vocabulary axis. -/
def logits (P : FVec Ideal S256x128 .f32) (a6 : FVec Ideal S1 .f32) (tb : FVec Ideal S256x100000 .f32)
    (a2 : FVec Ideal S128x100000 .f32) : FVec Ideal S256x128 .f32 :=
  addf P (mulf (broadcastInDim S256x128 ![0, 1] bcast_S1x1_S256x128_0_1 (broadcastInDim S1x1 ![1] bcast_S1_S1x1_1 a6))
    (Host.dotGeneral dot_S256x100000_S100000x128_S256x128_1_0_0_1_n_n none tb
      (transpose S100000x128 [1, 0] a2 transposes_S128x100000_S100000x128_1_0)))

/-- The column sums of `x` (reduce over axis 0 with initial value 0). -/
def colSum (x : FVec Ideal S256x100000 .f32) : FVec Ideal S100000 .f32 :=
  Host.reduceAdd x (constant (F := Ideal) S_ .f32 0x00000000#32) reducesTo_S256x100000_S100000_d0 h_S_

/-- The column means of `tb`: the column sums over a broadcast 256. -/
def bnMean (tb : FVec Ideal S256x100000 .f32) : FVec Ideal S100000 .f32 :=
  Host.divf (colSum tb) (broadcastInDim S100000 ![] bcast_S_S100000 (constant (F := Ideal) S_ .f32 0x43800000#32))

/-- The variance's own centring of `tb`: `tb` minus its column means laid out as a row and broadcast down the columns. -/
def varCentred (tb : FVec Ideal S256x100000 .f32) : FVec Ideal S256x100000 .f32 :=
  subf tb (broadcastInDim S256x100000 ![0, 1] bcast_S1x100000_S256x100000_0_1
    (Host.divf (broadcastInDim S1x100000 ![1] bcast_S100000_S1x100000_1 (colSum tb))
      (broadcastInDim S1x100000 ![] bcast_S_S1x100000 (constant (F := Ideal) S_ .f32 0x43800000#32))))

/-- The variance's divisor: 256 minus the integer zero (the degrees-of-freedom correction) converted to a float. -/
def varCount : FVec Ideal S_ .f32 :=
  subf (constant (F := Ideal) S_ .f32 0x43800000#32) (sitofp (F := Ideal) .f32 (constantI S_ 32 0#32))

/-- The biased column variance of `tb`: the column sums of the centred squares over the divisor, selected where
    the divisor is positive (the other branch a broadcast constant). -/
def bnVar (tb : FVec Ideal S256x100000 .f32) : FVec Ideal S100000 .f32 :=
  select (broadcastInDim S100000 ![] bcast_S_S100000 (cmpf .ogt varCount (constant (F := Ideal) S_ .f32 0x00000000#32)))
    (Host.divf (colSum (mulf (varCentred tb) (varCentred tb))) (broadcastInDim S100000 ![] bcast_S_S100000 varCount))
    (broadcastInDim S100000 ![] bcast_S_S100000 (id (constant (F := Ideal) S_ .f32 0x7FC00000#32)))

/-- The batch norm of `tb` over axis 0 with scale `a3` and shift `a4`. -/
def bn (tb : FVec Ideal S256x100000 .f32) (a3 a4 : FVec Ideal S100000 .f32) : FVec Ideal S256x100000 .f32 :=
  addf
    (mulf
      (mulf
        (subf tb (broadcastInDim S256x100000 ![0, 1] bcast_S1x100000_S256x100000_0_1
          (broadcastInDim S1x100000 ![1] bcast_S100000_S1x100000_1 (bnMean tb))))
        (broadcastInDim S256x100000 ![0, 1] bcast_S1x100000_S256x100000_0_1
          (broadcastInDim S1x100000 ![1] bcast_S100000_S1x100000_1
            (Host.rsqrt (addf (bnVar tb)
              (broadcastInDim S100000 ![] bcast_S_S100000 (constant (F := Ideal) S_ .f32 0x3727C5AC#32)))))))
      (broadcastInDim S256x100000 ![0, 1] bcast_S1x100000_S256x100000_0_1
        (broadcastInDim S1x100000 ![1] bcast_S100000_S1x100000_1 a3)))
    (broadcastInDim S256x100000 ![0, 1] bcast_S1x100000_S256x100000_0_1
      (broadcastInDim S1x100000 ![1] bcast_S100000_S1x100000_1 a4))

/-- The reference's result: three layers, then the batch norm. -/
def out (a0 : FVec Ideal S256x100000 .f32) (a1 a2 : FVec Ideal S128x100000 .f32) (a3 a4 : FVec Ideal S100000 .f32)
    (a5 a6 : FVec Ideal S1 .f32) : FVec Ideal S256x100000 .f32 :=
  let P := part1 a0 a1 a5
  bn (tblock (softmax (logits P a6 (tblock (softmax (logits P a6 (tblock (softmax P) a2) a2)) a2) a2)) a2) a3 a4

end Cert.ReferenceIdeal.RefRun

end
-- ==== Proof.RefRead.lean ====
/-
  The reference's stages read at an index, at the ideal instance (floats are extended reals): a contraction as the
  sum over its contracted coordinate of the operands' products, a column sum as the sum over the rows, a broadcast
  as the operand at the coordinates it keeps, the elementwise operations as the extended reals' own.
-/
import proofs.«165993_j28200755266000_1_alg».proof.Proof.RefStages
import Idealize.ShloMosaic.Lib.IdealHost
import Idealize.ShloMosaic.Lib.KernelVsHost
import Idealize.ShloMosaic.Lib.ValueLayout

noncomputable section

open scoped BigOperators

namespace Cert.ReferenceIdeal.RefRun

open Idealize.ShloMosaic Idealize.ShloMosaic.ValueIdx Idealize.SL.Sem Cert.ReferenceIdeal
open Cert.ReferenceIdeal.Facts₀ Cert.ReferenceIdeal.Facts

variable [Cert.ReferenceIdeal.Facts]

/-! ## The two contractions -/

theorem lhsA_0 (i : S256x128.Idx) (q : dot_S256x100000_S100000x128_S256x128_1_0_0_1_n_n.contr.Idx) : (dot_S256x100000_S100000x128_S256x128_1_0_0_1_n_n.lhsIdx i q 0).val = (i 0).val := by
  unfold DotDims.lhsIdx
  rw [dif_neg (show ¬(0 : Fin S256x100000.rank) ∈ dot_S256x100000_S100000x128_S256x128_1_0_0_1_n_n.lhsBatch from List.not_mem_nil), dif_pos (show (0 : Fin S256x100000.rank) ∈ dot_S256x100000_S100000x128_S256x128_1_0_0_1_n_n.lhsNonContracting from List.mem_singleton.mpr rfl)]
  rfl
theorem lhsA_1 (i : S256x128.Idx) (q : dot_S256x100000_S100000x128_S256x128_1_0_0_1_n_n.contr.Idx) : (dot_S256x100000_S100000x128_S256x128_1_0_0_1_n_n.lhsIdx i q 1).val = (q ⟨0, show 0 < dot_S256x100000_S100000x128_S256x128_1_0_0_1_n_n.contr.rank from Nat.one_pos⟩).val :=
  dot_S256x100000_S100000x128_S256x128_1_0_0_1_n_n.lhsIdx_val_of_single rfl i q
theorem rhsA_0 (i : S256x128.Idx) (q : dot_S256x100000_S100000x128_S256x128_1_0_0_1_n_n.contr.Idx) : (dot_S256x100000_S100000x128_S256x128_1_0_0_1_n_n.rhsIdx i q 0).val = (q ⟨0, show 0 < dot_S256x100000_S100000x128_S256x128_1_0_0_1_n_n.contr.rank from Nat.one_pos⟩).val :=
  dot_S256x100000_S100000x128_S256x128_1_0_0_1_n_n.rhsIdx_val_of_single rfl i q
theorem rhsA_1 (i : S256x128.Idx) (q : dot_S256x100000_S100000x128_S256x128_1_0_0_1_n_n.contr.Idx) : (dot_S256x100000_S100000x128_S256x128_1_0_0_1_n_n.rhsIdx i q 1).val = (i 1).val := by
  unfold DotDims.rhsIdx
  rw [dif_neg (show ¬(1 : Fin S100000x128.rank) ∈ dot_S256x100000_S100000x128_S256x128_1_0_0_1_n_n.rhsBatch from List.not_mem_nil), dif_pos (show (1 : Fin S100000x128.rank) ∈ dot_S256x100000_S100000x128_S256x128_1_0_0_1_n_n.rhsNonContracting from List.mem_singleton.mpr rfl)]
  rfl

/-- The contraction over the vocabulary axis: [256, 100000] by [100000, 128]. -/
theorem dotA_apply (l : FVec Ideal S256x100000 .f32) (r : FVec Ideal S100000x128 .f32) (b : Fin 256) (h : Fin 128) :
    Host.dotGeneral dot_S256x100000_S100000x128_S256x128_1_0_0_1_n_n none l r (ix2 b h) = ∑ v : Fin 100000, l (ix2 b v) * r (ix2 v h) := by
  simp only [Host.dotGeneral]
  rw [Ideal.dotGeneral_apply, ← Equiv.sum_comp (ValueIdx.contrEquiv1 dot_S256x100000_S100000x128_S256x128_1_0_0_1_n_n 100000 rfl rfl).symm]
  refine Finset.sum_congr rfl fun k _ => ?_
  have hk := ValueIdx.contrEquiv1_symm_val dot_S256x100000_S100000x128_S256x128_1_0_0_1_n_n 100000 rfl rfl k
  have el : dot_S256x100000_S100000x128_S256x128_1_0_0_1_n_n.lhsIdx (ix2 b h) ((ValueIdx.contrEquiv1 dot_S256x100000_S100000x128_S256x128_1_0_0_1_n_n 100000 rfl rfl).symm k) = ix2 b k :=
    funext fun a => Fin.ext (by
      match a with
      | ⟨0, _⟩ => exact lhsA_0 _ _
      | ⟨1, _⟩ => exact (lhsA_1 _ _).trans hk)
  have er : dot_S256x100000_S100000x128_S256x128_1_0_0_1_n_n.rhsIdx (ix2 b h) ((ValueIdx.contrEquiv1 dot_S256x100000_S100000x128_S256x128_1_0_0_1_n_n 100000 rfl rfl).symm k) = ix2 k h :=
    funext fun a => Fin.ext (by
      match a with
      | ⟨0, _⟩ => exact (rhsA_0 _ _).trans hk
      | ⟨1, _⟩ => exact rhsA_1 _ _)
  rw [el, er]

theorem lhsB_0 (i : S256x100000.Idx) (q : dot_S256x128_S128x100000_S256x100000_1_0_0_1_n_n.contr.Idx) : (dot_S256x128_S128x100000_S256x100000_1_0_0_1_n_n.lhsIdx i q 0).val = (i 0).val := by
  unfold DotDims.lhsIdx
  rw [dif_neg (show ¬(0 : Fin S256x128.rank) ∈ dot_S256x128_S128x100000_S256x100000_1_0_0_1_n_n.lhsBatch from List.not_mem_nil), dif_pos (show (0 : Fin S256x128.rank) ∈ dot_S256x128_S128x100000_S256x100000_1_0_0_1_n_n.lhsNonContracting from List.mem_singleton.mpr rfl)]
  rfl
theorem lhsB_1 (i : S256x100000.Idx) (q : dot_S256x128_S128x100000_S256x100000_1_0_0_1_n_n.contr.Idx) : (dot_S256x128_S128x100000_S256x100000_1_0_0_1_n_n.lhsIdx i q 1).val = (q ⟨0, show 0 < dot_S256x128_S128x100000_S256x100000_1_0_0_1_n_n.contr.rank from Nat.one_pos⟩).val :=
  dot_S256x128_S128x100000_S256x100000_1_0_0_1_n_n.lhsIdx_val_of_single rfl i q
theorem rhsB_0 (i : S256x100000.Idx) (q : dot_S256x128_S128x100000_S256x100000_1_0_0_1_n_n.contr.Idx) : (dot_S256x128_S128x100000_S256x100000_1_0_0_1_n_n.rhsIdx i q 0).val = (q ⟨0, show 0 < dot_S256x128_S128x100000_S256x100000_1_0_0_1_n_n.contr.rank from Nat.one_pos⟩).val :=
  dot_S256x128_S128x100000_S256x100000_1_0_0_1_n_n.rhsIdx_val_of_single rfl i q
theorem rhsB_1 (i : S256x100000.Idx) (q : dot_S256x128_S128x100000_S256x100000_1_0_0_1_n_n.contr.Idx) : (dot_S256x128_S128x100000_S256x100000_1_0_0_1_n_n.rhsIdx i q 1).val = (i 1).val := by
  unfold DotDims.rhsIdx
  rw [dif_neg (show ¬(1 : Fin S128x100000.rank) ∈ dot_S256x128_S128x100000_S256x100000_1_0_0_1_n_n.rhsBatch from List.not_mem_nil), dif_pos (show (1 : Fin S128x100000.rank) ∈ dot_S256x128_S128x100000_S256x100000_1_0_0_1_n_n.rhsNonContracting from List.mem_singleton.mpr rfl)]
  rfl

/-- The contraction over the hidden axis: [256, 128] by [128, 100000]. -/
theorem dotB_apply (l : FVec Ideal S256x128 .f32) (r : FVec Ideal S128x100000 .f32) (b : Fin 256) (v : Fin 100000) :
    Host.dotGeneral dot_S256x128_S128x100000_S256x100000_1_0_0_1_n_n none l r (ix2 b v) = ∑ h : Fin 128, l (ix2 b h) * r (ix2 h v) := by
  simp only [Host.dotGeneral]
  rw [Ideal.dotGeneral_apply, ← Equiv.sum_comp (ValueIdx.contrEquiv1 dot_S256x128_S128x100000_S256x100000_1_0_0_1_n_n 128 rfl rfl).symm]
  refine Finset.sum_congr rfl fun k _ => ?_
  have hk := ValueIdx.contrEquiv1_symm_val dot_S256x128_S128x100000_S256x100000_1_0_0_1_n_n 128 rfl rfl k
  have el : dot_S256x128_S128x100000_S256x100000_1_0_0_1_n_n.lhsIdx (ix2 b v) ((ValueIdx.contrEquiv1 dot_S256x128_S128x100000_S256x100000_1_0_0_1_n_n 128 rfl rfl).symm k) = ix2 b k :=
    funext fun a => Fin.ext (by
      match a with
      | ⟨0, _⟩ => exact lhsB_0 _ _
      | ⟨1, _⟩ => exact (lhsB_1 _ _).trans hk)
  have er : dot_S256x128_S128x100000_S256x100000_1_0_0_1_n_n.rhsIdx (ix2 b v) ((ValueIdx.contrEquiv1 dot_S256x128_S128x100000_S256x100000_1_0_0_1_n_n 128 rfl rfl).symm k) = ix2 k v :=
    funext fun a => Fin.ext (by
      match a with
      | ⟨0, _⟩ => exact (rhsB_0 _ _).trans hk
      | ⟨1, _⟩ => exact rhsB_1 _ _)
  rw [el, er]

/-! ## The broadcasts -/

/-- A one-element vector laid out as [1, 1] and broadcast to [256, 128] reads its element everywhere. -/
theorem bcastScalar_apply (a : FVec Ideal S1 .f32) (b : Fin 256) (h : Fin 128) :
    broadcastInDim S256x128 ![0, 1] bcast_S1x1_S256x128_0_1 (broadcastInDim S1x1 ![1] bcast_S1_S1x1_1 a) (ix2 b h)
      = a (ix1 0) := by
  rw [broadcastInDim_apply ![0, 1] bcast_S1x1_S256x128_0_1 _ (ix2 b h) (ix2 (0 : Fin 1) (0 : Fin 1))
    (fun c => by match c with | ⟨0, _⟩ => rfl | ⟨1, _⟩ => rfl)]
  exact broadcastInDim_apply ![1] bcast_S1_S1x1_1 a (ix2 (0 : Fin 1) (0 : Fin 1)) (ix1 (0 : Fin 1))
    (fun c => by match c with | ⟨0, _⟩ => rfl)

/-- A row of 100000 laid out as [1, 100000] and broadcast down 256 rows reads, at (b, v), the row at v. -/
theorem bcastRow_apply (r : FVec Ideal S100000 .f32) (b : Fin 256) (v : Fin 100000) :
    broadcastInDim S256x100000 ![0, 1] bcast_S1x100000_S256x100000_0_1
        (broadcastInDim S1x100000 ![1] bcast_S100000_S1x100000_1 r) (ix2 b v) = r (ix1 v) := by
  rw [broadcastInDim_oneRow_apply bcast_S1x100000_S256x100000_0_1 _ b v]
  exact broadcastInDim_apply ![1] bcast_S100000_S1x100000_1 r (ix2 (0 : Fin 1) v) (ix1 v)
    (fun c => by match c with | ⟨0, _⟩ => rfl)

/-- A row laid out as [1, 100000] reads, at (0, v), the row at v. -/
theorem rowLayout_apply (r : FVec Ideal S100000 .f32) (v : Fin 100000) :
    broadcastInDim S1x100000 ![1] bcast_S100000_S1x100000_1 r (ix2 (0 : Fin 1) v) = r (ix1 v) :=
  broadcastInDim_apply ![1] bcast_S100000_S1x100000_1 r (ix2 (0 : Fin 1) v) (ix1 v)
    (fun c => by match c with | ⟨0, _⟩ => rfl)

/-! ## The column sum -/

/-- The column sums read at v: the sum over the 256 rows (the initial value zero dropped). -/
theorem colSum_apply (x : FVec Ideal S256x100000 .f32) (v : Fin 100000) :
    colSum x (ix1 v) = ∑ b : Fin 256, x (ix2 b v) := by
  unfold colSum
  rw [hostReduceAdd_apply, Ideal.hostReduceAdd_single reducesTo_S256x100000_S100000_d0 (by decide), constant_apply,
    Ideal.ofBits_zero_f32, zero_add]
  refine Finset.sum_congr rfl fun k _ => ?_
  exact congrArg x (funext fun a => Fin.ext (by match a with | ⟨0, _⟩ => rfl | ⟨1, _⟩ => rfl))

/-! ## The stages -/

theorem part1_apply (a0 : FVec Ideal S256x100000 .f32) (a1 : FVec Ideal S128x100000 .f32) (a5 : FVec Ideal S1 .f32)
    (b : Fin 256) (h : Fin 128) :
    part1 a0 a1 a5 (ix2 b h) = (∑ v : Fin 100000, a0 (ix2 b v) * a1 (ix2 h v)) * a5 (ix1 0) := by
  unfold part1
  rw [mulf_apply, dotA_apply, bcastScalar_apply]
  exact congrArg (· * a5 (ix1 0)) (Finset.sum_congr rfl fun v _ => by rw [transpose_ix2_apply])

theorem tblock_apply (p : FVec Ideal S256x128 .f32) (a2 : FVec Ideal S128x100000 .f32) (b : Fin 256) (v : Fin 100000) :
    tblock p a2 (ix2 b v) = ∑ h : Fin 128, p (ix2 b h) * a2 (ix2 h v) := by
  unfold tblock
  exact dotB_apply p a2 b v

theorem logits_apply (P : FVec Ideal S256x128 .f32) (a6 : FVec Ideal S1 .f32) (tb : FVec Ideal S256x100000 .f32)
    (a2 : FVec Ideal S128x100000 .f32) (b : Fin 256) (h : Fin 128) :
    logits P a6 tb a2 (ix2 b h) = P (ix2 b h) + a6 (ix1 0) * ∑ v : Fin 100000, tb (ix2 b v) * a2 (ix2 h v) := by
  unfold logits
  rw [addf_apply, mulf_apply, dotA_apply, bcastScalar_apply]
  exact congrArg (fun s => P (ix2 b h) + a6 (ix1 0) * s) (Finset.sum_congr rfl fun v _ => by rw [transpose_ix2_apply])

/-! ## The batch norm

The column sum `colS tb v`, the mean `meanS tb v` (the sum over the literal 256), the biased variance `varS tb v` (the
sum of the centred squares over the literal 256); the result is the centred element times the reciprocal square root
of the variance plus the literal epsilon, times the scale, plus the shift. The quotients are the ideal instance's
`Ideal.div`, the reciprocal square root its `Ideal.rsqrt`; the literals stay the patterns' values. -/

/-- The f32 pattern `0x43800000` is the extended real 256. -/
theorem ofBits_256_f32 : Ideal.ofBits .f32 0x43800000#32 = ((256 : ℝ) : EReal) := by
  simp [Ideal.ofBits, Ideal.ieee, -EReal.coe_mul]; norm_num

theorem ofBits_256_f32_pos : (0 : EReal) < Ideal.ofBits .f32 0x43800000#32 := by
  rw [ofBits_256_f32]; exact EReal.coe_pos.mpr (by norm_num)

/-- The column sum of `tb` at column v. -/
def colS (tb : FVec Ideal S256x100000 .f32) (v : Fin 100000) : EReal := ∑ b : Fin 256, tb (ix2 b v)
/-- The column mean: the column sum over 256. -/
def meanS (tb : FVec Ideal S256x100000 .f32) (v : Fin 100000) : EReal :=
  Ideal.div (colS tb v) (Ideal.ofBits .f32 0x43800000#32)
/-- The biased column variance: the sum of the centred squares over 256. -/
def varS (tb : FVec Ideal S256x100000 .f32) (v : Fin 100000) : EReal :=
  Ideal.div (∑ b : Fin 256, (tb (ix2 b v) - meanS tb v) * (tb (ix2 b v) - meanS tb v)) (Ideal.ofBits .f32 0x43800000#32)

theorem bnMean_apply (tb : FVec Ideal S256x100000 .f32) (v : Fin 100000) : bnMean tb (ix1 v) = meanS tb v := by
  unfold bnMean meanS colS
  rw [hostDivf_apply, colSum_apply, broadcastInDim_scalar_apply, constant_apply]

theorem varCentred_apply (tb : FVec Ideal S256x100000 .f32) (b : Fin 256) (v : Fin 100000) :
    varCentred tb (ix2 b v) = tb (ix2 b v) - meanS tb v := by
  unfold varCentred meanS colS
  rw [subf_apply, broadcastInDim_oneRow_apply, hostDivf_apply, rowLayout_apply, colSum_apply, broadcastInDim_scalar_apply,
    constant_apply]

/-- The variance's divisor is the literal 256: the integer zero converts to the float zero. -/
theorem varCount_apply : varCount ix0 = Ideal.ofBits .f32 0x43800000#32 := by
  unfold varCount
  rw [subf_apply, constant_apply, sitofp_apply, constantI_apply]
  show Ideal.ofBits .f32 0x43800000#32 - ((((0#32 : BitVec 32).toInt : ℤ) : ℝ) : EReal) = _
  simp

theorem bnVar_apply (tb : FVec Ideal S256x100000 .f32) (v : Fin 100000) : bnVar tb (ix1 v) = varS tb v := by
  unfold bnVar varS
  rw [select_apply, broadcastInDim_scalar_apply, cmpf_apply, varCount_apply, constant_apply, Ideal.ofBits_zero_f32,
    Ideal.cmpf_def]
  have h1 : Ideal.cmp .ogt (Ideal.ofBits .f32 0x43800000#32) 0 = 1#1 := by
    unfold Ideal.cmp; simp [ofBits_256_f32_pos]
  rw [h1, select_one, hostDivf_apply, colSum_apply, broadcastInDim_scalar_apply, varCount_apply]
  refine congrArg (Ideal.div · _) (Finset.sum_congr rfl fun b _ => ?_)
  rw [mulf_apply, varCentred_apply]

theorem bn_apply (tb : FVec Ideal S256x100000 .f32) (a3 a4 : FVec Ideal S100000 .f32) (b : Fin 256) (v : Fin 100000) :
    bn tb a3 a4 (ix2 b v)
      = (tb (ix2 b v) - meanS tb v) * Ideal.rsqrt (varS tb v + Ideal.ofBits .f32 0x3727C5AC#32) * a3 (ix1 v) + a4 (ix1 v) := by
  unfold bn
  rw [addf_apply, mulf_apply, mulf_apply, subf_apply, bcastRow_apply, bcastRow_apply, bcastRow_apply, bcastRow_apply,
    bnMean_apply]
  show _ * Ideal.rsqrt ((addf (bnVar tb) _) (ix1 v)) * _ + _ = _
  rw [addf_apply, bnVar_apply, broadcastInDim_scalar_apply, constant_apply]

end Cert.ReferenceIdeal.RefRun

end
-- ==== Proof.KI_Value.lean ====
/- The idealized kernel program's result, read at the exact instance (entries are extended reals): every intermediate
   buffer of the program is the reference's stage of the same arguments — the first contraction over the 49 tiles of the
   padded columns is the contraction over the 100000 columns (a padded column contributes 0 · 0), the later regions'
   accumulations likewise ((Σ p · 0) · 0 = 0), the host operations between them are the reference's own (one row softmax,
   identified as a whole and never opened), and the last region's tiles, column by column, are the reference's batch norm. -/
import proofs.«165993_j28200755266000_1_alg».proof.Proof.KI_VHost
import proofs.«165993_j28200755266000_1_alg».proof.Proof.KI_VBlk
import proofs.«165993_j28200755266000_1_alg».proof.Proof.PayBn
import proofs.«165993_j28200755266000_1_alg».proof.Proof.ValAcc
import proofs.«165993_j28200755266000_1_alg».proof.Proof.BrgPad
import proofs.«165993_j28200755266000_1_alg».proof.Proof.RefRead
import proofs.«165993_j28200755266000_1_alg».proof.Proof.Gen.ReferenceIdeal
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal.PayVal
open Cert.ReferenceIdeal.RefRun (part1 softmax tblock logits bn out part1_apply tblock_apply logits_apply bn_apply colS meanS varS)

variable (m : (ℓ : Loc nD τ sig) → Buf (Elt Ideal) ℓ) (c : Dev nD)

/-! ## The argument arrays -/

abbrev A0 : FVec Ideal S256x100000 .f32 := m ((c : Thread nD τ).loc main_arg0)
abbrev A1 : FVec Ideal S128x100000 .f32 := m ((c : Thread nD τ).loc main_arg1)
abbrev A2 : FVec Ideal S128x100000 .f32 := m ((c : Thread nD τ).loc main_arg2)
abbrev A3 : FVec Ideal S100000 .f32 := m ((c : Thread nD τ).loc main_arg3)
abbrev A4 : FVec Ideal S100000 .f32 := m ((c : Thread nD τ).loc main_arg4)
abbrev A5 : FVec Ideal S1 .f32 := m ((c : Thread nD τ).loc main_arg5)
abbrev A6 : FVec Ideal S1 .f32 := m ((c : Thread nD τ).loc main_arg6)

/-! ## The host operations both programs share, and the scalars -/

/-- The kernel program's host softmax is the reference's: the same operations in the same order. -/
theorem ksoftmax_eq (x : FVec Ideal S256x128 .f32) : ksoftmax (F := Ideal) x = softmax x := rfl

theorem bcastS_apply (s : FVec Ideal S_ .f32) (i : S256x128.Idx) :
    (broadcastInDim S256x128 ![] bcast_S_S256x128 s : FVec Ideal S256x128 .f32) i = s ix0 :=
  broadcastInDim_apply _ _ s i ix0 (fun a => a.elim0)
theorem kmul_apply (r : FVec Ideal S256x128 .f32) (s : FVec Ideal S_ .f32) (i : S256x128.Idx) :
    kmul (F := Ideal) r s i = r i * s ix0 := by
  unfold kmul; rw [mulf_apply, bcastS_apply]
theorem klogits_apply (P : FVec Ideal S256x128 .f32) (s : FVec Ideal S_ .f32) (r : FVec Ideal S256x128 .f32) (i : S256x128.Idx) :
    klogits (F := Ideal) P s r i = P i + s ix0 * r i := by
  unfold klogits; rw [addf_apply, mulf_apply, bcastS_apply]

/-! ## What the regions' entry contents hold of the prefix -/

theorem U13_v2 : W13 m c (Proc.devRef .tc main_v2) = padW (A2 m c) :=
  (kept13 m c main_v2 (by decide) (by decide)).trans (W11_v2 m c)
/-- An input window's array leaves its region as it entered. -/
theorem W14_v2 : W14 m c (Proc.devRef .tc main_v2) = W13 m c (Proc.devRef .tc main_v2) :=
  (W14_arr m c 1).trans (((dat1 (U13 m) c).arrAt_in 1 rfl _).trans (A_eq1 (U13 m) c 1))
theorem W16_v2 : W16 m c (Proc.devRef .tc main_v2) = W15 m c (Proc.devRef .tc main_v2) :=
  (W16_arr m c 1).trans (((dat2 (U15 m) c).arrAt_in 1 rfl _).trans (A_eq2 (U15 m) c 1))
theorem U15_v2 : W15 m c (Proc.devRef .tc main_v2) = padW (A2 m c) :=
  (K15 m c main_v2 (by decide)).trans ((W14_v2 m c).trans (U13_v2 m c))
theorem U17_v2 : W17 m c (Proc.devRef .tc main_v2) = padW (A2 m c) :=
  (K17 m c main_v2 (by decide)).trans ((W16_v2 m c).trans (U15_v2 m c))
theorem U17_v4 : W17 m c (Proc.devRef .tc main_v4) = padRow (A3 m c) :=
  (kept17 m c main_v4 (by decide) (by decide) (by decide) (by decide) (by decide) (by decide)).trans (W11_v4 m c)
theorem U17_v6 : W17 m c (Proc.devRef .tc main_v6) = padRow (A4 m c) :=
  (kept17 m c main_v6 (by decide) (by decide) (by decide) (by decide) (by decide) (by decide)).trans (W11_v6 m c)
theorem U12_v7 : W12 m c (Proc.devRef .tc main_v7) = scal (A5 m c) :=
  (W12_of_ne m c main_v7 (by decide)).trans (W11_v7 m c)
theorem U14_v8 : W14 m c (Proc.devRef .tc main_v8) = scal (A6 m c) :=
  (W14_of_ne m c main_v8 (by decide)).trans ((kept13 m c main_v8 (by decide) (by decide)).trans (W11_v8 m c))
theorem U16_v8 : W16 m c (Proc.devRef .tc main_v8) = scal (A6 m c) :=
  (W16_of_ne m c main_v8 (by decide)).trans ((kept15 m c main_v8 (by decide) (by decide) (by decide) (by decide)).trans (W11_v8 m c))
theorem U14_v11 : W14 m c (Proc.devRef .tc main_v11) = W13 m c (Proc.devRef .tc main_v11) :=
  W14_of_ne m c main_v11 (by decide)
theorem U16_v11 : W16 m c (Proc.devRef .tc main_v11) = W13 m c (Proc.devRef .tc main_v11) :=
  (W16_of_ne m c main_v11 (by decide)).trans ((K15 m c main_v11 (by decide)).trans (W14_of_ne m c main_v11 (by decide)))

open Cert.KernelIdeal.Brg

/-! ## The buffers the stages are read from, at their literal types -/

abbrev B9 : FVec Ideal S256x128 .f32 := W12 m c (Proc.devRef .tc main_v9)
abbrev B11 : FVec Ideal S256x128 .f32 := W13 m c (Proc.devRef .tc main_v11)
abbrev B22 : FVec Ideal S256x128 .f32 := W13 m c (Proc.devRef .tc main_v22)
abbrev B23 : FVec Ideal S256x128 .f32 := W14 m c (Proc.devRef .tc main_v23)
abbrev B26 : FVec Ideal S256x128 .f32 := W15 m c (Proc.devRef .tc main_v26)
abbrev B37 : FVec Ideal S256x128 .f32 := W15 m c (Proc.devRef .tc main_v37)
abbrev B38 : FVec Ideal S256x128 .f32 := W16 m c (Proc.devRef .tc main_v38)
abbrev B41 : FVec Ideal S256x128 .f32 := W17 m c (Proc.devRef .tc main_v41)
abbrev B52 : FVec Ideal S256x128 .f32 := W17 m c (Proc.devRef .tc main_v52)
abbrev B54 : FVec Ideal S256x100000 .f32 := W19 m c (Proc.devRef .tc main_v54)

/-- The reference's stages of the argument arrays. -/
abbrev RP : FVec Ideal S256x128 .f32 := part1 (A0 m c) (A1 m c) (A5 m c)
abbrev Rp0 : FVec Ideal S256x128 .f32 := softmax (RP m c)
abbrev RL1 : FVec Ideal S256x128 .f32 := logits (RP m c) (A6 m c) (tblock (Rp0 m c) (A2 m c)) (A2 m c)
abbrev Rp1 : FVec Ideal S256x128 .f32 := softmax (RL1 m c)
abbrev RL2 : FVec Ideal S256x128 .f32 := logits (RP m c) (A6 m c) (tblock (Rp1 m c) (A2 m c)) (A2 m c)
abbrev Rp2 : FVec Ideal S256x128 .f32 := softmax (RL2 m c)

/-! ## The regions' outputs, index by index, as functions of the argument arrays -/

/-- Region 0's output: the contraction of the two padded arguments over the 49 tiles is the contraction over the 100000 columns. -/
theorem r0_apply (b : Fin 256) (h : Fin 128) :
    B9 m c (ix2 b h) = ∑ v : Fin 100000, A0 m c (ix2 b v) * A1 m c (ix2 h v) := by
  have e : B9 m c = (outsAt0 (U11 m) c 48 tl0.isLt).1 := (W12_arr m c 2).trans (final0 (U11 m) c)
  rw [e, acc0_last (U11 m) c tl0.isLt b h, ← bridge0 (A0 m c) (A1 m c) b h]
  refine Finset.sum_congr rfl fun t _ => Finset.sum_congr rfl fun j _ => ?_
  refine congrArg₂ _ ?_ ?_
  · exact (iblk0_0_apply (U11 m) c _ (ix2 b j) _ rfl rfl).trans (congrFun (W11_v0 m c) _)
  · exact (iblk0_1_apply (U11 m) c _ (ix2 h j) _ rfl rfl).trans (congrFun (W11_v1 m c) _)

/-- Region 1's output from the probabilities it is handed. -/
theorem r1_apply (b : Fin 256) (h' : Fin 128) :
    B23 m c (ix2 b h') = ∑ v : Fin 100000, (∑ h : Fin 128, B22 m c (ix2 b h) * A2 m c (ix2 h v)) * A2 m c (ix2 h' v) := by
  have e : B23 m c = (outsAt1 (U13 m) c 48 tl1.isLt).1 := (W14_arr m c 2).trans (final1 (U13 m) c)
  rw [e, acc1_last (U13 m) c tl1.isLt b h', ← bridge1 (B22 m c) (A2 m c) b h']
  refine Finset.sum_congr rfl fun t _ => Finset.sum_congr rfl fun j _ => ?_
  refine congrArg₂ _ (Finset.sum_congr rfl fun h _ => congrArg₂ _ ?_ ?_) ?_
  · exact iblk1_0_apply (U13 m) c _ (ix2 b h) (ix2 b h) rfl rfl
  · exact (iblk1_1_apply (U13 m) c _ (ix2 h j) _ rfl rfl).trans (congrFun (U13_v2 m c) _)
  · exact (iblk1_1_apply (U13 m) c _ (ix2 h' j) _ rfl rfl).trans (congrFun (U13_v2 m c) _)

/-- Region 2's output from the probabilities it is handed. -/
theorem r2_apply (b : Fin 256) (h' : Fin 128) :
    B38 m c (ix2 b h') = ∑ v : Fin 100000, (∑ h : Fin 128, B37 m c (ix2 b h) * A2 m c (ix2 h v)) * A2 m c (ix2 h' v) := by
  have e : B38 m c = (outsAt2 (U15 m) c 48 tl2.isLt).1 := (W16_arr m c 2).trans (final2 (U15 m) c)
  rw [e, acc2_last (U15 m) c tl2.isLt b h', ← bridge1 (B37 m c) (A2 m c) b h']
  refine Finset.sum_congr rfl fun t _ => Finset.sum_congr rfl fun j _ => ?_
  refine congrArg₂ _ (Finset.sum_congr rfl fun h _ => congrArg₂ _ ?_ ?_) ?_
  · exact iblk2_0_apply (U15 m) c _ (ix2 b h) (ix2 b h) rfl rfl
  · exact (iblk2_1_apply (U15 m) c _ (ix2 h j) _ rfl rfl).trans (congrFun (U15_v2 m c) _)
  · exact (iblk2_1_apply (U15 m) c _ (ix2 h' j) _ rfl rfl).trans (congrFun (U15_v2 m c) _)

/-! ## The kernel program's intermediate buffers are the reference's stages -/

/-- The layer-independent logits. -/
theorem v11_eq : B11 m c = RP m c := by
  funext i
  obtain ⟨b, h, rfl⟩ : ∃ (b : Fin 256) (h : Fin 128), i = ix2 b h := ⟨i 0, i 1, eq_ix2 i⟩
  refine (congrFun (W13_v11 m c) (ix2 b h)).trans ?_
  refine (kmul_apply (B9 m c) (W12 m c (Proc.devRef .tc main_v7)) (ix2 b h)).trans ?_
  refine Eq.trans ?_ (part1_apply (A0 m c) (A1 m c) (A5 m c) b h).symm
  rw [r0_apply, U12_v7, scal_apply]

/-- The first layer's probabilities. -/
theorem v22_eq : B22 m c = Rp0 m c :=
  (W13_v22 m c).trans ((ksoftmax_eq _).trans (congrArg softmax (v11_eq m c)))

/-- A later layer's logits, from the layer before's probabilities. -/
theorem logits_bridge (p : FVec Ideal S256x128 .f32) (r : FVec Ideal S256x128 .f32)
    (hr : ∀ (b : Fin 256) (h' : Fin 128), r (ix2 b h') = ∑ v : Fin 100000, (∑ h : Fin 128, p (ix2 b h) * A2 m c (ix2 h v)) * A2 m c (ix2 h' v)) :
    klogits (F := Ideal) (RP m c) (scal (A6 m c)) r = logits (RP m c) (A6 m c) (tblock p (A2 m c)) (A2 m c) := by
  funext i
  obtain ⟨b, h, rfl⟩ : ∃ (b : Fin 256) (h : Fin 128), i = ix2 b h := ⟨i 0, i 1, eq_ix2 i⟩
  rw [klogits_apply, logits_apply, scal_apply, hr]
  refine congrArg (fun s => RP m c (ix2 b h) + A6 m c (ix1 0) * s) (Finset.sum_congr rfl fun v _ => ?_)
  rw [tblock_apply]

/-- The second layer's logits. -/
theorem v26_eq : B26 m c = RL1 m c := by
  refine (W15_v26 m c).trans ?_
  rw [U14_v11, U14_v8]
  refine (congrArg (fun P => klogits (F := Ideal) P (scal (A6 m c)) (B23 m c)) (v11_eq m c)).trans ?_
  refine (logits_bridge m c (B22 m c) (B23 m c) (r1_apply m c)).trans ?_
  rw [v22_eq]

/-- The second layer's probabilities. -/
theorem v37_eq : B37 m c = Rp1 m c :=
  (W15_v37 m c).trans ((ksoftmax_eq _).trans (congrArg softmax (v26_eq m c)))

/-- The third layer's logits. -/
theorem v41_eq : B41 m c = RL2 m c := by
  refine (W17_v41 m c).trans ?_
  rw [U16_v11, U16_v8]
  refine (congrArg (fun P => klogits (F := Ideal) P (scal (A6 m c)) (B38 m c)) (v11_eq m c)).trans ?_
  refine (logits_bridge m c (B37 m c) (B38 m c) (r2_apply m c)).trans ?_
  rw [v37_eq]

/-- The third layer's probabilities. -/
theorem v52_eq : B52 m c = Rp2 m c :=
  (W17_v52 m c).trans ((ksoftmax_eq _).trans (congrArg softmax (v41_eq m c)))

/-! ## The last region and the result -/

/-- The result at a column below 100000: the batch norm of that column of the last layer's block, with the column's scale and shift. -/
theorem r3_apply (b : Fin 256) (v : Fin 100000) :
    B54 m c (ix2 b v)
      = bnCol (fun b' => ∑ h : Fin 128, B52 m c (ix2 b' h) * A2 m c (ix2 h v)) (A3 m c (ix1 v)) (A4 m c (ix1 v)) b := by
  have hv : v.val < 100352 := by have := v.isLt; omega
  have hj : v.val % 2048 < 2048 := Nat.mod_lt _ (by decide)
  have ht : v.val / 2048 < cfg3.N := by rw [show cfg3.N = 49 from N_3]; have := v.isLt; omega
  have hk : (⟨v.val, hv⟩ : Fin 100352).val = 2048 * (v.val / 2048) + v.val % 2048 := by show v.val = _; omega
  refine (congrFun (W19_v54 m c) (ix2 b v)).trans ?_
  refine (extractStridedSlice_apply _ _ _ (ix2 b v) (ix2 b ⟨v.val, hv⟩) (fun a => by
    match a with
    | ⟨0, _⟩ => show b.val = 0 + b.val; omega
    | ⟨1, _⟩ => show v.val = 0 + v.val; omega)).trans ?_
  have e : W18 m c (Proc.devRef .tc main_v53) = res3 (U17 m) c := (W18_arr m c 4).trans (final3 (U17 m) c)
  refine (congrFun e (ix2 b ⟨v.val, hv⟩)).trans ?_
  refine (res3_apply (U17 m) c ⟨v.val / 2048, ht⟩ (ix2 b ⟨v.val % 2048, hj⟩) (ix2 b ⟨v.val, hv⟩) rfl hk).trans ?_
  unfold o3
  refine (k3_pay1_apply (iblk3 (U17 m) c 0 ⟨v.val / 2048, ht⟩) (iblk3 (U17 m) c 1 ⟨v.val / 2048, ht⟩)
    (iblk3 (U17 m) c 2 ⟨v.val / 2048, ht⟩) (iblk3 (U17 m) c 3 ⟨v.val / 2048, ht⟩) b ⟨v.val % 2048, hj⟩).trans ?_
  have e3 := ((iblk3_2_apply (U17 m) c ⟨v.val / 2048, ht⟩ (ix2 (0 : Fin 1) ⟨v.val % 2048, hj⟩) (ix2 (0 : Fin 1) ⟨v.val, hv⟩) rfl hk).trans
    (congrFun (U17_v4 m c) _)).trans (padRow_lt (A3 m c) ⟨v.val, hv⟩ v.isLt)
  have e4 := ((iblk3_3_apply (U17 m) c ⟨v.val / 2048, ht⟩ (ix2 (0 : Fin 1) ⟨v.val % 2048, hj⟩) (ix2 (0 : Fin 1) ⟨v.val, hv⟩) rfl hk).trans
    (congrFun (U17_v6 m c) _)).trans (padRow_lt (A4 m c) ⟨v.val, hv⟩ v.isLt)
  refine (congrArg₂ (fun g be => bnCol _ g be b) e3 e4).trans ?_
  refine congrArg (fun f => bnCol f (A3 m c (ix1 v)) (A4 m c (ix1 v)) b) (funext fun b' => Finset.sum_congr rfl fun h _ => ?_)
  refine congrArg₂ _ ?_ ?_
  · exact iblk3_0_apply (U17 m) c _ (ix2 b' h) (ix2 b' h) rfl rfl
  · exact ((iblk3_1_apply (U17 m) c ⟨v.val / 2048, ht⟩ (ix2 h ⟨v.val % 2048, hj⟩) (ix2 h ⟨v.val, hv⟩) rfl hk).trans
      (congrFun (U17_v2 m c) _)).trans (padW_lt (A2 m c) h ⟨v.val, hv⟩ v.isLt)

/-- The kernel program's result is the reference's batch norm of the last layer's block. -/
theorem v54_eq : B54 m c = bn (tblock (Rp2 m c) (A2 m c)) (A3 m c) (A4 m c) := by
  funext i
  obtain ⟨b, v, rfl⟩ : ∃ (b : Fin 256) (v : Fin 100000), i = ix2 b v := ⟨i 0, i 1, eq_ix2 i⟩
  refine (r3_apply m c b v).trans ?_
  refine Eq.trans ?_ (bn_apply (tblock (Rp2 m c) (A2 m c)) (A3 m c) (A4 m c) b v).symm
  rw [v52_eq]
  simp only [bnCol, colMean, colVar, meanS, varS, colS, tblock_apply]

/-- THE VALUE: on every core the kernel program's result buffer ends holding the reference's result term of the same arguments. -/
theorem kernel_value : W19 m c (Proc.devRef .tc main_v54)
    = out (A0 m c) (A1 m c) (A2 m c) (A3 m c) (A4 m c) (A5 m c) (A6 m c) :=
  (v54_eq m c).trans rfl

end Cert.KernelIdeal.Hand

end
-- ==== Proof.RefRunOps.lean ====
/-
  The reference's @main as a list of its 108 host operations, the two outlined functions (the variance and
  the select inside it) listed inline at their call over the call's own buffers; the list cut into the ten
  stretches that compute one stage each. `main_eq`: @main is the straight line of that list.
-/
import proofs.«165993_j28200755266000_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The layer-independent logits `main_v4` (and the unused zero block). -/
abbrev opsP1 : List (HloOp τ sig (Elt F)) :=
  [ unary main_arg1 main_v0 ((transpose S100000x128 [1, 0] · transposes_S128x100000_S100000x128_1_0) : (⟨S128x100000, .f32⟩ : BufTy).Contents (Elt F) → (⟨S100000x128, .f32⟩ : BufTy).Contents (Elt F)),
    binary main_arg0 main_v0 main_v1 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg5 main_v2 (broadcastInDim S1x1 ![1] bcast_S1_S1x1_1 : (⟨S1, .f32⟩ : BufTy).Contents (Elt F) → (⟨S1x1, .f32⟩ : BufTy).Contents (Elt F)),
    unary main_v2 main_v3 (broadcastInDim S256x128 ![0, 1] bcast_S1x1_S256x128_0_1 : (⟨S1x1, .f32⟩ : BufTy).Contents (Elt F) → (⟨S256x128, .f32⟩ : BufTy).Contents (Elt F)),
    binary main_v1 main_v3 main_v4 (mulf : (⟨S256x128, .f32⟩ : BufTy).Contents (Elt F) → (⟨S256x128, .f32⟩ : BufTy).Contents (Elt F) → (⟨S256x128, .f32⟩ : BufTy).Contents (Elt F)),
    nullary main_cst (constant S_ .f32 0x00000000#32),
    unary main_cst main_v5 (broadcastInDim S256x100000 ![] bcast_S_S256x100000 : (⟨S_, .f32⟩ : BufTy).Contents (Elt F) → (⟨S256x100000, .f32⟩ : BufTy).Contents (Elt F)) ]

/-- The first layer's softmax: `main_v4 ↦ main_v16`. -/
abbrev opsS1 : List (HloOp τ sig (Elt F)) :=
  [ nullary main_cst_0 (constant S_ .f32 0xFF800000#32),
    binary main_v4 main_cst_0 main_v6 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_1 (constant S_ .f32 0xFF800000#32),
    unary main_cst_1 main_v7 (broadcastInDim S256 ![] bcast_S_S256 : (⟨S_, .f32⟩ : BufTy).Contents (Elt F) → (⟨S256, .f32⟩ : BufTy).Contents (Elt F)),
    binary main_v7 main_v6 main_v8 (maximumf : (⟨S256, .f32⟩ : BufTy).Contents (Elt F) → (⟨S256, .f32⟩ : BufTy).Contents (Elt F) → (⟨S256, .f32⟩ : BufTy).Contents (Elt F)),
    unary main_v8 main_v9 (broadcastInDim S256x1 ![0] bcast_S256_S256x1_0 : (⟨S256, .f32⟩ : BufTy).Contents (Elt F) → (⟨S256x1, .f32⟩ : BufTy).Contents (Elt F)),
    unary main_v9 main_v10 (broadcastInDim S256x128 ![0, 1] bcast_S256x1_S256x128_0_1 : (⟨S256x1, .f32⟩ : BufTy).Contents (Elt F) → (⟨S256x128, .f32⟩ : BufTy).Contents (Elt F)),
    binary main_v4 main_v10 main_v11 (subf : (⟨S256x128, .f32⟩ : BufTy).Contents (Elt F) → (⟨S256x128, .f32⟩ : BufTy).Contents (Elt F) → (⟨S256x128, .f32⟩ : BufTy).Contents (Elt F)),
    unary main_v11 main_v12 (Host.exp : (⟨S256x128, .f32⟩ : BufTy).Contents (Elt F) → (⟨S256x128, .f32⟩ : BufTy).Contents (Elt F)),
    nullary main_cst_2 (constant S_ .f32 0x00000000#32),
    binary main_v12 main_cst_2 main_v13 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v13 main_v14 (broadcastInDim S256x1 ![0] bcast_S256_S256x1_0 : (⟨S256, .f32⟩ : BufTy).Contents (Elt F) → (⟨S256x1, .f32⟩ : BufTy).Contents (Elt F)),
    unary main_v14 main_v15 (broadcastInDim S256x128 ![0, 1] bcast_S256x1_S256x128_0_1 : (⟨S256x1, .f32⟩ : BufTy).Contents (Elt F) → (⟨S256x128, .f32⟩ : BufTy).Contents (Elt F)),
    binary main_v12 main_v15 main_v16 (Host.divf : (⟨S256x128, .f32⟩ : BufTy).Contents (Elt F) → (⟨S256x128, .f32⟩ : BufTy).Contents (Elt F) → (⟨S256x128, .f32⟩ : BufTy).Contents (Elt F)) ]

/-- The first layer's retrieved block `main_v17`. -/
abbrev opsT1 : List (HloOp τ sig (Elt F)) :=
  [ binary main_v16 main_arg2 main_v17 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)) ]

/-- The second layer's logits `main_v23`. -/
abbrev opsL2 : List (HloOp τ sig (Elt F)) :=
  [ unary main_arg2 main_v18 ((transpose S100000x128 [1, 0] · transposes_S128x100000_S100000x128_1_0) : (⟨S128x100000, .f32⟩ : BufTy).Contents (Elt F) → (⟨S100000x128, .f32⟩ : BufTy).Contents (Elt F)),
    binary main_v17 main_v18 main_v19 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg6 main_v20 (broadcastInDim S1x1 ![1] bcast_S1_S1x1_1 : (⟨S1, .f32⟩ : BufTy).Contents (Elt F) → (⟨S1x1, .f32⟩ : BufTy).Contents (Elt F)),
    unary main_v20 main_v21 (broadcastInDim S256x128 ![0, 1] bcast_S1x1_S256x128_0_1 : (⟨S1x1, .f32⟩ : BufTy).Contents (Elt F) → (⟨S256x128, .f32⟩ : BufTy).Contents (Elt F)),
    binary main_v21 main_v19 main_v22 (mulf : (⟨S256x128, .f32⟩ : BufTy).Contents (Elt F) → (⟨S256x128, .f32⟩ : BufTy).Contents (Elt F) → (⟨S256x128, .f32⟩ : BufTy).Contents (Elt F)),
    binary main_v4 main_v22 main_v23 (addf : (⟨S256x128, .f32⟩ : BufTy).Contents (Elt F) → (⟨S256x128, .f32⟩ : BufTy).Contents (Elt F) → (⟨S256x128, .f32⟩ : BufTy).Contents (Elt F)) ]

/-- The second layer's softmax: `main_v23 ↦ main_v34`. -/
abbrev opsS2 : List (HloOp τ sig (Elt F)) :=
  [ nullary main_cst_3 (constant S_ .f32 0xFF800000#32),
    binary main_v23 main_cst_3 main_v24 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_4 (constant S_ .f32 0xFF800000#32),
    unary main_cst_4 main_v25 (broadcastInDim S256 ![] bcast_S_S256 : (⟨S_, .f32⟩ : BufTy).Contents (Elt F) → (⟨S256, .f32⟩ : BufTy).Contents (Elt F)),
    binary main_v25 main_v24 main_v26 (maximumf : (⟨S256, .f32⟩ : BufTy).Contents (Elt F) → (⟨S256, .f32⟩ : BufTy).Contents (Elt F) → (⟨S256, .f32⟩ : BufTy).Contents (Elt F)),
    unary main_v26 main_v27 (broadcastInDim S256x1 ![0] bcast_S256_S256x1_0 : (⟨S256, .f32⟩ : BufTy).Contents (Elt F) → (⟨S256x1, .f32⟩ : BufTy).Contents (Elt F)),
    unary main_v27 main_v28 (broadcastInDim S256x128 ![0, 1] bcast_S256x1_S256x128_0_1 : (⟨S256x1, .f32⟩ : BufTy).Contents (Elt F) → (⟨S256x128, .f32⟩ : BufTy).Contents (Elt F)),
    binary main_v23 main_v28 main_v29 (subf : (⟨S256x128, .f32⟩ : BufTy).Contents (Elt F) → (⟨S256x128, .f32⟩ : BufTy).Contents (Elt F) → (⟨S256x128, .f32⟩ : BufTy).Contents (Elt F)),
    unary main_v29 main_v30 (Host.exp : (⟨S256x128, .f32⟩ : BufTy).Contents (Elt F) → (⟨S256x128, .f32⟩ : BufTy).Contents (Elt F)),
    nullary main_cst_5 (constant S_ .f32 0x00000000#32),
    binary main_v30 main_cst_5 main_v31 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v31 main_v32 (broadcastInDim S256x1 ![0] bcast_S256_S256x1_0 : (⟨S256, .f32⟩ : BufTy).Contents (Elt F) → (⟨S256x1, .f32⟩ : BufTy).Contents (Elt F)),
    unary main_v32 main_v33 (broadcastInDim S256x128 ![0, 1] bcast_S256x1_S256x128_0_1 : (⟨S256x1, .f32⟩ : BufTy).Contents (Elt F) → (⟨S256x128, .f32⟩ : BufTy).Contents (Elt F)),
    binary main_v30 main_v33 main_v34 (Host.divf : (⟨S256x128, .f32⟩ : BufTy).Contents (Elt F) → (⟨S256x128, .f32⟩ : BufTy).Contents (Elt F) → (⟨S256x128, .f32⟩ : BufTy).Contents (Elt F)) ]

/-- The second layer's retrieved block `main_v35`. -/
abbrev opsT2 : List (HloOp τ sig (Elt F)) :=
  [ binary main_v34 main_arg2 main_v35 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)) ]

/-- The third layer's logits `main_v41`. -/
abbrev opsL3 : List (HloOp τ sig (Elt F)) :=
  [ unary main_arg2 main_v36 ((transpose S100000x128 [1, 0] · transposes_S128x100000_S100000x128_1_0) : (⟨S128x100000, .f32⟩ : BufTy).Contents (Elt F) → (⟨S100000x128, .f32⟩ : BufTy).Contents (Elt F)),
    binary main_v35 main_v36 main_v37 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg6 main_v38 (broadcastInDim S1x1 ![1] bcast_S1_S1x1_1 : (⟨S1, .f32⟩ : BufTy).Contents (Elt F) → (⟨S1x1, .f32⟩ : BufTy).Contents (Elt F)),
    unary main_v38 main_v39 (broadcastInDim S256x128 ![0, 1] bcast_S1x1_S256x128_0_1 : (⟨S1x1, .f32⟩ : BufTy).Contents (Elt F) → (⟨S256x128, .f32⟩ : BufTy).Contents (Elt F)),
    binary main_v39 main_v37 main_v40 (mulf : (⟨S256x128, .f32⟩ : BufTy).Contents (Elt F) → (⟨S256x128, .f32⟩ : BufTy).Contents (Elt F) → (⟨S256x128, .f32⟩ : BufTy).Contents (Elt F)),
    binary main_v4 main_v40 main_v41 (addf : (⟨S256x128, .f32⟩ : BufTy).Contents (Elt F) → (⟨S256x128, .f32⟩ : BufTy).Contents (Elt F) → (⟨S256x128, .f32⟩ : BufTy).Contents (Elt F)) ]

/-- The third layer's softmax: `main_v41 ↦ main_v52`. -/
abbrev opsS3 : List (HloOp τ sig (Elt F)) :=
  [ nullary main_cst_6 (constant S_ .f32 0xFF800000#32),
    binary main_v41 main_cst_6 main_v42 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_7 (constant S_ .f32 0xFF800000#32),
    unary main_cst_7 main_v43 (broadcastInDim S256 ![] bcast_S_S256 : (⟨S_, .f32⟩ : BufTy).Contents (Elt F) → (⟨S256, .f32⟩ : BufTy).Contents (Elt F)),
    binary main_v43 main_v42 main_v44 (maximumf : (⟨S256, .f32⟩ : BufTy).Contents (Elt F) → (⟨S256, .f32⟩ : BufTy).Contents (Elt F) → (⟨S256, .f32⟩ : BufTy).Contents (Elt F)),
    unary main_v44 main_v45 (broadcastInDim S256x1 ![0] bcast_S256_S256x1_0 : (⟨S256, .f32⟩ : BufTy).Contents (Elt F) → (⟨S256x1, .f32⟩ : BufTy).Contents (Elt F)),
    unary main_v45 main_v46 (broadcastInDim S256x128 ![0, 1] bcast_S256x1_S256x128_0_1 : (⟨S256x1, .f32⟩ : BufTy).Contents (Elt F) → (⟨S256x128, .f32⟩ : BufTy).Contents (Elt F)),
    binary main_v41 main_v46 main_v47 (subf : (⟨S256x128, .f32⟩ : BufTy).Contents (Elt F) → (⟨S256x128, .f32⟩ : BufTy).Contents (Elt F) → (⟨S256x128, .f32⟩ : BufTy).Contents (Elt F)),
    unary main_v47 main_v48 (Host.exp : (⟨S256x128, .f32⟩ : BufTy).Contents (Elt F) → (⟨S256x128, .f32⟩ : BufTy).Contents (Elt F)),
    nullary main_cst_8 (constant S_ .f32 0x00000000#32),
    binary main_v48 main_cst_8 main_v49 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v49 main_v50 (broadcastInDim S256x1 ![0] bcast_S256_S256x1_0 : (⟨S256, .f32⟩ : BufTy).Contents (Elt F) → (⟨S256x1, .f32⟩ : BufTy).Contents (Elt F)),
    unary main_v50 main_v51 (broadcastInDim S256x128 ![0, 1] bcast_S256x1_S256x128_0_1 : (⟨S256x1, .f32⟩ : BufTy).Contents (Elt F) → (⟨S256x128, .f32⟩ : BufTy).Contents (Elt F)),
    binary main_v48 main_v51 main_v52 (Host.divf : (⟨S256x128, .f32⟩ : BufTy).Contents (Elt F) → (⟨S256x128, .f32⟩ : BufTy).Contents (Elt F) → (⟨S256x128, .f32⟩ : BufTy).Contents (Elt F)) ]

/-- The third layer's retrieved block `main_v53`. -/
abbrev opsT3 : List (HloOp τ sig (Elt F)) :=
  [ binary main_v52 main_arg2 main_v53 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)) ]

/-- The batch norm: the mean, the variance (its outlined function inline, the select inside it too), the result `main_v72`. -/
abbrev opsBN : List (HloOp τ sig (Elt F)) :=
  [ nullary main_cst_9 (constant S_ .f32 0x00000000#32),
    binary main_v53 main_cst_9 main_v54 ((fun x v => Host.reduceAdd x v reducesTo_S256x100000_S100000_d0 h_S_) : (⟨S256x100000, .f32⟩ : BufTy).Contents (Elt F) → (⟨S_, .f32⟩ : BufTy).Contents (Elt F) → (⟨S100000, .f32⟩ : BufTy).Contents (Elt F)),
    nullary main_cst_10 (constant S_ .f32 0x43800000#32),
    unary main_cst_10 main_v55 (broadcastInDim S100000 ![] bcast_S_S100000 : (⟨S_, .f32⟩ : BufTy).Contents (Elt F) → (⟨S100000, .f32⟩ : BufTy).Contents (Elt F)),
    binary main_v54 main_v55 main_v56 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    TRef.nullary main_call0.cst (constant S_ .f32 0x00000000#32),
    TRef.binary (.of main_v53) main_call0.cst main_call0.v0 (fun x v => Host.reduceAdd x v reducesTo_S256x100000_S100000_d0 h_S_),
    TRef.unary main_call0.v0 main_call0.v1 (broadcastInDim S1x100000 ![1] bcast_S100000_S1x100000_1),
    TRef.nullary main_call0.cst_0 (constant S_ .f32 0x43800000#32),
    TRef.unary main_call0.cst_0 main_call0.v2 (broadcastInDim S1x100000 ![] bcast_S_S1x100000),
    TRef.binary main_call0.v1 main_call0.v2 main_call0.v3 Host.divf,
    TRef.unary main_call0.v3 main_call0.v4 (broadcastInDim S256x100000 ![0, 1] bcast_S1x100000_S256x100000_0_1),
    TRef.binary (.of main_v53) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S256x100000_S100000_d0 h_S_),
    TRef.unary main_call0.v8 main_call0.v10 (broadcastInDim S100000 ![] bcast_S_S100000),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S100000 ![] bcast_S_S100000),
    TRef.ternary main_call0.v12 main_call0.v11 main_call0.call0.v1 main_call0.call0.v2 (fun p a b => select (broadcastInDim S100000 ![] bcast_S_S100000 p) a b),
    unary main_v56 main_v58 (broadcastInDim S1x100000 ![1] bcast_S100000_S1x100000_1 : (⟨S100000, .f32⟩ : BufTy).Contents (Elt F) → (⟨S1x100000, .f32⟩ : BufTy).Contents (Elt F)),
    unary main_v58 main_v59 (broadcastInDim S256x100000 ![0, 1] bcast_S1x100000_S256x100000_0_1 : (⟨S1x100000, .f32⟩ : BufTy).Contents (Elt F) → (⟨S256x100000, .f32⟩ : BufTy).Contents (Elt F)),
    binary main_v53 main_v59 main_v60 (subf : (⟨S256x100000, .f32⟩ : BufTy).Contents (Elt F) → (⟨S256x100000, .f32⟩ : BufTy).Contents (Elt F) → (⟨S256x100000, .f32⟩ : BufTy).Contents (Elt F)),
    nullary main_cst_11 (constant S_ .f32 0x3727C5AC#32),
    unary main_cst_11 main_v61 (broadcastInDim S100000 ![] bcast_S_S100000 : (⟨S_, .f32⟩ : BufTy).Contents (Elt F) → (⟨S100000, .f32⟩ : BufTy).Contents (Elt F)),
    binary main_v57 main_v61 main_v62 (addf : (⟨S100000, .f32⟩ : BufTy).Contents (Elt F) → (⟨S100000, .f32⟩ : BufTy).Contents (Elt F) → (⟨S100000, .f32⟩ : BufTy).Contents (Elt F)),
    unary main_v62 main_v63 (Host.rsqrt : (⟨S100000, .f32⟩ : BufTy).Contents (Elt F) → (⟨S100000, .f32⟩ : BufTy).Contents (Elt F)),
    unary main_v63 main_v64 (broadcastInDim S1x100000 ![1] bcast_S100000_S1x100000_1 : (⟨S100000, .f32⟩ : BufTy).Contents (Elt F) → (⟨S1x100000, .f32⟩ : BufTy).Contents (Elt F)),
    unary main_v64 main_v65 (broadcastInDim S256x100000 ![0, 1] bcast_S1x100000_S256x100000_0_1 : (⟨S1x100000, .f32⟩ : BufTy).Contents (Elt F) → (⟨S256x100000, .f32⟩ : BufTy).Contents (Elt F)),
    binary main_v60 main_v65 main_v66 (mulf : (⟨S256x100000, .f32⟩ : BufTy).Contents (Elt F) → (⟨S256x100000, .f32⟩ : BufTy).Contents (Elt F) → (⟨S256x100000, .f32⟩ : BufTy).Contents (Elt F)),
    unary main_arg3 main_v67 (broadcastInDim S1x100000 ![1] bcast_S100000_S1x100000_1 : (⟨S100000, .f32⟩ : BufTy).Contents (Elt F) → (⟨S1x100000, .f32⟩ : BufTy).Contents (Elt F)),
    unary main_v67 main_v68 (broadcastInDim S256x100000 ![0, 1] bcast_S1x100000_S256x100000_0_1 : (⟨S1x100000, .f32⟩ : BufTy).Contents (Elt F) → (⟨S256x100000, .f32⟩ : BufTy).Contents (Elt F)),
    binary main_v66 main_v68 main_v69 (mulf : (⟨S256x100000, .f32⟩ : BufTy).Contents (Elt F) → (⟨S256x100000, .f32⟩ : BufTy).Contents (Elt F) → (⟨S256x100000, .f32⟩ : BufTy).Contents (Elt F)),
    unary main_arg4 main_v70 (broadcastInDim S1x100000 ![1] bcast_S100000_S1x100000_1 : (⟨S100000, .f32⟩ : BufTy).Contents (Elt F) → (⟨S1x100000, .f32⟩ : BufTy).Contents (Elt F)),
    unary main_v70 main_v71 (broadcastInDim S256x100000 ![0, 1] bcast_S1x100000_S256x100000_0_1 : (⟨S1x100000, .f32⟩ : BufTy).Contents (Elt F) → (⟨S256x100000, .f32⟩ : BufTy).Contents (Elt F)),
    binary main_v69 main_v71 main_v72 (addf : (⟨S256x100000, .f32⟩ : BufTy).Contents (Elt F) → (⟨S256x100000, .f32⟩ : BufTy).Contents (Elt F) → (⟨S256x100000, .f32⟩ : BufTy).Contents (Elt F)) ]

/-- @main's first window: its first sixty operations. -/
abbrev ops0 : List (HloOp τ sig (Elt F)) :=
  [ unary main_arg1 main_v0 ((transpose S100000x128 [1, 0] · transposes_S128x100000_S100000x128_1_0) : (⟨S128x100000, .f32⟩ : BufTy).Contents (Elt F) → (⟨S100000x128, .f32⟩ : BufTy).Contents (Elt F)),
    binary main_arg0 main_v0 main_v1 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg5 main_v2 (broadcastInDim S1x1 ![1] bcast_S1_S1x1_1 : (⟨S1, .f32⟩ : BufTy).Contents (Elt F) → (⟨S1x1, .f32⟩ : BufTy).Contents (Elt F)),
    unary main_v2 main_v3 (broadcastInDim S256x128 ![0, 1] bcast_S1x1_S256x128_0_1 : (⟨S1x1, .f32⟩ : BufTy).Contents (Elt F) → (⟨S256x128, .f32⟩ : BufTy).Contents (Elt F)),
    binary main_v1 main_v3 main_v4 (mulf : (⟨S256x128, .f32⟩ : BufTy).Contents (Elt F) → (⟨S256x128, .f32⟩ : BufTy).Contents (Elt F) → (⟨S256x128, .f32⟩ : BufTy).Contents (Elt F)),
    nullary main_cst (constant S_ .f32 0x00000000#32),
    unary main_cst main_v5 (broadcastInDim S256x100000 ![] bcast_S_S256x100000 : (⟨S_, .f32⟩ : BufTy).Contents (Elt F) → (⟨S256x100000, .f32⟩ : BufTy).Contents (Elt F)),
    nullary main_cst_0 (constant S_ .f32 0xFF800000#32),
    binary main_v4 main_cst_0 main_v6 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_1 (constant S_ .f32 0xFF800000#32),
    unary main_cst_1 main_v7 (broadcastInDim S256 ![] bcast_S_S256 : (⟨S_, .f32⟩ : BufTy).Contents (Elt F) → (⟨S256, .f32⟩ : BufTy).Contents (Elt F)),
    binary main_v7 main_v6 main_v8 (maximumf : (⟨S256, .f32⟩ : BufTy).Contents (Elt F) → (⟨S256, .f32⟩ : BufTy).Contents (Elt F) → (⟨S256, .f32⟩ : BufTy).Contents (Elt F)),
    unary main_v8 main_v9 (broadcastInDim S256x1 ![0] bcast_S256_S256x1_0 : (⟨S256, .f32⟩ : BufTy).Contents (Elt F) → (⟨S256x1, .f32⟩ : BufTy).Contents (Elt F)),
    unary main_v9 main_v10 (broadcastInDim S256x128 ![0, 1] bcast_S256x1_S256x128_0_1 : (⟨S256x1, .f32⟩ : BufTy).Contents (Elt F) → (⟨S256x128, .f32⟩ : BufTy).Contents (Elt F)),
    binary main_v4 main_v10 main_v11 (subf : (⟨S256x128, .f32⟩ : BufTy).Contents (Elt F) → (⟨S256x128, .f32⟩ : BufTy).Contents (Elt F) → (⟨S256x128, .f32⟩ : BufTy).Contents (Elt F)),
    unary main_v11 main_v12 (Host.exp : (⟨S256x128, .f32⟩ : BufTy).Contents (Elt F) → (⟨S256x128, .f32⟩ : BufTy).Contents (Elt F)),
    nullary main_cst_2 (constant S_ .f32 0x00000000#32),
    binary main_v12 main_cst_2 main_v13 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v13 main_v14 (broadcastInDim S256x1 ![0] bcast_S256_S256x1_0 : (⟨S256, .f32⟩ : BufTy).Contents (Elt F) → (⟨S256x1, .f32⟩ : BufTy).Contents (Elt F)),
    unary main_v14 main_v15 (broadcastInDim S256x128 ![0, 1] bcast_S256x1_S256x128_0_1 : (⟨S256x1, .f32⟩ : BufTy).Contents (Elt F) → (⟨S256x128, .f32⟩ : BufTy).Contents (Elt F)),
    binary main_v12 main_v15 main_v16 (Host.divf : (⟨S256x128, .f32⟩ : BufTy).Contents (Elt F) → (⟨S256x128, .f32⟩ : BufTy).Contents (Elt F) → (⟨S256x128, .f32⟩ : BufTy).Contents (Elt F)),
    binary main_v16 main_arg2 main_v17 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)),
    unary main_arg2 main_v18 ((transpose S100000x128 [1, 0] · transposes_S128x100000_S100000x128_1_0) : (⟨S128x100000, .f32⟩ : BufTy).Contents (Elt F) → (⟨S100000x128, .f32⟩ : BufTy).Contents (Elt F)),
    binary main_v17 main_v18 main_v19 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg6 main_v20 (broadcastInDim S1x1 ![1] bcast_S1_S1x1_1 : (⟨S1, .f32⟩ : BufTy).Contents (Elt F) → (⟨S1x1, .f32⟩ : BufTy).Contents (Elt F)),
    unary main_v20 main_v21 (broadcastInDim S256x128 ![0, 1] bcast_S1x1_S256x128_0_1 : (⟨S1x1, .f32⟩ : BufTy).Contents (Elt F) → (⟨S256x128, .f32⟩ : BufTy).Contents (Elt F)),
    binary main_v21 main_v19 main_v22 (mulf : (⟨S256x128, .f32⟩ : BufTy).Contents (Elt F) → (⟨S256x128, .f32⟩ : BufTy).Contents (Elt F) → (⟨S256x128, .f32⟩ : BufTy).Contents (Elt F)),
    binary main_v4 main_v22 main_v23 (addf : (⟨S256x128, .f32⟩ : BufTy).Contents (Elt F) → (⟨S256x128, .f32⟩ : BufTy).Contents (Elt F) → (⟨S256x128, .f32⟩ : BufTy).Contents (Elt F)),
    nullary main_cst_3 (constant S_ .f32 0xFF800000#32),
    binary main_v23 main_cst_3 main_v24 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_4 (constant S_ .f32 0xFF800000#32),
    unary main_cst_4 main_v25 (broadcastInDim S256 ![] bcast_S_S256 : (⟨S_, .f32⟩ : BufTy).Contents (Elt F) → (⟨S256, .f32⟩ : BufTy).Contents (Elt F)),
    binary main_v25 main_v24 main_v26 (maximumf : (⟨S256, .f32⟩ : BufTy).Contents (Elt F) → (⟨S256, .f32⟩ : BufTy).Contents (Elt F) → (⟨S256, .f32⟩ : BufTy).Contents (Elt F)),
    unary main_v26 main_v27 (broadcastInDim S256x1 ![0] bcast_S256_S256x1_0 : (⟨S256, .f32⟩ : BufTy).Contents (Elt F) → (⟨S256x1, .f32⟩ : BufTy).Contents (Elt F)),
    unary main_v27 main_v28 (broadcastInDim S256x128 ![0, 1] bcast_S256x1_S256x128_0_1 : (⟨S256x1, .f32⟩ : BufTy).Contents (Elt F) → (⟨S256x128, .f32⟩ : BufTy).Contents (Elt F)),
    binary main_v23 main_v28 main_v29 (subf : (⟨S256x128, .f32⟩ : BufTy).Contents (Elt F) → (⟨S256x128, .f32⟩ : BufTy).Contents (Elt F) → (⟨S256x128, .f32⟩ : BufTy).Contents (Elt F)),
    unary main_v29 main_v30 (Host.exp : (⟨S256x128, .f32⟩ : BufTy).Contents (Elt F) → (⟨S256x128, .f32⟩ : BufTy).Contents (Elt F)),
    nullary main_cst_5 (constant S_ .f32 0x00000000#32),
    binary main_v30 main_cst_5 main_v31 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v31 main_v32 (broadcastInDim S256x1 ![0] bcast_S256_S256x1_0 : (⟨S256, .f32⟩ : BufTy).Contents (Elt F) → (⟨S256x1, .f32⟩ : BufTy).Contents (Elt F)),
    unary main_v32 main_v33 (broadcastInDim S256x128 ![0, 1] bcast_S256x1_S256x128_0_1 : (⟨S256x1, .f32⟩ : BufTy).Contents (Elt F) → (⟨S256x128, .f32⟩ : BufTy).Contents (Elt F)),
    binary main_v30 main_v33 main_v34 (Host.divf : (⟨S256x128, .f32⟩ : BufTy).Contents (Elt F) → (⟨S256x128, .f32⟩ : BufTy).Contents (Elt F) → (⟨S256x128, .f32⟩ : BufTy).Contents (Elt F)),
    binary main_v34 main_arg2 main_v35 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)),
    unary main_arg2 main_v36 ((transpose S100000x128 [1, 0] · transposes_S128x100000_S100000x128_1_0) : (⟨S128x100000, .f32⟩ : BufTy).Contents (Elt F) → (⟨S100000x128, .f32⟩ : BufTy).Contents (Elt F)),
    binary main_v35 main_v36 main_v37 ((fun l r => Host.dotGeneral dot_S256x100000_S100000x128_S256x128_1_0_0_1_n_n none l r) : (⟨S256x100000, .f32⟩ : BufTy).Contents (Elt F) → (⟨S100000x128, .f32⟩ : BufTy).Contents (Elt F) → (⟨S256x128, .f32⟩ : BufTy).Contents (Elt F)),
    unary main_arg6 main_v38 (broadcastInDim S1x1 ![1] bcast_S1_S1x1_1 : (⟨S1, .f32⟩ : BufTy).Contents (Elt F) → (⟨S1x1, .f32⟩ : BufTy).Contents (Elt F)),
    unary main_v38 main_v39 (broadcastInDim S256x128 ![0, 1] bcast_S1x1_S256x128_0_1 : (⟨S1x1, .f32⟩ : BufTy).Contents (Elt F) → (⟨S256x128, .f32⟩ : BufTy).Contents (Elt F)),
    binary main_v39 main_v37 main_v40 (mulf : (⟨S256x128, .f32⟩ : BufTy).Contents (Elt F) → (⟨S256x128, .f32⟩ : BufTy).Contents (Elt F) → (⟨S256x128, .f32⟩ : BufTy).Contents (Elt F)),
    binary main_v4 main_v40 main_v41 (addf : (⟨S256x128, .f32⟩ : BufTy).Contents (Elt F) → (⟨S256x128, .f32⟩ : BufTy).Contents (Elt F) → (⟨S256x128, .f32⟩ : BufTy).Contents (Elt F)),
    nullary main_cst_6 (constant S_ .f32 0xFF800000#32),
    binary main_v41 main_cst_6 main_v42 ((fun x v => Host.reduce FloatOps.maximumf x v reducesTo_S256x128_S256_d1 h_S_) : (⟨S256x128, .f32⟩ : BufTy).Contents (Elt F) → (⟨S_, .f32⟩ : BufTy).Contents (Elt F) → (⟨S256, .f32⟩ : BufTy).Contents (Elt F)),
    nullary main_cst_7 (constant S_ .f32 0xFF800000#32),
    unary main_cst_7 main_v43 (broadcastInDim S256 ![] bcast_S_S256 : (⟨S_, .f32⟩ : BufTy).Contents (Elt F) → (⟨S256, .f32⟩ : BufTy).Contents (Elt F)),
    binary main_v43 main_v42 main_v44 (maximumf : (⟨S256, .f32⟩ : BufTy).Contents (Elt F) → (⟨S256, .f32⟩ : BufTy).Contents (Elt F) → (⟨S256, .f32⟩ : BufTy).Contents (Elt F)),
    unary main_v44 main_v45 (broadcastInDim S256x1 ![0] bcast_S256_S256x1_0 : (⟨S256, .f32⟩ : BufTy).Contents (Elt F) → (⟨S256x1, .f32⟩ : BufTy).Contents (Elt F)),
    unary main_v45 main_v46 (broadcastInDim S256x128 ![0, 1] bcast_S256x1_S256x128_0_1 : (⟨S256x1, .f32⟩ : BufTy).Contents (Elt F) → (⟨S256x128, .f32⟩ : BufTy).Contents (Elt F)),
    binary main_v41 main_v46 main_v47 (subf : (⟨S256x128, .f32⟩ : BufTy).Contents (Elt F) → (⟨S256x128, .f32⟩ : BufTy).Contents (Elt F) → (⟨S256x128, .f32⟩ : BufTy).Contents (Elt F)),
    unary main_v47 main_v48 (Host.exp : (⟨S256x128, .f32⟩ : BufTy).Contents (Elt F) → (⟨S256x128, .f32⟩ : BufTy).Contents (Elt F)),
    nullary main_cst_8 (constant S_ .f32 0x00000000#32),
    binary main_v48 main_cst_8 main_v49 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)) ]

/-- @main's second window, the calls unfolded: the other forty-eight. -/
abbrev ops1 : List (HloOp τ sig (Elt F)) :=
  [ unary main_v49 main_v50 (broadcastInDim S256x1 ![0] bcast_S256_S256x1_0 : (⟨S256, .f32⟩ : BufTy).Contents (Elt F) → (⟨S256x1, .f32⟩ : BufTy).Contents (Elt F)),
    unary main_v50 main_v51 (broadcastInDim S256x128 ![0, 1] bcast_S256x1_S256x128_0_1 : (⟨S256x1, .f32⟩ : BufTy).Contents (Elt F) → (⟨S256x128, .f32⟩ : BufTy).Contents (Elt F)),
    binary main_v48 main_v51 main_v52 (Host.divf : (⟨S256x128, .f32⟩ : BufTy).Contents (Elt F) → (⟨S256x128, .f32⟩ : BufTy).Contents (Elt F) → (⟨S256x128, .f32⟩ : BufTy).Contents (Elt F)),
    binary main_v52 main_arg2 main_v53 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)),
    nullary main_cst_9 (constant S_ .f32 0x00000000#32),
    binary main_v53 main_cst_9 main_v54 ((fun x v => Host.reduceAdd x v reducesTo_S256x100000_S100000_d0 h_S_) : (⟨S256x100000, .f32⟩ : BufTy).Contents (Elt F) → (⟨S_, .f32⟩ : BufTy).Contents (Elt F) → (⟨S100000, .f32⟩ : BufTy).Contents (Elt F)),
    nullary main_cst_10 (constant S_ .f32 0x43800000#32),
    unary main_cst_10 main_v55 (broadcastInDim S100000 ![] bcast_S_S100000 : (⟨S_, .f32⟩ : BufTy).Contents (Elt F) → (⟨S100000, .f32⟩ : BufTy).Contents (Elt F)),
    binary main_v54 main_v55 main_v56 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    TRef.nullary main_call0.cst (constant S_ .f32 0x00000000#32),
    TRef.binary (.of main_v53) main_call0.cst main_call0.v0 (fun x v => Host.reduceAdd x v reducesTo_S256x100000_S100000_d0 h_S_),
    TRef.unary main_call0.v0 main_call0.v1 (broadcastInDim S1x100000 ![1] bcast_S100000_S1x100000_1),
    TRef.nullary main_call0.cst_0 (constant S_ .f32 0x43800000#32),
    TRef.unary main_call0.cst_0 main_call0.v2 (broadcastInDim S1x100000 ![] bcast_S_S1x100000),
    TRef.binary main_call0.v1 main_call0.v2 main_call0.v3 Host.divf,
    TRef.unary main_call0.v3 main_call0.v4 (broadcastInDim S256x100000 ![0, 1] bcast_S1x100000_S256x100000_0_1),
    TRef.binary (.of main_v53) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S256x100000_S100000_d0 h_S_),
    TRef.unary main_call0.v8 main_call0.v10 (broadcastInDim S100000 ![] bcast_S_S100000),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S100000 ![] bcast_S_S100000),
    TRef.ternary main_call0.v12 main_call0.v11 main_call0.call0.v1 main_call0.call0.v2 (fun p a b => select (broadcastInDim S100000 ![] bcast_S_S100000 p) a b),
    unary main_v56 main_v58 (broadcastInDim S1x100000 ![1] bcast_S100000_S1x100000_1 : (⟨S100000, .f32⟩ : BufTy).Contents (Elt F) → (⟨S1x100000, .f32⟩ : BufTy).Contents (Elt F)),
    unary main_v58 main_v59 (broadcastInDim S256x100000 ![0, 1] bcast_S1x100000_S256x100000_0_1 : (⟨S1x100000, .f32⟩ : BufTy).Contents (Elt F) → (⟨S256x100000, .f32⟩ : BufTy).Contents (Elt F)),
    binary main_v53 main_v59 main_v60 (subf : (⟨S256x100000, .f32⟩ : BufTy).Contents (Elt F) → (⟨S256x100000, .f32⟩ : BufTy).Contents (Elt F) → (⟨S256x100000, .f32⟩ : BufTy).Contents (Elt F)),
    nullary main_cst_11 (constant S_ .f32 0x3727C5AC#32),
    unary main_cst_11 main_v61 (broadcastInDim S100000 ![] bcast_S_S100000 : (⟨S_, .f32⟩ : BufTy).Contents (Elt F) → (⟨S100000, .f32⟩ : BufTy).Contents (Elt F)),
    binary main_v57 main_v61 main_v62 (addf : (⟨S100000, .f32⟩ : BufTy).Contents (Elt F) → (⟨S100000, .f32⟩ : BufTy).Contents (Elt F) → (⟨S100000, .f32⟩ : BufTy).Contents (Elt F)),
    unary main_v62 main_v63 (Host.rsqrt : (⟨S100000, .f32⟩ : BufTy).Contents (Elt F) → (⟨S100000, .f32⟩ : BufTy).Contents (Elt F)),
    unary main_v63 main_v64 (broadcastInDim S1x100000 ![1] bcast_S100000_S1x100000_1 : (⟨S100000, .f32⟩ : BufTy).Contents (Elt F) → (⟨S1x100000, .f32⟩ : BufTy).Contents (Elt F)),
    unary main_v64 main_v65 (broadcastInDim S256x100000 ![0, 1] bcast_S1x100000_S256x100000_0_1 : (⟨S1x100000, .f32⟩ : BufTy).Contents (Elt F) → (⟨S256x100000, .f32⟩ : BufTy).Contents (Elt F)),
    binary main_v60 main_v65 main_v66 (mulf : (⟨S256x100000, .f32⟩ : BufTy).Contents (Elt F) → (⟨S256x100000, .f32⟩ : BufTy).Contents (Elt F) → (⟨S256x100000, .f32⟩ : BufTy).Contents (Elt F)),
    unary main_arg3 main_v67 (broadcastInDim S1x100000 ![1] bcast_S100000_S1x100000_1 : (⟨S100000, .f32⟩ : BufTy).Contents (Elt F) → (⟨S1x100000, .f32⟩ : BufTy).Contents (Elt F)),
    unary main_v67 main_v68 (broadcastInDim S256x100000 ![0, 1] bcast_S1x100000_S256x100000_0_1 : (⟨S1x100000, .f32⟩ : BufTy).Contents (Elt F) → (⟨S256x100000, .f32⟩ : BufTy).Contents (Elt F)),
    binary main_v66 main_v68 main_v69 (mulf : (⟨S256x100000, .f32⟩ : BufTy).Contents (Elt F) → (⟨S256x100000, .f32⟩ : BufTy).Contents (Elt F) → (⟨S256x100000, .f32⟩ : BufTy).Contents (Elt F)),
    unary main_arg4 main_v70 (broadcastInDim S1x100000 ![1] bcast_S100000_S1x100000_1 : (⟨S100000, .f32⟩ : BufTy).Contents (Elt F) → (⟨S1x100000, .f32⟩ : BufTy).Contents (Elt F)),
    unary main_v70 main_v71 (broadcastInDim S256x100000 ![0, 1] bcast_S1x100000_S256x100000_0_1 : (⟨S1x100000, .f32⟩ : BufTy).Contents (Elt F) → (⟨S256x100000, .f32⟩ : BufTy).Contents (Elt F)),
    binary main_v69 main_v71 main_v72 (addf : (⟨S256x100000, .f32⟩ : BufTy).Contents (Elt F) → (⟨S256x100000, .f32⟩ : BufTy).Contents (Elt F) → (⟨S256x100000, .f32⟩ : BufTy).Contents (Elt F)) ]

/-- @main's 108 operations, in order, stage by stage. -/
abbrev ops : List (HloOp τ sig (Elt F)) :=
  opsP1 ++ (opsS1 ++ (opsT1 ++ (opsL2 ++ (opsS2 ++ (opsT2 ++ (opsL3 ++ (opsS3 ++ (opsT3 ++ (opsBN)))))))))

set_option maxRecDepth 8192 in
theorem main_part0_eq (c : Dev nD) : main_part0 (F := F) c = seq ops0 := rfl

set_option maxRecDepth 8192 in
set_option maxHeartbeats 4000000 in
/-- The second window with the functions' definitions unfolded at their calls and sequencing reassociated. -/
theorem main_part1_eq (c : Dev nD) : main_part1 (F := F) c = seq ops1 := by
  simp only [main_part1, fn_var.body, fn_where.body, seq, bind_assoc, pure_bind]

set_option maxRecDepth 8192 in
theorem ops_split : (ops : List (HloOp τ sig (Elt F))) = ops0 ++ ops1 := rfl

theorem main_eq (c : Dev nD) : main (F := F) c = seq ops := by
  rw [ops_split, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsP1_sub : (opsP1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub ..⟩
theorem opsS1_sub : (opsS1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsT1_sub : (opsT1 : List (HloOp τ sig (Elt F))).Forall fun op => op.bufs ⊆ tcRefs τ sig :=
  (binary_bufs_sub ..)
theorem opsL2_sub : (opsL2 : List (HloOp τ sig (Elt F))).Forall fun op => op.bufs ⊆ tcRefs τ sig :=
  ⟨unary_bufs_sub .., binary_bufs_sub .., unary_bufs_sub .., unary_bufs_sub .., binary_bufs_sub .., binary_bufs_sub ..⟩
theorem opsS2_sub : (opsS2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsT2_sub : (opsT2 : List (HloOp τ sig (Elt F))).Forall fun op => op.bufs ⊆ tcRefs τ sig :=
  (binary_bufs_sub ..)
theorem opsL3_sub : (opsL3 : List (HloOp τ sig (Elt F))).Forall fun op => op.bufs ⊆ tcRefs τ sig :=
  ⟨unary_bufs_sub .., binary_bufs_sub .., unary_bufs_sub .., unary_bufs_sub .., binary_bufs_sub .., binary_bufs_sub ..⟩
theorem opsS3_sub : (opsS3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsT3_sub : (opsT3 : List (HloOp τ sig (Elt F))).Forall fun op => op.bufs ⊆ tcRefs τ sig :=
  (binary_bufs_sub ..)
theorem opsBN_sub : (opsBN : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp opsP1_sub op h, List.forall_iff_forall_mem.mp opsS1_sub op h, List.forall_iff_forall_mem.mp opsT1_sub op h, List.forall_iff_forall_mem.mp opsL2_sub op h, List.forall_iff_forall_mem.mp opsS2_sub op h, List.forall_iff_forall_mem.mp opsT2_sub op h, List.forall_iff_forall_mem.mp opsL3_sub op h, List.forall_iff_forall_mem.mp opsS3_sub op h, List.forall_iff_forall_mem.mp opsT3_sub op h, List.forall_iff_forall_mem.mp opsBN_sub op h]

end Cert.ReferenceIdeal.RefRun

end
-- ==== Proof.RefRunA.lean ====
/-
  What each stretch of the reference's operation list leaves in the buffers: the buffers it writes, that every
  other buffer keeps its contents through it, and its stage's buffer as the stage's term of the contents before it.
-/
import proofs.«165993_j28200755266000_1_alg».proof.Proof.RefStages
import proofs.«165993_j28200755266000_1_alg».proof.Proof.RefRunOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The contents after two lists run one after the other. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The buffers `opsP1` writes. -/
abbrev opsP1_W : List (Ref sig .tc) := [main_v0, main_v1, main_v2, main_v3, main_v4, main_cst, main_v5]
theorem opsP1_writes : (opsP1 (F := Ideal)).Forall fun op => op.writes ⊆ (opsP1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsP1` does not write keeps its contents through it. -/
theorem opsP1_keep (W : Valuation τ sig (Elt Ideal)) (r : Ref sig .tc) (h : r ∉ opsP1_W) :
    after (opsP1 (F := Ideal)) W (Proc.devRef .tc r) = W (Proc.devRef .tc r) :=
  after_of_writes_sub opsP1 W opsP1_writes h

/-- The buffers `opsS1` writes. -/
abbrev opsS1_W : List (Ref sig .tc) := [main_cst_0, main_v6, main_cst_1, main_v7, main_v8, main_v9, main_v10, main_v11, main_v12, main_cst_2, main_v13, main_v14, main_v15, main_v16]
theorem opsS1_writes : (opsS1 (F := Ideal)).Forall fun op => op.writes ⊆ (opsS1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsS1` does not write keeps its contents through it. -/
theorem opsS1_keep (W : Valuation τ sig (Elt Ideal)) (r : Ref sig .tc) (h : r ∉ opsS1_W) :
    after (opsS1 (F := Ideal)) W (Proc.devRef .tc r) = W (Proc.devRef .tc r) :=
  after_of_writes_sub opsS1 W opsS1_writes h

/-- The buffers `opsT1` writes. -/
abbrev opsT1_W : List (Ref sig .tc) := [main_v17]
theorem opsT1_writes : (opsT1 (F := Ideal)).Forall fun op => op.writes ⊆ (opsT1_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer `opsT1` does not write keeps its contents through it. -/
theorem opsT1_keep (W : Valuation τ sig (Elt Ideal)) (r : Ref sig .tc) (h : r ∉ opsT1_W) :
    after (opsT1 (F := Ideal)) W (Proc.devRef .tc r) = W (Proc.devRef .tc r) :=
  after_of_writes_sub opsT1 W opsT1_writes h

/-- The buffers `opsL2` writes. -/
abbrev opsL2_W : List (Ref sig .tc) := [main_v18, main_v19, main_v20, main_v21, main_v22, main_v23]
theorem opsL2_writes : (opsL2 (F := Ideal)).Forall fun op => op.writes ⊆ (opsL2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsL2` does not write keeps its contents through it. -/
theorem opsL2_keep (W : Valuation τ sig (Elt Ideal)) (r : Ref sig .tc) (h : r ∉ opsL2_W) :
    after (opsL2 (F := Ideal)) W (Proc.devRef .tc r) = W (Proc.devRef .tc r) :=
  after_of_writes_sub opsL2 W opsL2_writes h

/-- The buffers `opsS2` writes. -/
abbrev opsS2_W : List (Ref sig .tc) := [main_cst_3, main_v24, main_cst_4, main_v25, main_v26, main_v27, main_v28, main_v29, main_v30, main_cst_5, main_v31, main_v32, main_v33, main_v34]
theorem opsS2_writes : (opsS2 (F := Ideal)).Forall fun op => op.writes ⊆ (opsS2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsS2` does not write keeps its contents through it. -/
theorem opsS2_keep (W : Valuation τ sig (Elt Ideal)) (r : Ref sig .tc) (h : r ∉ opsS2_W) :
    after (opsS2 (F := Ideal)) W (Proc.devRef .tc r) = W (Proc.devRef .tc r) :=
  after_of_writes_sub opsS2 W opsS2_writes h

/-- The buffers `opsT2` writes. -/
abbrev opsT2_W : List (Ref sig .tc) := [main_v35]
theorem opsT2_writes : (opsT2 (F := Ideal)).Forall fun op => op.writes ⊆ (opsT2_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer `opsT2` does not write keeps its contents through it. -/
theorem opsT2_keep (W : Valuation τ sig (Elt Ideal)) (r : Ref sig .tc) (h : r ∉ opsT2_W) :
    after (opsT2 (F := Ideal)) W (Proc.devRef .tc r) = W (Proc.devRef .tc r) :=
  after_of_writes_sub opsT2 W opsT2_writes h

/-- The buffers `opsL3` writes. -/
abbrev opsL3_W : List (Ref sig .tc) := [main_v36, main_v37, main_v38, main_v39, main_v40, main_v41]
theorem opsL3_writes : (opsL3 (F := Ideal)).Forall fun op => op.writes ⊆ (opsL3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsL3` does not write keeps its contents through it. -/
theorem opsL3_keep (W : Valuation τ sig (Elt Ideal)) (r : Ref sig .tc) (h : r ∉ opsL3_W) :
    after (opsL3 (F := Ideal)) W (Proc.devRef .tc r) = W (Proc.devRef .tc r) :=
  after_of_writes_sub opsL3 W opsL3_writes h

/-- The buffers `opsS3` writes. -/
abbrev opsS3_W : List (Ref sig .tc) := [main_cst_6, main_v42, main_cst_7, main_v43, main_v44, main_v45, main_v46, main_v47, main_v48, main_cst_8, main_v49, main_v50, main_v51, main_v52]
theorem opsS3_writes : (opsS3 (F := Ideal)).Forall fun op => op.writes ⊆ (opsS3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsS3` does not write keeps its contents through it. -/
theorem opsS3_keep (W : Valuation τ sig (Elt Ideal)) (r : Ref sig .tc) (h : r ∉ opsS3_W) :
    after (opsS3 (F := Ideal)) W (Proc.devRef .tc r) = W (Proc.devRef .tc r) :=
  after_of_writes_sub opsS3 W opsS3_writes h

/-- The buffers `opsT3` writes. -/
abbrev opsT3_W : List (Ref sig .tc) := [main_v53]
theorem opsT3_writes : (opsT3 (F := Ideal)).Forall fun op => op.writes ⊆ (opsT3_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer `opsT3` does not write keeps its contents through it. -/
theorem opsT3_keep (W : Valuation τ sig (Elt Ideal)) (r : Ref sig .tc) (h : r ∉ opsT3_W) :
    after (opsT3 (F := Ideal)) W (Proc.devRef .tc r) = W (Proc.devRef .tc r) :=
  after_of_writes_sub opsT3 W opsT3_writes h

/-- The buffers `opsBN` writes. -/
abbrev opsBN_W : List (Ref sig .tc) := [main_cst_9, main_v54, main_cst_10, main_v55, main_v56, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v57, main_v58, main_v59, main_v60, main_cst_11, main_v61, main_v62, main_v63, main_v64, main_v65, main_v66, main_v67, main_v68, main_v69, main_v70, main_v71, main_v72]
theorem opsBN_writes : (opsBN (F := Ideal)).Forall fun op => op.writes ⊆ (opsBN_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer `opsBN` does not write keeps its contents through it. -/
theorem opsBN_keep (W : Valuation τ sig (Elt Ideal)) (r : Ref sig .tc) (h : r ∉ opsBN_W) :
    after (opsBN (F := Ideal)) W (Proc.devRef .tc r) = W (Proc.devRef .tc r) :=
  after_of_writes_sub opsBN W opsBN_writes h

/-! ## The stages -/

theorem opsP1_v4 (W : Valuation τ sig (Elt Ideal)) :
    after (opsP1 (F := Ideal)) W (Proc.devRef .tc main_v4 : DevRef τ sig)
      = part1 (W (Proc.devRef .tc main_arg0 : DevRef τ sig)) (W (Proc.devRef .tc main_arg1 : DevRef τ sig)) (W (Proc.devRef .tc main_arg5 : DevRef τ sig)) := by
  after_results; rfl

theorem opsS1_v16 (W : Valuation τ sig (Elt Ideal)) :
    after (opsS1 (F := Ideal)) W (Proc.devRef .tc main_v16 : DevRef τ sig) = softmax (W (Proc.devRef .tc main_v4 : DevRef τ sig)) := by
  after_results; rfl

theorem opsT1_v17 (W : Valuation τ sig (Elt Ideal)) :
    after (opsT1 (F := Ideal)) W (Proc.devRef .tc main_v17 : DevRef τ sig) = tblock (W (Proc.devRef .tc main_v16 : DevRef τ sig)) (W (Proc.devRef .tc main_arg2 : DevRef τ sig)) := by
  after_results; rfl

theorem opsL2_v23 (W : Valuation τ sig (Elt Ideal)) :
    after (opsL2 (F := Ideal)) W (Proc.devRef .tc main_v23 : DevRef τ sig)
      = logits (W (Proc.devRef .tc main_v4 : DevRef τ sig)) (W (Proc.devRef .tc main_arg6 : DevRef τ sig)) (W (Proc.devRef .tc main_v17 : DevRef τ sig)) (W (Proc.devRef .tc main_arg2 : DevRef τ sig)) := by
  after_results; rfl

theorem opsS2_v34 (W : Valuation τ sig (Elt Ideal)) :
    after (opsS2 (F := Ideal)) W (Proc.devRef .tc main_v34 : DevRef τ sig) = softmax (W (Proc.devRef .tc main_v23 : DevRef τ sig)) := by
  after_results; rfl

theorem opsT2_v35 (W : Valuation τ sig (Elt Ideal)) :
    after (opsT2 (F := Ideal)) W (Proc.devRef .tc main_v35 : DevRef τ sig) = tblock (W (Proc.devRef .tc main_v34 : DevRef τ sig)) (W (Proc.devRef .tc main_arg2 : DevRef τ sig)) := by
  after_results; rfl

theorem opsL3_v41 (W : Valuation τ sig (Elt Ideal)) :
    after (opsL3 (F := Ideal)) W (Proc.devRef .tc main_v41 : DevRef τ sig)
      = logits (W (Proc.devRef .tc main_v4 : DevRef τ sig)) (W (Proc.devRef .tc main_arg6 : DevRef τ sig)) (W (Proc.devRef .tc main_v35 : DevRef τ sig)) (W (Proc.devRef .tc main_arg2 : DevRef τ sig)) := by
  after_results; rfl

theorem opsS3_v52 (W : Valuation τ sig (Elt Ideal)) :
    after (opsS3 (F := Ideal)) W (Proc.devRef .tc main_v52 : DevRef τ sig) = softmax (W (Proc.devRef .tc main_v41 : DevRef τ sig)) := by
  after_results; rfl

theorem opsT3_v53 (W : Valuation τ sig (Elt Ideal)) :
    after (opsT3 (F := Ideal)) W (Proc.devRef .tc main_v53 : DevRef τ sig) = tblock (W (Proc.devRef .tc main_v52 : DevRef τ sig)) (W (Proc.devRef .tc main_arg2 : DevRef τ sig)) := by
  after_results; rfl

end Cert.ReferenceIdeal.RefRun

end
-- ==== Proof.RefRunB.lean ====
/-
  The batch norm's stretch of the reference's operation list: its result buffer is `bn` of the block and the
  two parameter rows before it.
-/
import proofs.«165993_j28200755266000_1_alg».proof.Proof.RefStages
import proofs.«165993_j28200755266000_1_alg».proof.Proof.RefRunOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

set_option maxRecDepth 8192 in
set_option maxHeartbeats 4000000 in
theorem opsBN_v72 (W : Valuation τ sig (Elt Ideal)) :
    after (opsBN (F := Ideal)) W (Proc.devRef .tc main_v72 : DevRef τ sig)
      = bn (W (Proc.devRef .tc main_v53 : DevRef τ sig)) (W (Proc.devRef .tc main_arg3 : DevRef τ sig)) (W (Proc.devRef .tc main_arg4 : DevRef τ sig)) := by
  after_results_simp
  rfl

end Cert.ReferenceIdeal.RefRun

end
-- ==== Proof.RefRun.lean ====
/-
  The reference's run: every weakly fair execution of its @main terminates with the result buffer at `out` of
  the seven float arguments' launch contents and all eight arguments unchanged. The operation list is read stretch
  by stretch: each stretch's stage lemma, the buffers it leaves alone, then the stages composed.
-/
import proofs.«165993_j28200755266000_1_alg».proof.Proof.RefStages
import proofs.«165993_j28200755266000_1_alg».proof.Proof.RefRunOps
import proofs.«165993_j28200755266000_1_alg».proof.Proof.RefRunA
import proofs.«165993_j28200755266000_1_alg».proof.Proof.RefRunB

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The result buffer after the whole list, from any contents: the stages composed. -/
theorem after_ops_v72 (V : Valuation τ sig (Elt Ideal)) :
    after (ops (F := Ideal)) V (Proc.devRef .tc main_v72 : DevRef τ sig)
      = out (V (Proc.devRef .tc main_arg0 : DevRef τ sig)) (V (Proc.devRef .tc main_arg1 : DevRef τ sig)) (V (Proc.devRef .tc main_arg2 : DevRef τ sig)) (V (Proc.devRef .tc main_arg3 : DevRef τ sig))
          (V (Proc.devRef .tc main_arg4 : DevRef τ sig)) (V (Proc.devRef .tc main_arg5 : DevRef τ sig)) (V (Proc.devRef .tc main_arg6 : DevRef τ sig)) := by
  simp only [ops, after_app]
  rw [opsBN_v72,
    opsT3_v53, opsT3_keep _ main_arg3 (by decide), opsT3_keep _ main_arg4 (by decide),
    opsS3_v52, opsS3_keep _ main_arg2 (by decide), opsS3_keep _ main_arg3 (by decide), opsS3_keep _ main_arg4 (by decide),
    opsL3_v41, opsL3_keep _ main_arg2 (by decide), opsL3_keep _ main_arg3 (by decide), opsL3_keep _ main_arg4 (by decide),
    opsT2_v35, opsT2_keep _ main_v4 (by decide), opsT2_keep _ main_arg6 (by decide), opsT2_keep _ main_arg2 (by decide), opsT2_keep _ main_arg3 (by decide), opsT2_keep _ main_arg4 (by decide),
    opsS2_v34, opsS2_keep _ main_v4 (by decide), opsS2_keep _ main_arg6 (by decide), opsS2_keep _ main_arg2 (by decide), opsS2_keep _ main_arg3 (by decide), opsS2_keep _ main_arg4 (by decide),
    opsL2_v23, opsL2_keep _ main_v4 (by decide), opsL2_keep _ main_arg6 (by decide), opsL2_keep _ main_arg2 (by decide), opsL2_keep _ main_arg3 (by decide), opsL2_keep _ main_arg4 (by decide),
    opsT1_v17, opsT1_keep _ main_v4 (by decide), opsT1_keep _ main_arg6 (by decide), opsT1_keep _ main_arg2 (by decide), opsT1_keep _ main_arg3 (by decide), opsT1_keep _ main_arg4 (by decide),
    opsS1_v16, opsS1_keep _ main_v4 (by decide), opsS1_keep _ main_arg6 (by decide), opsS1_keep _ main_arg2 (by decide), opsS1_keep _ main_arg3 (by decide), opsS1_keep _ main_arg4 (by decide),
    opsP1_v4, opsP1_keep _ main_arg6 (by decide), opsP1_keep _ main_arg2 (by decide), opsP1_keep _ main_arg3 (by decide), opsP1_keep _ main_arg4 (by decide)]
  rfl

theorem after_ops_arg0 (V : Valuation τ sig (Elt Ideal)) :
    after (ops (F := Ideal)) V (Proc.devRef .tc main_arg0 : DevRef τ sig) = V (Proc.devRef .tc main_arg0 : DevRef τ sig) := by
  simp only [ops, after_app]
  rw [opsBN_keep _ main_arg0 (by decide), opsT3_keep _ main_arg0 (by decide), opsS3_keep _ main_arg0 (by decide), opsL3_keep _ main_arg0 (by decide), opsT2_keep _ main_arg0 (by decide), opsS2_keep _ main_arg0 (by decide), opsL2_keep _ main_arg0 (by decide), opsT1_keep _ main_arg0 (by decide), opsS1_keep _ main_arg0 (by decide), opsP1_keep _ main_arg0 (by decide)]

theorem after_ops_arg1 (V : Valuation τ sig (Elt Ideal)) :
    after (ops (F := Ideal)) V (Proc.devRef .tc main_arg1 : DevRef τ sig) = V (Proc.devRef .tc main_arg1 : DevRef τ sig) := by
  simp only [ops, after_app]
  rw [opsBN_keep _ main_arg1 (by decide), opsT3_keep _ main_arg1 (by decide), opsS3_keep _ main_arg1 (by decide), opsL3_keep _ main_arg1 (by decide), opsT2_keep _ main_arg1 (by decide), opsS2_keep _ main_arg1 (by decide), opsL2_keep _ main_arg1 (by decide), opsT1_keep _ main_arg1 (by decide), opsS1_keep _ main_arg1 (by decide), opsP1_keep _ main_arg1 (by decide)]

theorem after_ops_arg2 (V : Valuation τ sig (Elt Ideal)) :
    after (ops (F := Ideal)) V (Proc.devRef .tc main_arg2 : DevRef τ sig) = V (Proc.devRef .tc main_arg2 : DevRef τ sig) := by
  simp only [ops, after_app]
  rw [opsBN_keep _ main_arg2 (by decide), opsT3_keep _ main_arg2 (by decide), opsS3_keep _ main_arg2 (by decide), opsL3_keep _ main_arg2 (by decide), opsT2_keep _ main_arg2 (by decide), opsS2_keep _ main_arg2 (by decide), opsL2_keep _ main_arg2 (by decide), opsT1_keep _ main_arg2 (by decide), opsS1_keep _ main_arg2 (by decide), opsP1_keep _ main_arg2 (by decide)]

theorem after_ops_arg3 (V : Valuation τ sig (Elt Ideal)) :
    after (ops (F := Ideal)) V (Proc.devRef .tc main_arg3 : DevRef τ sig) = V (Proc.devRef .tc main_arg3 : DevRef τ sig) := by
  simp only [ops, after_app]
  rw [opsBN_keep _ main_arg3 (by decide), opsT3_keep _ main_arg3 (by decide), opsS3_keep _ main_arg3 (by decide), opsL3_keep _ main_arg3 (by decide), opsT2_keep _ main_arg3 (by decide), opsS2_keep _ main_arg3 (by decide), opsL2_keep _ main_arg3 (by decide), opsT1_keep _ main_arg3 (by decide), opsS1_keep _ main_arg3 (by decide), opsP1_keep _ main_arg3 (by decide)]

theorem after_ops_arg4 (V : Valuation τ sig (Elt Ideal)) :
    after (ops (F := Ideal)) V (Proc.devRef .tc main_arg4 : DevRef τ sig) = V (Proc.devRef .tc main_arg4 : DevRef τ sig) := by
  simp only [ops, after_app]
  rw [opsBN_keep _ main_arg4 (by decide), opsT3_keep _ main_arg4 (by decide), opsS3_keep _ main_arg4 (by decide), opsL3_keep _ main_arg4 (by decide), opsT2_keep _ main_arg4 (by decide), opsS2_keep _ main_arg4 (by decide), opsL2_keep _ main_arg4 (by decide), opsT1_keep _ main_arg4 (by decide), opsS1_keep _ main_arg4 (by decide), opsP1_keep _ main_arg4 (by decide)]

theorem after_ops_arg5 (V : Valuation τ sig (Elt Ideal)) :
    after (ops (F := Ideal)) V (Proc.devRef .tc main_arg5 : DevRef τ sig) = V (Proc.devRef .tc main_arg5 : DevRef τ sig) := by
  simp only [ops, after_app]
  rw [opsBN_keep _ main_arg5 (by decide), opsT3_keep _ main_arg5 (by decide), opsS3_keep _ main_arg5 (by decide), opsL3_keep _ main_arg5 (by decide), opsT2_keep _ main_arg5 (by decide), opsS2_keep _ main_arg5 (by decide), opsL2_keep _ main_arg5 (by decide), opsT1_keep _ main_arg5 (by decide), opsS1_keep _ main_arg5 (by decide), opsP1_keep _ main_arg5 (by decide)]

theorem after_ops_arg6 (V : Valuation τ sig (Elt Ideal)) :
    after (ops (F := Ideal)) V (Proc.devRef .tc main_arg6 : DevRef τ sig) = V (Proc.devRef .tc main_arg6 : DevRef τ sig) := by
  simp only [ops, after_app]
  rw [opsBN_keep _ main_arg6 (by decide), opsT3_keep _ main_arg6 (by decide), opsS3_keep _ main_arg6 (by decide), opsL3_keep _ main_arg6 (by decide), opsT2_keep _ main_arg6 (by decide), opsS2_keep _ main_arg6 (by decide), opsL2_keep _ main_arg6 (by decide), opsT1_keep _ main_arg6 (by decide), opsS1_keep _ main_arg6 (by decide), opsP1_keep _ main_arg6 (by decide)]

theorem after_ops_arg7 (V : Valuation τ sig (Elt Ideal)) :
    after (ops (F := Ideal)) V (Proc.devRef .tc main_arg7 : DevRef τ sig) = V (Proc.devRef .tc main_arg7 : DevRef τ sig) := by
  simp only [ops, after_app]
  rw [opsBN_keep _ main_arg7 (by decide), opsT3_keep _ main_arg7 (by decide), opsS3_keep _ main_arg7 (by decide), opsL3_keep _ main_arg7 (by decide), opsT2_keep _ main_arg7 (by decide), opsS2_keep _ main_arg7 (by decide), opsL2_keep _ main_arg7 (by decide), opsT1_keep _ main_arg7 (by decide), opsS1_keep _ main_arg7 (by decide), opsP1_keep _ main_arg7 (by decide)]

theorem opsP1_fresh : ∀ op ∈ (opsP1 (F := Ideal)), op.fresh = ∅ := by intro _ h; (repeat (cases h with | head => rfl | tail _ h => ?_)); exact nomatch h
theorem opsS1_fresh : ∀ op ∈ (opsS1 (F := Ideal)), op.fresh = ∅ := by intro _ h; (repeat (cases h with | head => rfl | tail _ h => ?_)); exact nomatch h
theorem opsT1_fresh : ∀ op ∈ (opsT1 (F := Ideal)), op.fresh = ∅ := by intro _ h; (repeat (cases h with | head => rfl | tail _ h => ?_)); exact nomatch h
theorem opsL2_fresh : ∀ op ∈ (opsL2 (F := Ideal)), op.fresh = ∅ := by intro _ h; (repeat (cases h with | head => rfl | tail _ h => ?_)); exact nomatch h
theorem opsS2_fresh : ∀ op ∈ (opsS2 (F := Ideal)), op.fresh = ∅ := by intro _ h; (repeat (cases h with | head => rfl | tail _ h => ?_)); exact nomatch h
theorem opsT2_fresh : ∀ op ∈ (opsT2 (F := Ideal)), op.fresh = ∅ := by intro _ h; (repeat (cases h with | head => rfl | tail _ h => ?_)); exact nomatch h
theorem opsL3_fresh : ∀ op ∈ (opsL3 (F := Ideal)), op.fresh = ∅ := by intro _ h; (repeat (cases h with | head => rfl | tail _ h => ?_)); exact nomatch h
theorem opsS3_fresh : ∀ op ∈ (opsS3 (F := Ideal)), op.fresh = ∅ := by intro _ h; (repeat (cases h with | head => rfl | tail _ h => ?_)); exact nomatch h
theorem opsT3_fresh : ∀ op ∈ (opsT3 (F := Ideal)), op.fresh = ∅ := by intro _ h; (repeat (cases h with | head => rfl | tail _ h => ?_)); exact nomatch h
theorem opsBN_fresh : ∀ op ∈ (opsBN (F := Ideal)), op.fresh = ∅ := by intro _ h; (repeat (cases h with | head => rfl | tail _ h => ?_)); exact nomatch h

theorem ops_fresh : ∀ op ∈ (ops (F := Ideal)), op.fresh = ∅ := fun op h => by
  simp only [ops, List.mem_append] at h
  rcases h with h | h | h | h | h | h | h | h | h | h
  exacts [opsP1_fresh op h, opsS1_fresh op h, opsT1_fresh op h, opsL2_fresh op h, opsS2_fresh op h, opsT2_fresh op h, opsL3_fresh op h, opsS3_fresh op h, opsT3_fresh op h, opsBN_fresh op h]

/-- On every device, from any memory with zero counters: every weakly fair execution of the reference's @main
    terminates with the result at `out` of the arguments' launch contents and the eight arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v72)
        = out (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (defs (F := Ideal)) _ _).mono (fun _ h c => ⟨(h c main_v72).trans (after_ops_v72 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _)⟩)
    (run_seq scopedRefs_eq scopedSems_eq (defs (F := Ideal)) (main (F := Ideal)) (fun _ => ops) main_eq (fun _ => ops_sub) m ρ
      (fun _ => ops_fresh))

end Cert.ReferenceIdeal.RefRun

end
-- ==== Proof.lean ====
/-
  The proof of `Cert.Claim`: a three-layer retrieval (logits, row softmax over the hidden axis, product with the
  memory matrix) followed by a batch norm over the batch axis, computed by a program of four tiled kernels over the
  100000 columns padded with zeros to 49 tiles of 2048, against the plain jnp reference.

  At the exact instance every entry is an extended real and a change of float format is the identity, so:
  * region 0 accumulates, tile by tile, the contraction of the two padded arguments over a tile's 2048 columns; after the
    last tile the accumulator is the contraction over all 100352 columns, and the 352 padded columns contribute
    `0 · 0 = 0`: it is the reference's contraction over the 100000 columns;
  * regions 1 and 2 accumulate `(p · W_tile) · W_tileᵀ` over the tiles: the same contraction of the retrieved block
    `p · W` with `W` over the columns, a padded column contributing `(Σ_h p · 0) · 0 = 0`;
  * the host operations between the regions are the reference's own: the scalar products, the sums, and one row softmax
    that both programs apply as the same ten operations, never opened here;
  * region 3 computes each tile of `p · W` and normalises every column over the 256 rows with that column's scale and
    shift: column for column the reference's batch norm (the quotients by 256 and the shared epsilon are the same terms
    on both sides), and the final slice drops the padded columns.
  Only commutative-monoid laws of `+`, `x · 0 = 0` and `0 · x = 0` are used, which hold for every extended real: the
  precondition is never opened.

  The frames: each kernel's body is run once per control case (the accumulator reset at the first grid point, added to
  at the later ones); the region invariant carries the accumulator between grid points at the accumulation's value;
  @main is the fold of its nineteen items (host stretches and regions) over the launch memory. The word-level program's
  frame is the same text read at the word-level instance. The reference's run composes its 108 host operations.
-/
import proofs.«165993_j28200755266000_1_alg».proof.Defs
import proofs.«165993_j28200755266000_1_alg».proof.Proof.Gen.Kernel
import proofs.«165993_j28200755266000_1_alg».proof.Proof.Gen.KernelIdeal
import proofs.«165993_j28200755266000_1_alg».proof.Proof.Gen.ReferenceIdeal
import proofs.«165993_j28200755266000_1_alg».proof.Proof.Gen.Pre_finite_inputs
import proofs.«165993_j28200755266000_1_alg».proof.Proof.KB_Main
import proofs.«165993_j28200755266000_1_alg».proof.Proof.KI_Value
import proofs.«165993_j28200755266000_1_alg».proof.Proof.RefRun
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- So does the reference: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- From memories agreeing on the arguments both programs end with the reference's result term of those arguments. -/
theorem algebraic : Cert.algebraic_KernelIdeal_ReferenceIdeal := by
  intro m ρ m' ρ' _ hagree
  refine ⟨fun c => Cert.ReferenceIdeal.RefRun.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact Cert.KernelIdeal.Hand.run_main m ρ fun s h c =>
      ⟨(h c _ (Cert.KernelIdeal.Hand.mem_uc Cert.KernelIdeal.main_v54 (by decide))).trans (Cert.KernelIdeal.Hand.kernel_value m c),
       (h c _ (Cert.KernelIdeal.Hand.mem_uc Cert.KernelIdeal.main_arg0 (by decide))).trans (Cert.KernelIdeal.Hand.W19_kept m c Cert.KernelIdeal.main_arg0 Cert.KernelIdeal.Hand.kept_arg0),
       (h c _ (Cert.KernelIdeal.Hand.mem_uc Cert.KernelIdeal.main_arg1 (by decide))).trans (Cert.KernelIdeal.Hand.W19_kept m c Cert.KernelIdeal.main_arg1 Cert.KernelIdeal.Hand.kept_arg1),
       (h c _ (Cert.KernelIdeal.Hand.mem_uc Cert.KernelIdeal.main_arg2 (by decide))).trans (Cert.KernelIdeal.Hand.W19_kept m c Cert.KernelIdeal.main_arg2 Cert.KernelIdeal.Hand.kept_arg2),
       (h c _ (Cert.KernelIdeal.Hand.mem_uc Cert.KernelIdeal.main_arg3 (by decide))).trans (Cert.KernelIdeal.Hand.W19_kept m c Cert.KernelIdeal.main_arg3 Cert.KernelIdeal.Hand.kept_arg3),
       (h c _ (Cert.KernelIdeal.Hand.mem_uc Cert.KernelIdeal.main_arg4 (by decide))).trans (Cert.KernelIdeal.Hand.W19_kept m c Cert.KernelIdeal.main_arg4 Cert.KernelIdeal.Hand.kept_arg4),
       (h c _ (Cert.KernelIdeal.Hand.mem_uc Cert.KernelIdeal.main_arg5 (by decide))).trans (Cert.KernelIdeal.Hand.W19_kept m c Cert.KernelIdeal.main_arg5 Cert.KernelIdeal.Hand.kept_arg5),
       (h c _ (Cert.KernelIdeal.Hand.mem_uc Cert.KernelIdeal.main_arg6 (by decide))).trans (Cert.KernelIdeal.Hand.W19_kept m c Cert.KernelIdeal.main_arg6 Cert.KernelIdeal.Hand.kept_arg6),
       (h c _ (Cert.KernelIdeal.Hand.mem_uc Cert.KernelIdeal.main_arg7 (by decide))).trans (Cert.KernelIdeal.Hand.W19_kept m c Cert.KernelIdeal.main_arg7 Cert.KernelIdeal.Hand.kept_arg7)⟩
  · refine (θ_run (Cert.ReferenceIdeal.defs (F := Ideal)) _ _).mono (fun _ h c => ⟨?_, (h c).2⟩) (Cert.ReferenceIdeal.RefRun.run m' ρ')
    rw [(h c).1, (hagree c).1, (hagree c).2.1, (hagree c).2.2.1, (hagree c).2.2.2.1, (hagree c).2.2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
